-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x3 : Shape := ⟨3, ![8, 2048, 3]⟩
abbrev S64x5 : Shape := ⟨2, ![64, 5]⟩
abbrev S8x2048 : Shape := ⟨2, ![8, 2048]⟩
abbrev S8x2048x2048 : Shape := ⟨3, ![8, 2048, 2048]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S64x5 : S_.BroadcastsInDim S64x5 (![] : Fin 0 → Fin S64x5.rank)
  reducesTo_S64x5_S_d0_1 : S64x5.ReducesTo [0, 1] S_

variable [Facts]

def fn {F : FTy → Type} [FloatOps F] (main_arg0 : FVec F S8x2048x3 .f32) (main_arg1 : FVec F S64x5 .f32) (main_arg2 : IVec S8x2048 32) (main_arg3 : IVec S8x2048x2048 32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S64x5 .f32 := Host.absf main_arg1
  let main_cst_0 : FVec F S_ .f32 := constant S_ .f32 0x7F800000#32
  let main_v5 : FVec F S64x5 .f32 := broadcastInDim S64x5 ![] bcast_S_S64x5 main_cst_0
  let main_v6 : IVec S64x5 1 := cmpf .olt main_v4 main_v5
  let main_c_1 : IVec S_ 1 := constantI S_ 1 1#1
  let main_v7 : IVec S_ 1 := (fun x v => Host.reduce IntOp.andi x v reducesTo_S64x5_S_d0_1 h_S_) main_v6 main_c_1
  let main_v8 : IVec S_ 1 := andi main_v3 main_v7
  main_v8
-- ==== Kernel.lean ====
abbrev S8x2048x3 : Shape := ⟨3, ![8, 2048, 3]⟩
abbrev S64x5 : Shape := ⟨2, ![64, 5]⟩
abbrev S8x2048 : Shape := ⟨2, ![8, 2048]⟩
abbrev S8x2048x2048 : Shape := ⟨3, ![8, 2048, 2048]⟩
abbrev S64x1 : Shape := ⟨2, ![64, 1]⟩
abbrev S64 : Shape := ⟨1, ![64]⟩
abbrev S_ : Shape := ⟨0, ![]⟩
abbrev S8x2048x1 : Shape := ⟨3, ![8, 2048, 1]⟩
abbrev S8x2048x5 : Shape := ⟨3, ![8, 2048, 5]⟩
abbrev S2x8 : Shape := ⟨2, ![2, 8]⟩
abbrev S8x16x3 : Shape := ⟨3, ![8, 16, 3]⟩
abbrev S8x128x3 : Shape := ⟨3, ![8, 128, 3]⟩
abbrev S8x16x128 : Shape := ⟨3, ![8, 16, 128]⟩
abbrev S8x16x5 : Shape := ⟨3, ![8, 16, 5]⟩
abbrev S8x128x5 : Shape := ⟨3, ![8, 128, 5]⟩
abbrev S8x16x1 : Shape := ⟨3, ![8, 16, 1]⟩
abbrev S8x16 : Shape := ⟨2, ![8, 16]⟩
abbrev S8x128x1 : Shape := ⟨3, ![8, 128, 1]⟩
abbrev S8x128 : Shape := ⟨2, ![8, 128]⟩
abbrev S8x1x128 : Shape := ⟨3, ![8, 1, 128]⟩
abbrev S8 : Shape := ⟨1, ![8]⟩
abbrev S1x8 : Shape := ⟨2, ![1, 8]⟩

abbrev nBuf : Space → Nat
  | .hbm => 93
  | .vmem => 11
  | .smem => 0
  | _ => 0

abbrev bufTy : (tb : Table) → Fin (tcTables nBuf tb) → BufTy
  | .hbm, ⟨0, _⟩ => ⟨S8x2048x3, .f32⟩
  | .hbm, ⟨1, _⟩ => ⟨S64x5, .f32⟩
  | .hbm, ⟨2, _⟩ => ⟨S8x2048, .i32⟩
  | .hbm, ⟨3, _⟩ => ⟨S8x2048x2048, .i32⟩
  | .hbm, ⟨4, _⟩ => ⟨S64x1, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64x1, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64x1, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64x1, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S64x1, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S_, .i32⟩
  | .hbm, ⟨42, _⟩ => ⟨S8x2048, .i32⟩
  | .hbm, ⟨43, _⟩ => ⟨S8x2048, .i1⟩
  | .hbm, ⟨44, _⟩ => ⟨S_, .i32⟩
  | .hbm, ⟨45, _⟩ => ⟨S8x2048, .i32⟩
  | .hbm, ⟨46, _⟩ => ⟨S8x2048, .i32⟩
  | .hbm, ⟨47, _⟩ => ⟨S8x2048, .i32⟩
  | .hbm, ⟨48, _⟩ => ⟨S8x2048x1, .i32⟩
  | .hbm, ⟨49, _⟩ => ⟨S8x2048, .f32⟩
  | .hbm, ⟨50, _⟩ => ⟨S_, .i32⟩
  | .hbm, ⟨51, _⟩ => ⟨S8x2048, .i32⟩
  | .hbm, ⟨52, _⟩ => ⟨S8x2048, .i1⟩
  | .hbm, ⟨53, _⟩ => ⟨S_, .i32⟩
  | .hbm, ⟨54, _⟩ => ⟨S8x2048, .i32⟩
  | .hbm, ⟨55, _⟩ => ⟨S8x2048, .i32⟩
  | .hbm, ⟨56, _⟩ => ⟨S8x2048, .i32⟩
  | .hbm, ⟨57, _⟩ => ⟨S8x2048x1, .i32⟩
  | .hbm, ⟨58, _⟩ => ⟨S8x2048, .f32⟩
  | .hbm, ⟨59, _⟩ => ⟨S_, .i32⟩
  | .hbm, ⟨60, _⟩ => ⟨S8x2048, .i32⟩
  | .hbm, ⟨61, _⟩ => ⟨S8x2048, .i1⟩
  | .hbm, ⟨62, _⟩ => ⟨S_, .i32⟩
  | .hbm, ⟨63, _⟩ => ⟨S8x2048, .i32⟩
  | .hbm, ⟨64, _⟩ => ⟨S8x2048, .i32⟩
  | .hbm, ⟨65, _⟩ => ⟨S8x2048, .i32⟩
  | .hbm, ⟨66, _⟩ => ⟨S8x2048x1, .i32⟩
  | .hbm, ⟨67, _⟩ => ⟨S8x2048, .f32⟩
  | .hbm, ⟨68, _⟩ => ⟨S_, .i32⟩
  | .hbm, ⟨69, _⟩ => ⟨S8x2048, .i32⟩
  | .hbm, ⟨70, _⟩ => ⟨S8x2048, .i1⟩
  | .hbm, ⟨71, _⟩ => ⟨S_, .i32⟩
  | .hbm, ⟨72, _⟩ => ⟨S8x2048, .i32⟩
  | .hbm, ⟨73, _⟩ => ⟨S8x2048, .i32⟩
  | .hbm, ⟨74, _⟩ => ⟨S8x2048, .i32⟩
  | .hbm, ⟨75, _⟩ => ⟨S8x2048x1, .i32⟩
  | .hbm, ⟨76, _⟩ => ⟨S8x2048, .f32⟩
  | .hbm, ⟨77, _⟩ => ⟨S_, .i32⟩
  | .hbm, ⟨78, _⟩ => ⟨S8x2048, .i32⟩
  | .hbm, ⟨79, _⟩ => ⟨S8x2048, .i1⟩
  | .hbm, ⟨80, _⟩ => ⟨S_, .i32⟩
  | .hbm, ⟨81, _⟩ => ⟨S8x2048, .i32⟩
  | .hbm, ⟨82, _⟩ => ⟨S8x2048, .i32⟩
  | .hbm, ⟨83, _⟩ => ⟨S8x2048, .i32⟩
  | .hbm, ⟨84, _⟩ => ⟨S8x2048x1, .i32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x1, .f32⟩
  | .hbm, ⟨89, _⟩ => ⟨S8x2048x1, .f32⟩
  | .hbm, ⟨90, _⟩ => ⟨S8x2048x1, .f32⟩
  | .hbm, ⟨91, _⟩ => ⟨S8x2048x5, .f32⟩
  | .hbm, ⟨92, _⟩ => ⟨S2x8, .f32⟩
  | .local _ .vmem, ⟨0, _⟩ => ⟨S8x16x3, .f32⟩
  | .local _ .vmem, ⟨1, _⟩ => ⟨S8x16x3, .f32⟩
  | .local _ .vmem, ⟨2, _⟩ => ⟨S8x128x3, .f32⟩
  | .local _ .vmem, ⟨3, _⟩ => ⟨S8x128x3, .f32⟩
  | .local _ .vmem, ⟨4, _⟩ => ⟨S8x16x128, .i32⟩
  | .local _ .vmem, ⟨5, _⟩ => ⟨S8x16x128, .i32⟩
  | .local _ .vmem, ⟨6, _⟩ => ⟨S8x16x5, .f32⟩
  | .local _ .vmem, ⟨7, _⟩ => ⟨S8x16x5, .f32⟩
  | .local _ .vmem, ⟨8, _⟩ => ⟨S8x128x5, .f32⟩
  | .local _ .vmem, ⟨9, _⟩ => ⟨S8x128x5, .f32⟩
  | .local _ .vmem, ⟨10, _⟩ => ⟨S2x8, .f32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_11 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_c_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_15 : Ref sig .tc := ⟨.hbm, 77, rfl⟩
abbrev main_v56 : Ref sig .tc := ⟨.hbm, 78, rfl⟩
abbrev main_v57 : Ref sig .tc := ⟨.hbm, 79, rfl⟩
abbrev main_c_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![128, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x5 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  slices_S64x5_S64x1_0_0 : S64x5.Slices ![0, 0] S64x1
  shapeCasts_S64x1_S64 : S64x1.ShapeCasts S64
  bcast_S_S64 : S_.BroadcastsInDim S64 (![] : Fin 0 → Fin S64.rank)
  slices_S64x5_S64x1_0_1 : S64x5.Slices ![0, 1] S64x1
  slices_S64x5_S64x1_0_2 : S64x5.Slices ![0, 2] S64x1
  slices_S64x5_S64x1_0_3 : S64x5.Slices ![0, 3] S64x1
  slices_S64x5_S64x1_0_4 : S64x5.Slices ![0, 4] S64x1
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  concatenates_S8x2048x1_S8x2048x1_S8x2048x1_S8x2048x1_S8x2048x1_S8x2048x5_d2 : Shape.Concatenates [S8x2048x1, S8x2048x1, S8x2048x1, S8x2048x1, S8x2048x1] S8x2048x5 2
  inb_S8x16x3_S8x16x3_0_0_0 : ∀ a, (![0, 0, 0] : Fin 3 → Nat) a + S8x16x3.size a ≤ S8x16x3.size a
  h_S8x16x3 : 0 < S8x16x3.numel
  inb_S8x128x3_S8x128x3_0_0_0 : ∀ a, (![0, 0, 0] : Fin 3 → Nat) a + S8x128x3.size a ≤ S8x128x3.size a
  h_S8x128x3 : 0 < S8x128x3.numel
  inb_S8x16x128_S8x16x128_0_0_0 : ∀ a, (![0, 0, 0] : Fin 3 → Nat) a + S8x16x128.size a ≤ S8x16x128.size a
  h_S8x16x128 : 0 < S8x16x128.numel
  inb_S8x16x5_S8x16x5_0_0_0 : ∀ a, (![0, 0, 0] : Fin 3 → Nat) a + S8x16x5.size a ≤ S8x16x5.size a
  h_S8x16x5 : 0 < S8x16x5.numel
  shapeCasts_S8x16x5_S8x16x5 : S8x16x5.ShapeCasts S8x16x5
  inb_S8x128x5_S8x128x5_0_0_0 : ∀ a, (![0, 0, 0] : Fin 3 → Nat) a + S8x128x5.size a ≤ S8x128x5.size a
  h_S8x128x5 : 0 < S8x128x5.numel
  shapeCasts_S8x128x5_S8x128x5 : S8x128x5.ShapeCasts S8x128x5
  slices_S8x16x5_o0_0_0_S8x16x1 : S8x16x5.Slices ![0, 0, 0] S8x16x1
  shapeCasts_S8x16x1_S8x16 : S8x16x1.ShapeCasts S8x16
  slices_S8x16x5_o0_0_1_S8x16x1 : S8x16x5.Slices ![0, 0, 1] S8x16x1
  slices_S8x16x5_o0_0_2_S8x16x1 : S8x16x5.Slices ![0, 0, 2] S8x16x1
  slices_S8x16x5_o0_0_3_S8x16x1 : S8x16x5.Slices ![0, 0, 3] S8x16x1
  slices_S8x16x5_o0_0_4_S8x16x1 : S8x16x5.Slices ![0, 0, 4] S8x16x1
  slices_S8x128x5_o0_0_0_S8x128x1 : S8x128x5.Slices ![0, 0, 0] S8x128x1
  shapeCasts_S8x128x1_S8x128 : S8x128x1.ShapeCasts S8x128
  slices_S8x128x5_o0_0_1_S8x128x1 : S8x128x5.Slices ![0, 0, 1] S8x128x1
  slices_S8x128x5_o0_0_2_S8x128x1 : S8x128x5.Slices ![0, 0, 2] S8x128x1
  slices_S8x128x5_o0_0_3_S8x128x1 : S8x128x5.Slices ![0, 0, 3] S8x128x1
  slices_S8x128x5_o0_0_4_S8x128x1 : S8x128x5.Slices ![0, 0, 4] S8x128x1
  reduces_S8x16x3_S8x16 : S8x16x3.Reduces [2] S8x16
  reduces_S8x128x3_S8x128 : S8x128x3.Reduces [2] S8x128
  shapeCasts_S8x16_S8x16x1 : S8x16.ShapeCasts S8x16x1
  shapeCasts_S8x128_S8x1x128 : S8x128.ShapeCasts S8x1x128
  broadcasts_S8x16x1_S8x16x128 : S8x16x1.Broadcasts S8x16x128
  broadcasts_S8x1x128_S8x16x128 : S8x1x128.Broadcasts S8x16x128
  iota_S8x16x128_d1_w32 : S8x16x128.Iotas .tc 32 [1]
  iota_S8x16x128_d2_w32 : S8x16x128.Iotas .tc 32 [2]
  reduces_S8x16x128_S8x16 : S8x16x128.Reduces [2] S8x16
  reduces_S8x16_S8 : S8x16.Reduces [1] S8
  shapeCasts_S8_S1x8 : S8.ShapeCasts S1x8
  concatenates_S1x8_S1x8_S2x8_d0 : Shape.Concatenates [S1x8, S1x8] S2x8 0
  inb_S2x8_S2x8_0_0 : ∀ a, (![0, 0] : Fin 2 → Nat) a + S2x8.size a ≤ S2x8.size a
  h_S2x8 : 0 < S2x8.numel
  shapeCasts_S2x8_S2x8 : S2x8.ShapeCasts S2x8
  gather_S64_S8x2048x1_S8x2048_n_0_n_n_0_2_1_wf : GatherDims.WF S64 S8x2048x1 S8x2048 [] [0] [] [0] [] 2 ![1]
  dot_S8x16x3_S8x128x3_S8x16x128_2_2_1_1_0_0_wf : DotDims.WF S8x16x3 S8x128x3 S8x16x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x3.size a ≤ S8x2048x3.size a
  hwx0_0 : ∀ i : grid0.Coords, EltTy.bits .f32 = 32 ∨ (Rect.block (s := S8x2048x3) S8x16x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x3.size a ≤ S8x2048x3.size a
  hwx0_1 : ∀ i : grid0.Coords, EltTy.bits .f32 = 32 ∨ (Rect.block (s := S8x2048x3) S8x128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x128.size a ≤ S8x2048x2048.size a
  hwx0_2 : ∀ i : grid0.Coords, EltTy.bits .i32 = 32 ∨ (Rect.block (s := S8x2048x2048) S8x16x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x5.size a ≤ S8x2048x5.size a
  hwx0_3 : ∀ i : grid0.Coords, EltTy.bits .f32 = 32 ∨ (Rect.block (s := S8x2048x5) S8x16x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x5.size a ≤ S8x2048x5.size a
  hwx0_4 : ∀ i : grid0.Coords, EltTy.bits .f32 = 32 ∨ (Rect.block (s := S8x2048x5) S8x128x5.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x8.size a ≤ S2x8.size a
  hwx0_5 : ∀ i : grid0.Coords, EltTy.bits .f32 = 32 ∨ (Rect.block (s := S2x8) S2x8.size (cc0_transform_5 i) (hinb0_5 i)).WholeWords (EltTy.packing .f32)

variable [Facts₀]

def gather_S64_S8x2048x1_S8x2048_n_0_n_n_0_2_1 : GatherDims S64 S8x2048x1 S8x2048 where
  offsetDims := []
  collapsedSliceDims := [0]
  operandBatchingDims := []
  startIndicesBatchingDims := []
  startIndexMap := [0]
  indexVectorDim := 2
  sliceSizes := ![1]
  wf := gather_S64_S8x2048x1_S8x2048_n_0_n_n_0_2_1_wf
def dot_S8x16x3_S8x128x3_S8x16x128_2_2_1_1_0_0 : DotDims S8x16x3 S8x128x3 S8x16x128 where
  lhsContracting := [2]
  rhsContracting := [2]
  lhsNonContracting := [1]
  rhsNonContracting := [1]
  lhsBatch := [0]
  rhsBatch := [0]
  wf := dot_S8x16x3_S8x128x3_S8x16x128_2_2_1_1_0_0_wf

abbrev win0_0 : Pipeline.Window sig grid0 :=
  Pipeline.Window.ofSpec (Memref.whole main_arg0) S8x16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v68) S8x16x5.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v68) S8x128x5.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v69) S2x8.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x3 : Shape := ⟨3, ![8, 2048, 3]⟩
abbrev S64x5 : Shape := ⟨2, ![64, 5]⟩
abbrev S8x2048 : Shape := ⟨2, ![8, 2048]⟩
abbrev S8x2048x2048 : Shape := ⟨3, ![8, 2048, 2048]⟩
abbrev S64x1 : Shape := ⟨2, ![64, 1]⟩
abbrev S64 : Shape := ⟨1, ![64]⟩
abbrev S_ : Shape := ⟨0, ![]⟩
abbrev S8x2048x1 : Shape := ⟨3, ![8, 2048, 1]⟩
abbrev S8x1x2048 : Shape := ⟨3, ![8, 1, 2048]⟩
abbrev S2048x2048 : Shape := ⟨2, ![2048, 2048]⟩
abbrev S1x2048x2048 : Shape := ⟨3, ![1, 2048, 2048]⟩
abbrev S8 : Shape := ⟨1, ![8]⟩
abbrev S1x8 : Shape := ⟨2, ![1, 8]⟩
abbrev S2x8 : Shape := ⟨2, ![2, 8]⟩

abbrev nBuf : Space → Nat
  | .hbm => 257
  | .vmem => 0
  | .smem => 0
  | _ => 0

abbrev hbmTy0_0 (i : Nat) : BufTy := match i % 128 with
  | 0 => ⟨S8x2048x3, .f32⟩
  | 1 => ⟨S64x5, .f32⟩
  | 2 => ⟨S8x2048, .i32⟩
  | 3 => ⟨S8x2048x2048, .i32⟩
  | 4 => ⟨S64x1, .f32⟩
  | 5 => ⟨S64, .f32⟩
  | 6 => ⟨S_, .f32⟩
  | 7 => ⟨S64, .f32⟩
  | 8 => ⟨S64, .f32⟩
  | 9 => ⟨S64x1, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S64x1, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S64x1, .f32⟩
  | 26 => ⟨S64, .f32⟩
  | 27 => ⟨S_, .f32⟩
  | 28 => ⟨S64, .f32⟩
  | 29 => ⟨S64, .f32⟩
  | 30 => ⟨S_, .f32⟩
  | 31 => ⟨S64, .f32⟩
  | 32 => ⟨S64, .f32⟩
  | 33 => ⟨S64x1, .f32⟩
  | 34 => ⟨S64, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S_, .i32⟩
  | 42 => ⟨S8x2048, .i32⟩
  | 43 => ⟨S8x2048, .i1⟩
  | 44 => ⟨S_, .i32⟩
  | 45 => ⟨S8x2048, .i32⟩
  | 46 => ⟨S8x2048, .i32⟩
  | 47 => ⟨S8x2048, .i32⟩
  | 48 => ⟨S8x2048x1, .i32⟩
  | 49 => ⟨S8x2048, .f32⟩
  | 50 => ⟨S_, .i32⟩
  | 51 => ⟨S8x2048, .i32⟩
  | 52 => ⟨S8x2048, .i1⟩
  | 53 => ⟨S_, .i32⟩
  | 54 => ⟨S8x2048, .i32⟩
  | 55 => ⟨S8x2048, .i32⟩
  | 56 => ⟨S8x2048, .i32⟩
  | 57 => ⟨S8x2048x1, .i32⟩
  | 58 => ⟨S8x2048, .f32⟩
  | 59 => ⟨S_, .i32⟩
  | 60 => ⟨S8x2048, .i32⟩
  | 61 => ⟨S8x2048, .i1⟩
  | 62 => ⟨S_, .i32⟩
  | 63 => ⟨S8x2048, .i32⟩
  | 64 => ⟨S8x2048, .i32⟩
  | 65 => ⟨S8x2048, .i32⟩
  | 66 => ⟨S8x2048x1, .i32⟩
  | 67 => ⟨S8x2048, .f32⟩
  | 68 => ⟨S_, .i32⟩
  | 69 => ⟨S8x2048, .i32⟩
  | 70 => ⟨S8x2048, .i1⟩
  | 71 => ⟨S_, .i32⟩
  | 72 => ⟨S8x2048, .i32⟩
  | 73 => ⟨S8x2048, .i32⟩
  | 74 => ⟨S8x2048, .i32⟩
  | 75 => ⟨S8x2048x1, .i32⟩
  | 76 => ⟨S8x2048, .f32⟩
  | 77 => ⟨S_, .i32⟩
  | 78 => ⟨S8x2048, .i32⟩
  | 79 => ⟨S8x2048, .i1⟩
  | 80 => ⟨S_, .i32⟩
  | 81 => ⟨S8x2048, .i32⟩
  | 82 => ⟨S8x2048, .i32⟩
  | 83 => ⟨S8x2048, .i32⟩
  | 84 => ⟨S8x2048x1, .i32⟩
  | 85 => ⟨S8x2048, .f32⟩
  | 86 => ⟨S8x2048x3, .f32⟩
  | 87 => ⟨S_, .f32⟩
  | 88 => ⟨S8x2048, .f32⟩
  | 89 => ⟨S8x2048x1, .f32⟩
  | 90 => ⟨S8x1x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S_, .f32⟩
  | 96 => ⟨S8x2048x2048, .f32⟩
  | 97 => ⟨S8x2048x2048, .f32⟩
  | 98 => ⟨S8x2048x2048, .f32⟩
  | 99 => ⟨S_, .f32⟩
  | 100 => ⟨S8x2048x2048, .f32⟩
  | 101 => ⟨S8x2048x2048, .f32⟩
  | 102 => ⟨S8x2048x2048, .f32⟩
  | 103 => ⟨S8x2048x1, .f32⟩
  | 104 => ⟨S8x1x2048, .f32⟩
  | 105 => ⟨S8x2048x2048, .f32⟩
  | 106 => ⟨S8x2048x2048, .f32⟩
  | 107 => ⟨S8x2048x2048, .f32⟩
  | 108 => ⟨S8x2048x1, .f32⟩
  | 109 => ⟨S8x1x2048, .f32⟩
  | 110 => ⟨S8x2048x2048, .f32⟩
  | 111 => ⟨S8x2048x2048, .f32⟩
  | 112 => ⟨S8x2048x2048, .f32⟩
  | 113 => ⟨S8x2048x2048, .f32⟩
  | 114 => ⟨S_, .i32⟩
  | 115 => ⟨S8x2048x2048, .i32⟩
  | 116 => ⟨S8x2048x2048, .i1⟩
  | 117 => ⟨S_, .i32⟩
  | 118 => ⟨S8x2048x2048, .i32⟩
  | 119 => ⟨S8x2048x2048, .i1⟩
  | 120 => ⟨S_, .f32⟩
  | 121 => ⟨S_, .f32⟩
  | 122 => ⟨S8x2048x2048, .f32⟩
  | 123 => ⟨S8x2048x2048, .f32⟩
  | 124 => ⟨S8x2048x2048, .f32⟩
  | 125 => ⟨S_, .f32⟩
  | 126 => ⟨S8x2048x2048, .f32⟩
  | 127 => ⟨S8x2048x2048, .f32⟩
  | _ => ⟨S8x2048x3, .f32⟩

abbrev hbmTy0_1 (i : Nat) : BufTy := match i % 128 with
  | 0 => ⟨S8x2048x2048, .f32⟩
  | 1 => ⟨S2048x2048, .i32⟩
  | 2 => ⟨S2048x2048, .i32⟩
  | 3 => ⟨S_, .i32⟩
  | 4 => ⟨S2048x2048, .i32⟩
  | 5 => ⟨S2048x2048, .i32⟩
  | 6 => ⟨S2048x2048, .i1⟩
  | 7 => ⟨S1x2048x2048, .i1⟩
  | 8 => ⟨S_, .f32⟩
  | 9 => ⟨S_, .f32⟩
  | 10 => ⟨S8x2048x2048, .i1⟩
  | 11 => ⟨S8x2048x2048, .f32⟩
  | 12 => ⟨S8x2048x2048, .f32⟩
  | 13 => ⟨S_, .f32⟩
  | 14 => ⟨S8x2048x2048, .f32⟩
  | 15 => ⟨S8x2048x2048, .f32⟩
  | 16 => ⟨S_, .f32⟩
  | 17 => ⟨S8x2048x2048, .f32⟩
  | 18 => ⟨S8x2048x2048, .f32⟩
  | 19 => ⟨S_, .f32⟩
  | 20 => ⟨S_, .f32⟩
  | 21 => ⟨S_, .f32⟩
  | 22 => ⟨S8x2048x2048, .f32⟩
  | 23 => ⟨S8x2048x2048, .f32⟩
  | 24 => ⟨S_, .f32⟩
  | 25 => ⟨S8x2048x2048, .f32⟩
  | 26 => ⟨S8x2048x2048, .f32⟩
  | 27 => ⟨S8x2048x2048, .f32⟩
  | 28 => ⟨S_, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S8x2048x2048, .f32⟩
  | 35 => ⟨S_, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S8x2048x2048, .f32⟩
  | 45 => ⟨S8x2048x2048, .f32⟩
  | 46 => ⟨S8x2048x2048, .f32⟩
  | 47 => ⟨S_, .f32⟩
  | 48 => ⟨S8x2048x2048, .f32⟩
  | 49 => ⟨S8x2048x2048, .f32⟩
  | 50 => ⟨S8x2048x2048, .f32⟩
  | 51 => ⟨S8x2048x2048, .f32⟩
  | 52 => ⟨S8x2048x2048, .f32⟩
  | 53 => ⟨S8x2048x2048, .f32⟩
  | 54 => ⟨S8x2048x2048, .f32⟩
  | 55 => ⟨S8x2048x2048, .f32⟩
  | 56 => ⟨S_, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S8x2048x2048, .i1⟩
  | 64 => ⟨S8x2048x2048, .f32⟩
  | 65 => ⟨S8x2048x2048, .f32⟩
  | 66 => ⟨S8x2048x2048, .f32⟩
  | 67 => ⟨S8x2048x2048, .f32⟩
  | 68 => ⟨S_, .f32⟩
  | 69 => ⟨S8x2048x2048, .f32⟩
  | 70 => ⟨S8x2048x2048, .f32⟩
  | 71 => ⟨S8x2048x1, .f32⟩
  | 72 => ⟨S8x2048x2048, .f32⟩
  | 73 => ⟨S8x2048x2048, .f32⟩
  | 74 => ⟨S8x2048x1, .f32⟩
  | 75 => ⟨S8x2048x2048, .f32⟩
  | 76 => ⟨S8x2048x2048, .f32⟩
  | 77 => ⟨S8x1x2048, .f32⟩
  | 78 => ⟨S8x2048x2048, .f32⟩
  | 79 => ⟨S8x2048x2048, .f32⟩
  | 80 => ⟨S8x1x2048, .f32⟩
  | 81 => ⟨S8x2048x2048, .f32⟩
  | 82 => ⟨S8x2048x2048, .f32⟩
  | 83 => ⟨S8x2048x2048, .f32⟩
  | 84 => ⟨S_, .f32⟩
  | 85 => ⟨S8x2048x2048, .f32⟩
  | 86 => ⟨S8x2048x2048, .f32⟩
  | 87 => ⟨S8x2048x1, .f32⟩
  | 88 => ⟨S8x1x2048, .f32⟩
  | 89 => ⟨S8x2048x2048, .f32⟩
  | 90 => ⟨S8x2048x2048, .f32⟩
  | 91 => ⟨S8x2048x2048, .f32⟩
  | 92 => ⟨S8x2048x1, .f32⟩
  | 93 => ⟨S8x2048x2048, .f32⟩
  | 94 => ⟨S8x2048x2048, .f32⟩
  | 95 => ⟨S8x2048x2048, .f32⟩
  | 96 => ⟨S8x2048x2048, .f32⟩
  | 97 => ⟨S8x2048x2048, .f32⟩
  | 98 => ⟨S8x2048x2048, .f32⟩
  | 99 => ⟨S8x1x2048, .f32⟩
  | 100 => ⟨S8x2048x1, .f32⟩
  | 101 => ⟨S8x2048x2048, .f32⟩
  | 102 => ⟨S8x2048x2048, .f32⟩
  | 103 => ⟨S8x2048x2048, .f32⟩
  | 104 => ⟨S8x1x2048, .f32⟩
  | 105 => ⟨S8x2048x2048, .f32⟩
  | 106 => ⟨S8x2048x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S8x2048x2048, .f32⟩
  | 112 => ⟨S8x2048x2048, .f32⟩
  | 113 => ⟨S8x2048x2048, .f32⟩
  | 114 => ⟨S8x2048x2048, .f32⟩
  | 115 => ⟨S_, .f32⟩
  | 116 => ⟨S8, .f32⟩
  | 117 => ⟨S_, .f32⟩
  | 118 => ⟨S8, .f32⟩
  | 119 => ⟨S8, .f32⟩
  | 120 => ⟨S8x2048x2048, .f32⟩
  | 121 => ⟨S_, .f32⟩
  | 122 => ⟨S8, .f32⟩
  | 123 => ⟨S_, .f32⟩
  | 124 => ⟨S8, .f32⟩
  | 125 => ⟨S8, .f32⟩
  | 126 => ⟨S1x8, .f32⟩
  | 127 => ⟨S1x8, .f32⟩
  | _ => ⟨S8x2048x3, .f32⟩

abbrev hbmTy0_2 (i : Nat) : BufTy := match i % 128 with
  | 0 => ⟨S2x8, .f32⟩
  | _ => ⟨S8x2048x3, .f32⟩

abbrev hbmTy (i : Nat) : BufTy := match i / 128 with
  | 0 => hbmTy0_0 i
  | 1 => hbmTy0_1 i
  | 2 => hbmTy0_2 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_11 : Ref sig .tc := ⟨.hbm, 59, rfl⟩
abbrev main_v42 : Ref sig .tc := ⟨.hbm, 60, rfl⟩
abbrev main_v43 : Ref sig .tc := ⟨.hbm, 61, rfl⟩
abbrev main_c_12 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_13 : Ref sig .tc := ⟨.hbm, 68, rfl⟩
abbrev main_v49 : Ref sig .tc := ⟨.hbm, 69, rfl⟩
abbrev main_v50 : Ref sig .tc := ⟨.hbm, 70, rfl⟩
abbrev main_c_14 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_15 : Ref sig .tc := ⟨.hbm, 77, rfl⟩
abbrev main_v56 : Ref sig .tc := ⟨.hbm, 78, rfl⟩
abbrev main_v57 : Ref sig .tc := ⟨.hbm, 79, rfl⟩
abbrev main_c_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_18 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_c_20 : Ref sig .tc := ⟨.hbm, 114, rfl⟩
abbrev main_v88 : Ref sig .tc := ⟨.hbm, 115, rfl⟩
abbrev main_v89 : Ref sig .tc := ⟨.hbm, 116, rfl⟩
abbrev main_c_21 : Ref sig .tc := ⟨.hbm, 117, rfl⟩
abbrev main_v90 : Ref sig .tc := ⟨.hbm, 118, rfl⟩
abbrev main_v91 : Ref sig .tc := ⟨.hbm, 119, rfl⟩
abbrev main_cst_22 : Ref sig .tc := ⟨.hbm, 120, rfl⟩
abbrev main_cst_23 : Ref sig .tc := ⟨.hbm, 121, rfl⟩
abbrev main_call0_v0 : Ref sig .tc := ⟨.hbm, 122, rfl⟩
abbrev main_call0_v1 : Ref sig .tc := ⟨.hbm, 123, rfl⟩
abbrev main_v92 : Ref sig .tc := ⟨.hbm, 124, rfl⟩
abbrev main_cst_24 : Ref sig .tc := ⟨.hbm, 125, rfl⟩
abbrev main_call1_v0 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_25 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_cst_26 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_v101 : Ref sig .tc := ⟨.hbm, 140, rfl⟩
abbrev main_cst_27 : Ref sig .tc := ⟨.hbm, 141, rfl⟩
abbrev main_v102 : Ref sig .tc := ⟨.hbm, 142, rfl⟩
abbrev main_v103 : Ref sig .tc := ⟨.hbm, 143, rfl⟩
abbrev main_cst_28 : Ref sig .tc := ⟨.hbm, 144, rfl⟩
abbrev main_v104 : Ref sig .tc := ⟨.hbm, 145, rfl⟩
abbrev main_v105 : Ref sig .tc := ⟨.hbm, 146, rfl⟩
abbrev main_cst_29 : Ref sig .tc := ⟨.hbm, 147, rfl⟩
abbrev main_cst_30 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_v106 : Ref sig .tc := ⟨.hbm, 154, rfl⟩
abbrev main_v107 : Ref sig .tc := ⟨.hbm, 155, rfl⟩
abbrev main_cst_31 : Ref sig .tc := ⟨.hbm, 156, rfl⟩
abbrev main_v108 : Ref sig .tc := ⟨.hbm, 157, rfl⟩
abbrev main_v109 : Ref sig .tc := ⟨.hbm, 158, rfl⟩
abbrev main_cst_32 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_33 : Ref sig .tc := ⟨.hbm, 163, rfl⟩
abbrev main_v113 : Ref sig .tc := ⟨.hbm, 164, rfl⟩
abbrev main_v114 : Ref sig .tc := ⟨.hbm, 165, rfl⟩
abbrev main_cst_34 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_35 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_cst_36 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_37 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_cst_38 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_cst_39 : Ref sig .tc := ⟨.hbm, 243, rfl⟩
abbrev main_v187 : Ref sig .tc := ⟨.hbm, 244, rfl⟩
abbrev main_cst_40 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_cst_41 : Ref sig .tc := ⟨.hbm, 249, rfl⟩
abbrev main_v191 : Ref sig .tc := ⟨.hbm, 250, rfl⟩
abbrev main_cst_42 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩

abbrev nD : Nat := 1
abbrev τ : Topo := Topo.v7x

variable {F : FTy → Type} [FloatOps F]

class Facts₀ : Prop where
  slices_S64x5_S64x1_0_0 : S64x5.Slices ![0, 0] S64x1
  shapeCasts_S64x1_S64 : S64x1.ShapeCasts S64
  bcast_S_S64 : S_.BroadcastsInDim S64 (![] : Fin 0 → Fin S64.rank)
  slices_S64x5_S64x1_0_1 : S64x5.Slices ![0, 1] S64x1
  slices_S64x5_S64x1_0_2 : S64x5.Slices ![0, 2] S64x1
  slices_S64x5_S64x1_0_3 : S64x5.Slices ![0, 3] S64x1
  slices_S64x5_S64x1_0_4 : S64x5.Slices ![0, 4] S64x1
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  reducesTo_S8x2048x3_S8x2048_d2 : S8x2048x3.ReducesTo [2] S8x2048
  h_S_ : 0 < S_.numel
  bcast_S8x2048_S8x1x2048_0_2 : S8x2048.BroadcastsInDim S8x1x2048 (![0, 2] : Fin 2 → Fin S8x1x2048.rank)
  bcast_S8x2048x1_S8x2048x2048_0_1_2 : S8x2048x1.BroadcastsInDim S8x2048x2048 (![0, 1, 2] : Fin 3 → Fin S8x2048x2048.rank)
  bcast_S8x1x2048_S8x2048x2048_0_1_2 : S8x1x2048.BroadcastsInDim S8x2048x2048 (![0, 1, 2] : Fin 3 → Fin S8x2048x2048.rank)
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8_d1_2 : S8x2048x2048.ReducesTo [1, 2] S8
  bcast_S_S8 : S_.BroadcastsInDim S8 (![] : Fin 0 → Fin S8.rank)
  bcast_S8_S1x8_1 : S8.BroadcastsInDim S1x8 (![1] : Fin 1 → Fin S1x8.rank)
  concatenates_S1x8_S1x8_S2x8_d0 : Shape.Concatenates [S1x8, S1x8] S2x8 0
  gather_S64_S8x2048x1_S8x2048_n_0_n_n_0_2_1_wf : GatherDims.WF S64 S8x2048x1 S8x2048 [] [0] [] [0] [] 2 ![1]
  dot_S8x2048x3_S8x2048x3_S8x2048x2048_2_2_1_1_0_0_wf : DotDims.WF S8x2048x3 S8x2048x3 S8x2048x2048 [2] [2] [1] [1] [0] [0]

variable [Facts₀]

def gather_S64_S8x2048x1_S8x2048_n_0_n_n_0_2_1 : GatherDims S64 S8x2048x1 S8x2048 where
  offsetDims := []
  collapsedSliceDims := [0]
  operandBatchingDims := []
  startIndicesBatchingDims := []
  startIndexMap := [0]
  indexVectorDim := 2
  sliceSizes := ![1]
  wf := gather_S64_S8x2048x1_S8x2048_n_0_n_n_0_2_1_wf
def dot_S8x2048x3_S8x2048x3_S8x2048x2048_2_2_1_1_0_0 : DotDims S8x2048x3 S8x2048x3 S8x2048x2048 where
  lhsContracting := [2]
  rhsContracting := [2]
  lhsNonContracting := [1]
  rhsNonContracting := [1]
  lhsBatch := [0]
  rhsBatch := [0]
  wf := dot_S8x2048x3_S8x2048x3_S8x2048x2048_2_2_1_1_0_0_wf

class Facts : Prop extends Facts₀ where

variable [Facts]
-- ==== Proof.KBCond.lean ====
/-
  The accumulator's reset condition and the tile body run symbolically.

  The body zeroes the resident [2,8] accumulator exactly when both grid coordinates are zero — the first of the
  2048 grid points — and at every point adds the tile's two half-sums to it.  Two cases therefore: at the first
  point the accumulator is overwritten before it is read; at every later point it is read as the point before
  left it.  In both, the five input blocks are only read.
-/
import proofs.«113635_j4526895530581_2_alg».proof.Proof.Gen.Kernel.Skeleton
import proofs.«113635_j4526895530581_2_alg».proof.Proof.Gen.Kernel.Launch
import proofs.«113635_j4526895530581_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition as the body computes it from the grid coordinates: both are zero. -/
abbrev resetCond (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem resetCond_iff : ∀ t : Fin cfg0.N, resetCond (grid0.coords t) ↔ t.val % 2048 = 0 :=
  (by decide +kernel : ∀ t : Fin grid0.N, resetCond (grid0.coords t) ↔ t.val % 2048 = 0)

end Cert.Kernel.Tile

end
-- ==== Proof.KBRunFirst.lean ====
/-
  The tile body run symbolically on whole staging buffers, once per case of the reset condition.

  Given the five input blocks (row atoms' coordinates, column atoms' coordinates, path distances, row atoms'
  parameters, column atoms' parameters) in their staging buffers, the body terminates without fault, leaves the
  inputs as they were, and leaves the accumulator's buffer written by the stores the run meets: at the first grid
  point a store of zeros and then of the tile's sums added to what was just stored; at any later point one store
  of the tile's sums added to the accumulator's previous contents.
-/
import proofs.«113635_j4526895530581_2_alg».proof.Proof.KBCond

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point: the accumulator is handed over at any contents. -/
noncomputable def runFirst (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : resetCond i)
    (x0 : Vec F S8x16x3 .f32) (x1 : Vec F S8x128x3 .f32) (x2 : Vec F S8x16x128 .i32) (x3 : Vec F S8x16x5 .f32) (x4 : Vec F S8x128x5 .f32) :
    { L : List (View.Piece (Elt F) S2x8 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L)) -∗ K ⟨⟩))
          ⊢ wp frame (wpE (defs₀ (F := F)) Variants.none c none) E (cc0__ljlk_kernel i a2 h2 a3 h3 a4 h4 a5 h5 a6 h6 a7 h7) K } := by
  refine ⟨?_, fun E K => ?run⟩
  case run =>
    simp only [cc0__ljlk_kernel_eq_skeleton]; unfold cc0__ljlk_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h2.eq_unread hf0; obtain rfl := h3.eq_unread hf1; obtain rfl := h4.eq_unread hf2
    obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.Kernel.Tile

end
-- ==== Proof.KBRunLater.lean ====
/-
  The tile body at a grid point after the first: the accumulator's buffer is read as the point before left it, and
  one store writes back those contents plus the tile's two half-sums.  The five input blocks are only read.
-/
import proofs.«113635_j4526895530581_2_alg».proof.Proof.KBRunFirst

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point: the accumulator is handed over at its running contents `xo`. -/
noncomputable def runLater (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : ¬resetCond i)
    (x0 : Vec F S8x16x3 .f32) (x1 : Vec F S8x128x3 .f32) (x2 : Vec F S8x16x128 .i32) (x3 : Vec F S8x16x5 .f32) (x4 : Vec F S8x128x5 .f32) (xo : Vec F S2x8 .f32) :
    { L : List (View.Piece (Elt F) S2x8 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L)) -∗ K ⟨⟩))
          ⊢ wp frame (wpE (defs₀ (F := F)) Variants.none c none) E (cc0__ljlk_kernel i a2 h2 a3 h3 a4 h4 a5 h5 a6 h6 a7 h7) K } := by
  refine ⟨?_, fun E K => ?run⟩
  case run =>
    simp only [cc0__ljlk_kernel_eq_skeleton]; unfold cc0__ljlk_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.Kernel.Tile

end
-- ==== Proof.KBBase.lean ====
/-
  The region's entry: what the TensorCore buffers hold once @main's host operations have run, that the four argument
  arrays are untouched by them, and the block of its array that each window reads at a grid point.

  @main first derives the per-atom parameter array (slices of the parameter table, affine maps, gathers by atom type,
  a concatenation along the last axis) and then enters the one region.  The region has six windows: the atoms'
  coordinates twice (a block of 16 rows and a block of 128 columns of the same array), the path distances, the
  per-atom parameters twice likewise, and the resident [2,8] result.
-/
import proofs.«113635_j4526895530581_2_alg».proof.Proof.KBCond

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: the launch contents after @main's host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the entry contents and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the entry contents and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body, and its wholeness. -/
abbrev ms0 (t : Fin cfg0.N) : Memref sig .tc .vmem S8x16x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x16x128 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x16x5 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128x5 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x8 .f32 := win0_5.stage (cfg0.slots t 5)
abbrev hs5 (t : Fin cfg0.N) : (ms5 t).IsWhole := hstage0_5 ((cfg0.slots t 5).cast nbuf0_5)

/-- One staging buffer of the result window, through which its contents are stated. -/
abbrev VO : View sig .tc .vmem S2x8 .f32 := (Memref.whole cc0_stg5_0 : Memref sig .tc .vmem S2x8 .f32).view

end Cert.Kernel.Tile

end
-- ==== Proof.KBFrame.lean ====
/-
  The accumulator point by point, the pipeline's proof data, the body obligation at every grid point, and the run.

  After the first grid point the result's staging buffer holds what the first-point body leaves; after each later
  point what the later-point body leaves over the previous contents.  The buffer is written back once, at the last
  point.  Two pairs of windows read one array each (coordinates; per-atom parameters): the array's full share is
  dealt to the pair as its two halves.
-/
import proofs.«113635_j4526895530581_2_alg».proof.Proof.KBRunLater
import proofs.«113635_j4526895530581_2_alg».proof.Proof.KBBase
import Idealize.ShloMosaic.Lib.Pipeline.Frame
import Idealize.ShloMosaic.Lib.Pipeline.Launch

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-point body's stores tile the accumulator's block, so they cover it. -/
theorem coverFirst (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : resetCond i) (x0 : Vec F S8x16x3 .f32) (x1 : Vec F S8x128x3 .f32) (x2 : Vec F S8x16x128 .i32) (x3 : Vec F S8x16x5 .f32) (x4 : Vec F S8x128x5 .f32) (y : S2x8.Idx) :
    ∃ pc ∈ (runFirst c i a2 h2 a3 h3 a4 h4 a5 h5 a6 h6 a7 h7 hc x0 x1 x2 x3 x4).1, y ∈ pc.1.set :=
  View.cover_of_tiledL (runFirst c i a2 h2 a3 h3 a4 h4 a5 h5 a6 h6 a7 h7 hc x0 x1 x2 x3 x4).1 S2x8.size (by sl_kernel_rfl) y

/-- What the first-point body leaves in the accumulator's buffer. -/
def outFirst (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : resetCond i) (x0 : Vec F S8x16x3 .f32) (x1 : Vec F S8x128x3 .f32) (x2 : Vec F S8x16x128 .i32) (x3 : Vec F S8x16x5 .f32) (x4 : Vec F S8x128x5 .f32) : Vec F S2x8 .f32 :=
  VO.read (Elt F) (VO.writes (Elt F) VO.junk (runFirst c i a2 h2 a3 h3 a4 h4 a5 h5 a6 h6 a7 h7 hc x0 x1 x2 x3 x4).1)

/-- A later-point body's store covers the accumulator's block. -/
theorem coverLater (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : ¬resetCond i) (x0 : Vec F S8x16x3 .f32) (x1 : Vec F S8x128x3 .f32) (x2 : Vec F S8x16x128 .i32) (x3 : Vec F S8x16x5 .f32) (x4 : Vec F S8x128x5 .f32) (xo : Vec F S2x8 .f32) (y : S2x8.Idx) :
    ∃ pc ∈ (runLater c i a2 h2 a3 h3 a4 h4 a5 h5 a6 h6 a7 h7 hc x0 x1 x2 x3 x4 xo).1, y ∈ pc.1.set :=
  View.cover_of_tiledL (runLater c i a2 h2 a3 h3 a4 h4 a5 h5 a6 h6 a7 h7 hc x0 x1 x2 x3 x4 xo).1 S2x8.size (by sl_kernel_rfl) y

/-- What a later-point body leaves in the accumulator's buffer, over its previous contents `xo`. -/
def outLater (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : ¬resetCond i) (x0 : Vec F S8x16x3 .f32) (x1 : Vec F S8x128x3 .f32) (x2 : Vec F S8x16x128 .i32) (x3 : Vec F S8x16x5 .f32) (x4 : Vec F S8x128x5 .f32) (xo : Vec F S2x8 .f32) : Vec F S2x8 .f32 :=
  VO.read (Elt F) (VO.writes (Elt F) VO.junk (runLater c i a2 h2 a3 h3 a4 h4 a5 h5 a6 h6 a7 h7 hc x0 x1 x2 x3 x4 xo).1)

theorem lt_grid {n : ℕ} (hn : n < cfg0.N) : n < 2048 := lt_of_lt_of_eq hn (show cfg0.N = 2048 from N_0)

/-- The accumulation: what the result's staging buffer holds after the body at grid position `n`. -/
def accAt (c : Dev nD) : (n : ℕ) → n < cfg0.N → Vec F S2x8 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn => outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
      (fun h => absurd ((resetCond_iff ⟨n + 1, hn⟩).mp h) (by have := lt_grid hn; dsimp only; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

theorem accAt_first (c : Dev nD) (t : Fin cfg0.N) (h0 : t.val % 2048 = 0) :
    accAt m c t.val t.isLt = outFirst c (grid0.coords t) (ms0 t) (hs0 t) (ms1 t) (hs1 t) (ms2 t) (hs2 t) (ms3 t) (hs3 t) (ms4 t) (hs4 t) (ms5 t) (hs5 t) ((resetCond_iff t).mpr h0) (iblk m c 0 t) (iblk m c 1 t) (iblk m c 2 t) (iblk m c 3 t) (iblk m c 4 t) := by
  obtain ⟨n, hn⟩ := t
  cases n with
  | zero => exact rfl
  | succ n => exact absurd h0 (by have := lt_grid hn; dsimp only; omega)

theorem accAt_later (c : Dev nD) (t : Fin cfg0.N) (h0 : ¬t.val % 2048 = 0) :
    accAt m c t.val t.isLt = outLater c (grid0.coords t) (ms0 t) (hs0 t) (ms1 t) (hs1 t) (ms2 t) (hs2 t) (ms3 t) (hs3 t) (ms4 t) (hs4 t) (ms5 t) (hs5 t) (fun h => h0 ((resetCond_iff t).mp h)) (iblk m c 0 t) (iblk m c 1 t) (iblk m c 2 t) (iblk m c 3 t) (iblk m c 4 t)
      (accAt m c (t.val - 1) (Nat.lt_of_le_of_lt (Nat.sub_le _ _) t.isLt)) := by
  obtain ⟨n, hn⟩ := t
  cases n with
  | zero => exact absurd (Nat.zero_mod _) h0
  | succ n => exact rfl

/-- The region's invariant: the core's scoped buffers that are no staging buffer (there are none). -/
abbrev Φ₀ (c : Dev nD) : sProp 𝕄 := Pipeline.scopedRest (Ix := Unit) (Name := ℕ) (U := UR sig nD τ) (Lvl := ℕ) (Val := Elt F) spec0 c

/-- The proof data of the one pipeline on core `c`: the arrays as the region finds them; after the body at point `t`
    each input's buffer at its block and the result's at `accAt`; the two windows on one array hold half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Φ₀ c
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-- At a later point the result's staging buffer holds what the body left at the point before: it is written back
    only at the last point. -/
theorem before5_later (c : Dev nD) (t : Fin cfg0.N) (h0 : ¬t.val % 2048 = 0) (d) :
    (dats m 0 c).before 5 t d = accAt m c (t.val - 1) (Nat.lt_of_le_of_lt (Nat.sub_le _ _) t.isLt) := by
  have hN : t.val < 2048 := lt_grid t.isLt
  rw [Dat.before_out_kept _ 5 rfl t (by omega) (Bool.eq_false_iff.mpr fun h => by have := (flush0_5 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point is the first or a later one; the matching
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 2048 = 0
  · rw [accAt_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((resetCond_iff t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _)
  · rw [accAt_later m c t h0]
    simp only [before5_later m c t h0]
    unfold outLater
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((resetCond_iff t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.KBLaunch.lean ====
/-
  The launch and the run.  The buffers behind the windows' arrays are four: the coordinates (two windows), the path
  distances, the per-atom parameters (two windows), the result.  Each doubly-read array's full share splits into its
  two halves, one per window; the others go whole to their one window.  Every weakly fair execution of @main then
  terminates without fault, each window's array ends at what the proof data computes — an input's unchanged, the
  result's overwritten at the last point by the accumulator — and every other unscoped buffer as the region found it.
-/
import proofs.«113635_j4526895530581_2_alg».proof.Proof.KBFrame

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays are four. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg3) ↦{fullShare} V m c main_arg3)
          ∗ (((c.tc : Thread nD τ).loc main_v68) ↦{fullShare} V m c main_v68) ∗ (((c.tc : Thread nD τ).loc main_v69) ↦{fullShare} V m c main_v69)) := by
  unfold Pipeline.arrBufs
  rw [show Finset.univ.image (Pipeline.arrRef spec0) = ({main_arg0, main_arg3, main_v68, main_v69} : Finset (Ref sig .tc)) from by decide]
  rw [bigSep_insert (by decide), bigSep_insert (by decide), bigSep_insert (by decide), bigSep_singleton]
  rfl

theorem arrAt0 (c : Dev nD) (w : Fin cfg0.W) : (dats m 0 c).arrAt w 0 = V m c (Pipeline.arrRef spec0 w) := A_eq m c w

/-- The split over an opaque entry-contents function: the coordinates' and the parameters' full shares are halved
    between their two windows, the other two arrays go whole to their one window. -/
theorem split_aux (c : Dev nD) (Vc : (b : Ref sig .tc) → Buf (Elt F) ((c.tc : Thread nD τ).loc b)) :
    (iprop((((c.tc : Thread nD τ).loc main_arg0) ↦{fullShare} Vc main_arg0) ∗ (((c.tc : Thread nD τ).loc main_arg3) ↦{fullShare} Vc main_arg3)
          ∗ (((c.tc : Thread nD τ).loc main_v68) ↦{fullShare} Vc main_v68) ∗ (((c.tc : Thread nD τ).loc main_v69) ↦{fullShare} Vc main_v69)) : sProp 𝕄)
      ⊢ iprop((((c.tc : Thread nD τ).loc main_arg0) ↦{fullShare.left} Vc main_arg0) ∗ (((c.tc : Thread nD τ).loc main_arg0) ↦{fullShare.right} Vc main_arg0)
          ∗ (((c.tc : Thread nD τ).loc main_arg3) ↦{fullShare} Vc main_arg3)
          ∗ (((c.tc : Thread nD τ).loc main_v68) ↦{fullShare.left} Vc main_v68) ∗ (((c.tc : Thread nD τ).loc main_v68) ↦{fullShare.right} Vc main_v68)
          ∗ (((c.tc : Thread nD τ).loc main_v69) ↦{fullShare} Vc main_v69)) := by
  iintro ⟨Hx, Hp, Hq, Ho⟩
  ihave Hx' := (pointsTo_share (PosShare.mem_left_op_right fullShare)).1 $$ Hx
  icases Hx' with ⟨Hx0, Hx1⟩
  ihave Hq' := (pointsTo_share (PosShare.mem_left_op_right fullShare)).1 $$ Hq
  icases Hq' with ⟨Hq0, Hq1⟩
  isplitl [Hx0]; · iexact Hx0
  isplitl [Hx1]; · iexact Hx1
  isplitl [Hp]; · iexact Hp
  isplitl [Hq0]; · iexact Hq0
  isplitl [Hq1]; · iexact Hq1
  iexact Ho

set_option maxHeartbeats 2000000 in
/-- The buffers behind the arrays, whole at full share at the entry contents, make the proof data's arrays at entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 5).set_eq_univ]
  dsimp only
  rw [arrAt0 m c 0, arrAt0 m c 1, arrAt0 m c 2, arrAt0 m c 3, arrAt0 m c 4, arrAt0 m c 5]
  rw [show (dats m 0 c).share 0 = fullShare.left from rfl, show (dats m 0 c).share 1 = fullShare.right from rfl,
    show (dats m 0 c).share 2 = fullShare from rfl, show (dats m 0 c).share 3 = fullShare.left from rfl,
    show (dats m 0 c).share 4 = fullShare.right from rfl, show (dats m 0 c).share 5 = fullShare from rfl]
  exact split_aux c (V m c)

/-- The run's post: every window's array at what the proof data computes after the last point, and every unscoped
    buffer that is no window's array as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option maxHeartbeats 8000000 in
set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ Φ₀ (F := F) c) ⊢ Φ₀ (F := F) c
      iintro ⟨-, H⟩; iexact H)
    (hout := fun c => by
      show Φ₀ (F := F) c ⊢ iprop(emp ∗ Φ₀ (F := F) c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.Kernel.Tile

end
-- ==== Proof.KBClaim.lean ====
/-
  The run read at the result and the arguments, and the frame.  Every weakly fair execution of @main terminates
  without fault; the result array ends at what the proof data computes after the last point, and the four argument
  arrays end as they began: the coordinates and the path distances are input windows' arrays (an input array is never
  written), the parameter table and the atom types are read by host operations only and bypass the region.
-/
import proofs.«113635_j4526895530581_2_alg».proof.Proof.KBLaunch

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_out : θ_run defs (onTc (τ := τ) (main (F := F))) ⟨m, fun _ => 0, ρ⟩ (fun r => ∀ c : Dev nD,
      r.2.mem ((c.tc : Thread nD τ).loc main_v69) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1 5,
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).1 2).trans (((dats m 0 c).arrAt_in 2 rfl _).trans ((A_eq m c 2).trans (V_main_arg3 m c)))⟩)
    (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out m ρ)

end Cert.Kernel.Tile

end
-- ==== Proof.KICond.lean ====
/-
  The accumulator's reset condition and the tile body run symbolically.

  The body zeroes the resident [2,8] accumulator exactly when both grid coordinates are zero — the first of the
  2048 grid points — and at every point adds the tile's two half-sums to it.  Two cases therefore: at the first
  point the accumulator is overwritten before it is read; at every later point it is read as the point before
  left it.  In both, the five input blocks are only read.
-/
import proofs.«113635_j4526895530581_2_alg».proof.Proof.Gen.KernelIdeal.Skeleton
import proofs.«113635_j4526895530581_2_alg».proof.Proof.Gen.KernelIdeal.Launch
import proofs.«113635_j4526895530581_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition as the body computes it from the grid coordinates: both are zero. -/
abbrev resetCond (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point only. -/
theorem resetCond_iff : ∀ t : Fin cfg0.N, resetCond (grid0.coords t) ↔ t.val % 2048 = 0 :=
  (by decide +kernel : ∀ t : Fin grid0.N, resetCond (grid0.coords t) ↔ t.val % 2048 = 0)

end Cert.KernelIdeal.Tile

end
-- ==== Proof.KIRunFirst.lean ====
/-
  The tile body run symbolically on whole staging buffers, once per case of the reset condition.

  Given the five input blocks (row atoms' coordinates, column atoms' coordinates, path distances, row atoms'
  parameters, column atoms' parameters) in their staging buffers, the body terminates without fault, leaves the
  inputs as they were, and leaves the accumulator's buffer written by the stores the run meets: at the first grid
  point a store of zeros and then of the tile's sums added to what was just stored; at any later point one store
  of the tile's sums added to the accumulator's previous contents.
-/
import proofs.«113635_j4526895530581_2_alg».proof.Proof.KICond

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first grid point: the accumulator is handed over at any contents. -/
noncomputable def runFirst (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : resetCond i)
    (x0 : Vec F S8x16x3 .f32) (x1 : Vec F S8x128x3 .f32) (x2 : Vec F S8x16x128 .i32) (x3 : Vec F S8x16x5 .f32) (x4 : Vec F S8x128x5 .f32) :
    { L : List (View.Piece (Elt F) S2x8 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ d, owns (c : Thread nD τ) a7 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L)) -∗ K ⟨⟩))
          ⊢ wp frame (wpE (defs₀ (F := F)) Variants.none c none) E (cc0__ljlk_kernel i a2 h2 a3 h3 a4 h4 a5 h5 a6 h6 a7 h7) K } := by
  refine ⟨?_, fun E K => ?run⟩
  case run =>
    simp only [cc0__ljlk_kernel_eq_skeleton]; unfold cc0__ljlk_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := h2.eq_unread hf0; obtain rfl := h3.eq_unread hf1; obtain rfl := h4.eq_unread hf2
    obtain rfl := h5.eq_unread hf3; obtain rfl := h6.eq_unread hf4
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.KernelIdeal.Tile

end
-- ==== Proof.KIRunLater.lean ====
/-
  The tile body at a grid point after the first: the accumulator's buffer is read as the point before left it, and
  one store writes back those contents plus the tile's two half-sums.  The five input blocks are only read.
-/
import proofs.«113635_j4526895530581_2_alg».proof.Proof.KIRunFirst

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a later grid point: the accumulator is handed over at its running contents `xo`. -/
noncomputable def runLater (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : ¬resetCond i)
    (x0 : Vec F S8x16x3 .f32) (x1 : Vec F S8x128x3 .f32) (x2 : Vec F S8x16x128 .i32) (x3 : Vec F S8x16x5 .f32) (x4 : Vec F S8x128x5 .f32) (xo : Vec F S2x8 .f32) :
    { L : List (View.Piece (Elt F) S2x8 .f32) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare xo
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ (∃ f, a7.view.loc (c : Thread nD τ) ↦[a7.view.set]{fullShare} a7.view.writes (Elt F) f L)) -∗ K ⟨⟩))
          ⊢ wp frame (wpE (defs₀ (F := F)) Variants.none c none) E (cc0__ljlk_kernel i a2 h2 a3 h3 a4 h4 a5 h5 a6 h6 a7 h7) K } := by
  refine ⟨?_, fun E K => ?run⟩
  case run =>
    simp only [cc0__ljlk_kernel_eq_skeleton]; unfold cc0__ljlk_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    iexists _; iexact H5

end Cert.KernelIdeal.Tile

end
-- ==== Proof.KIBase.lean ====
/-
  The region's entry: what the TensorCore buffers hold once @main's host operations have run, that the four argument
  arrays are untouched by them, and the block of its array that each window reads at a grid point.

  @main first derives the per-atom parameter array (slices of the parameter table, affine maps, gathers by atom type,
  a concatenation along the last axis) and then enters the one region.  The region has six windows: the atoms'
  coordinates twice (a block of 16 rows and a block of 128 columns of the same array), the path distances, the
  per-atom parameters twice likewise, and the resident [2,8] result.
-/
import proofs.«113635_j4526895530581_2_alg».proof.Proof.KICond

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: the launch contents after @main's host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the entry contents and whose body leaves the block in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is the entry contents and whose body leaves the block in place. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof data
    whose array is the entry contents and whose body leaves the block in place. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof data
    whose array is the entry contents and whose body leaves the block in place. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof data
    whose array is the entry contents and whose body leaves the block in place. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it to the body, and its wholeness. -/
abbrev ms0 (t : Fin cfg0.N) : Memref sig .tc .vmem S8x16x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x128x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x16x128 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x16x5 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x128x5 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x8 .f32 := win0_5.stage (cfg0.slots t 5)
abbrev hs5 (t : Fin cfg0.N) : (ms5 t).IsWhole := hstage0_5 ((cfg0.slots t 5).cast nbuf0_5)

/-- One staging buffer of the result window, through which its contents are stated. -/
abbrev VO : View sig .tc .vmem S2x8 .f32 := (Memref.whole cc0_stg5_0 : Memref sig .tc .vmem S2x8 .f32).view

end Cert.KernelIdeal.Tile

end
-- ==== Proof.KIFrame.lean ====
/-
  The accumulator point by point, the pipeline's proof data, the body obligation at every grid point, and the run.

  After the first grid point the result's staging buffer holds what the first-point body leaves; after each later
  point what the later-point body leaves over the previous contents.  The buffer is written back once, at the last
  point.  Two pairs of windows read one array each (coordinates; per-atom parameters): the array's full share is
  dealt to the pair as its two halves.
-/
import proofs.«113635_j4526895530581_2_alg».proof.Proof.KIRunLater
import proofs.«113635_j4526895530581_2_alg».proof.Proof.KIBase
import Idealize.ShloMosaic.Lib.Pipeline.Frame
import Idealize.ShloMosaic.Lib.Pipeline.Launch

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first-point body's stores tile the accumulator's block, so they cover it. -/
theorem coverFirst (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : resetCond i) (x0 : Vec F S8x16x3 .f32) (x1 : Vec F S8x128x3 .f32) (x2 : Vec F S8x16x128 .i32) (x3 : Vec F S8x16x5 .f32) (x4 : Vec F S8x128x5 .f32) (y : S2x8.Idx) :
    ∃ pc ∈ (runFirst c i a2 h2 a3 h3 a4 h4 a5 h5 a6 h6 a7 h7 hc x0 x1 x2 x3 x4).1, y ∈ pc.1.set :=
  View.cover_of_tiledL (runFirst c i a2 h2 a3 h3 a4 h4 a5 h5 a6 h6 a7 h7 hc x0 x1 x2 x3 x4).1 S2x8.size (by sl_kernel_rfl) y

/-- What the first-point body leaves in the accumulator's buffer. -/
def outFirst (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : resetCond i) (x0 : Vec F S8x16x3 .f32) (x1 : Vec F S8x128x3 .f32) (x2 : Vec F S8x16x128 .i32) (x3 : Vec F S8x16x5 .f32) (x4 : Vec F S8x128x5 .f32) : Vec F S2x8 .f32 :=
  VO.read (Elt F) (VO.writes (Elt F) VO.junk (runFirst c i a2 h2 a3 h3 a4 h4 a5 h5 a6 h6 a7 h7 hc x0 x1 x2 x3 x4).1)

/-- A later-point body's store covers the accumulator's block. -/
theorem coverLater (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : ¬resetCond i) (x0 : Vec F S8x16x3 .f32) (x1 : Vec F S8x128x3 .f32) (x2 : Vec F S8x16x128 .i32) (x3 : Vec F S8x16x5 .f32) (x4 : Vec F S8x128x5 .f32) (xo : Vec F S2x8 .f32) (y : S2x8.Idx) :
    ∃ pc ∈ (runLater c i a2 h2 a3 h3 a4 h4 a5 h5 a6 h6 a7 h7 hc x0 x1 x2 x3 x4 xo).1, y ∈ pc.1.set :=
  View.cover_of_tiledL (runLater c i a2 h2 a3 h3 a4 h4 a5 h5 a6 h6 a7 h7 hc x0 x1 x2 x3 x4 xo).1 S2x8.size (by sl_kernel_rfl) y

/-- What a later-point body leaves in the accumulator's buffer, over its previous contents `xo`. -/
def outLater (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : ¬resetCond i) (x0 : Vec F S8x16x3 .f32) (x1 : Vec F S8x128x3 .f32) (x2 : Vec F S8x16x128 .i32) (x3 : Vec F S8x16x5 .f32) (x4 : Vec F S8x128x5 .f32) (xo : Vec F S2x8 .f32) : Vec F S2x8 .f32 :=
  VO.read (Elt F) (VO.writes (Elt F) VO.junk (runLater c i a2 h2 a3 h3 a4 h4 a5 h5 a6 h6 a7 h7 hc x0 x1 x2 x3 x4 xo).1)

theorem lt_grid {n : ℕ} (hn : n < cfg0.N) : n < 2048 := lt_of_lt_of_eq hn (show cfg0.N = 2048 from N_0)

/-- The accumulation: what the result's staging buffer holds after the body at grid position `n`. -/
def accAt (c : Dev nD) : (n : ℕ) → n < cfg0.N → Vec F S2x8 .f32
  | 0, hn => outFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) ((resetCond_iff ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩)
  | n + 1, hn => outLater c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩)
      (fun h => absurd ((resetCond_iff ⟨n + 1, hn⟩).mp h) (by have := lt_grid hn; dsimp only; omega)) (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn))

theorem accAt_first (c : Dev nD) (t : Fin cfg0.N) (h0 : t.val % 2048 = 0) :
    accAt m c t.val t.isLt = outFirst c (grid0.coords t) (ms0 t) (hs0 t) (ms1 t) (hs1 t) (ms2 t) (hs2 t) (ms3 t) (hs3 t) (ms4 t) (hs4 t) (ms5 t) (hs5 t) ((resetCond_iff t).mpr h0) (iblk m c 0 t) (iblk m c 1 t) (iblk m c 2 t) (iblk m c 3 t) (iblk m c 4 t) := by
  obtain ⟨n, hn⟩ := t
  cases n with
  | zero => exact rfl
  | succ n => exact absurd h0 (by have := lt_grid hn; dsimp only; omega)

theorem accAt_later (c : Dev nD) (t : Fin cfg0.N) (h0 : ¬t.val % 2048 = 0) :
    accAt m c t.val t.isLt = outLater c (grid0.coords t) (ms0 t) (hs0 t) (ms1 t) (hs1 t) (ms2 t) (hs2 t) (ms3 t) (hs3 t) (ms4 t) (hs4 t) (ms5 t) (hs5 t) (fun h => h0 ((resetCond_iff t).mp h)) (iblk m c 0 t) (iblk m c 1 t) (iblk m c 2 t) (iblk m c 3 t) (iblk m c 4 t)
      (accAt m c (t.val - 1) (Nat.lt_of_le_of_lt (Nat.sub_le _ _) t.isLt)) := by
  obtain ⟨n, hn⟩ := t
  cases n with
  | zero => exact absurd (Nat.zero_mod _) h0
  | succ n => exact rfl

/-- The region's invariant: the core's scoped buffers that are no staging buffer (there are none). -/
abbrev Φ₀ (c : Dev nD) : sProp 𝕄 := Pipeline.scopedRest (Ix := Unit) (Name := ℕ) (U := UR sig nD τ) (Lvl := ℕ) (Val := Elt F) spec0 c

/-- The proof data of the one pipeline on core `c`: the arrays as the region finds them; after the body at point `t`
    each input's buffer at its block and the result's at `accAt`; the two windows on one array hold half a share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => accAt m c t.val t.isLt
  Φ _ := Φ₀ c
  q w := match w with
    | ⟨0, _⟩ => fullShare.left
    | ⟨1, _⟩ => fullShare.right
    | ⟨2, _⟩ => fullShare
    | ⟨3, _⟩ => fullShare.left
    | ⟨4, _⟩ => fullShare.right
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = accAt m c t.val t.isLt := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-- At a later point the result's staging buffer holds what the body left at the point before: it is written back
    only at the last point. -/
theorem before5_later (c : Dev nD) (t : Fin cfg0.N) (h0 : ¬t.val % 2048 = 0) (d) :
    (dats m 0 c).before 5 t d = accAt m c (t.val - 1) (Nat.lt_of_le_of_lt (Nat.sub_le _ _) t.isLt) := by
  have hN : t.val < 2048 := lt_grid t.isLt
  rw [Dat.before_out_kept _ 5 rfl t (by omega) (Bool.eq_false_iff.mpr fun h => by have := (flush0_5 _).mp h; dsimp only at this; omega)
    (fun _ => rfl) (fun _ _ => rfl)]
  dsimp only [dats]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t))

set_option maxHeartbeats 1600000 in
/-- The body at any point: the inputs' buffers hold their blocks; the point is the first or a later one; the matching
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5]
  by_cases h0 : t.val % 2048 = 0
  · rw [accAt_first m c t h0]
    unfold outFirst
    iintro ⟨HΦ, Ho, ⟨%d0, H0⟩, ⟨%d1, H1⟩, ⟨%d2, H2⟩, ⟨%d3, H3⟩, ⟨%d4, H4⟩, ⟨%d5, H5⟩⟩
    iapply ((runFirst c (grid0.coords t) _ _ _ _ _ _ _ _ _ _ _ _ ((resetCond_iff t).mpr h0) (iblk m c 0 t) (iblk m c 1 t) (iblk m c 2 t) (iblk m c 3 t) (iblk m c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverFirst c _ _ _ _ _ _ _ _ _ _ _ _ _ _ _ _ _ _ _)
  · rw [accAt_later m c t h0]
    simp only [before5_later m c t h0]
    unfold outLater
    iintro ⟨HΦ, Ho, ⟨%d0, H0⟩, ⟨%d1, H1⟩, ⟨%d2, H2⟩, ⟨%d3, H3⟩, ⟨%d4, H4⟩, ⟨%d5, H5⟩⟩
    iapply ((runLater c (grid0.coords t) _ _ _ _ _ _ _ _ _ _ _ _ (fun h => h0 ((resetCond_iff t).mp h)) (iblk m c 0 t) (iblk m c 1 t) (iblk m c 2 t) (iblk m c 3 t) (iblk m c 4 t) _).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (coverLater c _ _ _ _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.KILaunch.lean ====
/-
  The launch and the run.  The buffers behind the windows' arrays are four: the coordinates (two windows), the path
  distances, the per-atom parameters (two windows), the result.  Each doubly-read array's full share splits into its
  two halves, one per window; the others go whole to their one window.  Every weakly fair execution of @main then
  terminates without fault, each window's array ends at what the proof data computes — an input's unchanged, the
  result's overwritten at the last point by the accumulator — and every other unscoped buffer as the region found it.
-/
import proofs.«113635_j4526895530581_2_alg».proof.Proof.KIFrame

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the six windows' arrays are four. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_arg3) ↦{fullShare} V m c main_arg3)
          ∗ (((c.tc : Thread nD τ).loc main_v68) ↦{fullShare} V m c main_v68) ∗ (((c.tc : Thread nD τ).loc main_v69) ↦{fullShare} V m c main_v69)) := by
  unfold Pipeline.arrBufs
  rw [show Finset.univ.image (Pipeline.arrRef spec0) = ({main_arg0, main_arg3, main_v68, main_v69} : Finset (Ref sig .tc)) from by decide]
  rw [bigSep_insert (by decide), bigSep_insert (by decide), bigSep_insert (by decide), bigSep_singleton]
  rfl

theorem arrAt0 (c : Dev nD) (w : Fin cfg0.W) : (dats m 0 c).arrAt w 0 = V m c (Pipeline.arrRef spec0 w) := A_eq m c w

/-- The split over an opaque entry-contents function: the coordinates' and the parameters' full shares are halved
    between their two windows, the other two arrays go whole to their one window. -/
theorem split_aux (c : Dev nD) (Vc : (b : Ref sig .tc) → Buf (Elt F) ((c.tc : Thread nD τ).loc b)) :
    (iprop((((c.tc : Thread nD τ).loc main_arg0) ↦{fullShare} Vc main_arg0) ∗ (((c.tc : Thread nD τ).loc main_arg3) ↦{fullShare} Vc main_arg3)
          ∗ (((c.tc : Thread nD τ).loc main_v68) ↦{fullShare} Vc main_v68) ∗ (((c.tc : Thread nD τ).loc main_v69) ↦{fullShare} Vc main_v69)) : sProp 𝕄)
      ⊢ iprop((((c.tc : Thread nD τ).loc main_arg0) ↦{fullShare.left} Vc main_arg0) ∗ (((c.tc : Thread nD τ).loc main_arg0) ↦{fullShare.right} Vc main_arg0)
          ∗ (((c.tc : Thread nD τ).loc main_arg3) ↦{fullShare} Vc main_arg3)
          ∗ (((c.tc : Thread nD τ).loc main_v68) ↦{fullShare.left} Vc main_v68) ∗ (((c.tc : Thread nD τ).loc main_v68) ↦{fullShare.right} Vc main_v68)
          ∗ (((c.tc : Thread nD τ).loc main_v69) ↦{fullShare} Vc main_v69)) := by
  iintro ⟨Hx, Hp, Hq, Ho⟩
  ihave Hx' := (pointsTo_share (PosShare.mem_left_op_right fullShare)).1 $$ Hx
  icases Hx' with ⟨Hx0, Hx1⟩
  ihave Hq' := (pointsTo_share (PosShare.mem_left_op_right fullShare)).1 $$ Hq
  icases Hq' with ⟨Hq0, Hq1⟩
  isplitl [Hx0]; · iexact Hx0
  isplitl [Hx1]; · iexact Hx1
  isplitl [Hp]; · iexact Hp
  isplitl [Hq0]; · iexact Hq0
  isplitl [Hq1]; · iexact Hq1
  iexact Ho

set_option maxHeartbeats 2000000 in
/-- The buffers behind the arrays, whole at full share at the entry contents, make the proof data's arrays at entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [(arr_whole0 0).set_eq_univ, (arr_whole0 2).set_eq_univ, (arr_whole0 3).set_eq_univ, (arr_whole0 5).set_eq_univ]
  dsimp only
  rw [arrAt0 m c 0, arrAt0 m c 1, arrAt0 m c 2, arrAt0 m c 3, arrAt0 m c 4, arrAt0 m c 5]
  rw [show (dats m 0 c).share 0 = fullShare.left from rfl, show (dats m 0 c).share 1 = fullShare.right from rfl,
    show (dats m 0 c).share 2 = fullShare from rfl, show (dats m 0 c).share 3 = fullShare.left from rfl,
    show (dats m 0 c).share 4 = fullShare.right from rfl, show (dats m 0 c).share 5 = fullShare from rfl]
  exact split_aux c (V m c)

/-- The run's post: every window's array at what the proof data computes after the last point, and every unscoped
    buffer that is no window's array as the region found it. -/
def RunPost (r : PUnit × MemSt nD τ sig (Elt F)) : Prop :=
  ∀ c : Dev nD, (∀ w, r.2.mem ((spec0 w).arr.view.loc (c.tc : Thread nD τ)) = (dats m 0 c).arrAt w cfg0.N)
    ∧ ∀ b ∈ Pipeline.restRefs sig spec0, r.2.mem ((c.tc : Thread nD τ).loc b) = V m c b

set_option maxHeartbeats 8000000 in
set_option backward.isDefEq.respectTransparency.types false in
theorem run_main : θ_run defs (onTc (τ := τ) (main (F := F))) (s₀ m ρ) (RunPost m) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ Φ₀ (F := F) c) ⊢ Φ₀ (F := F) c
      iintro ⟨-, H⟩; iexact H)
    (hout := fun c => by
      show Φ₀ (F := F) c ⊢ iprop(emp ∗ Φ₀ (F := F) c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

end Cert.KernelIdeal.Tile

end
-- ==== Proof.KIClaim.lean ====
/-
  The run read at the result and the arguments, and the frame.  Every weakly fair execution of @main terminates
  without fault; the result array ends at what the proof data computes after the last point, and the four argument
  arrays end as they began: the coordinates and the path distances are input windows' arrays (an input array is never
  written), the parameter table and the atom types are read by host operations only and bypass the region.
-/
import proofs.«113635_j4526895530581_2_alg».proof.Proof.KILaunch

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_out : θ_run defs (onTc (τ := τ) (main (F := F))) ⟨m, fun _ => 0, ρ⟩ (fun r => ∀ c : Dev nD,
      r.2.mem ((c.tc : Thread nD τ).loc main_v69) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c).1 5,
     ((h c).1 0).trans (((dats m 0 c).arrAt_in 0 rfl _).trans ((A_eq m c 0).trans (V_main_arg0 m c))),
     ((h c).2 main_arg1 (Pipeline.mem_restRefs_of main_arg1 rfl (by decide))).trans (V_main_arg1 m c),
     ((h c).2 main_arg2 (Pipeline.mem_restRefs_of main_arg2 rfl (by decide))).trans (V_main_arg2 m c),
     ((h c).1 2).trans (((dats m 0 c).arrAt_in 2 rfl _).trans ((A_eq m c 2).trans (V_main_arg3 m c)))⟩)
    (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_out m ρ)

end Cert.KernelIdeal.Tile

end
-- ==== Proof.KIFinal.lean ====
/-
  The result array after the run.  Its window is written back at the last grid point only, and its block there is
  the whole [2,8] array; so the array ends holding the accumulator as the last point's body left it.
-/
import proofs.«113635_j4526895530581_2_alg».proof.Proof.KILaunch
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window's block index is (0, 0) at every point. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The result array ends at the accumulator after the last point `t` (the one with `t.val = 2047`). -/
theorem final5 (c : Dev nD) (t : Fin cfg0.N) (ht : t.val = 2047) : (dats m 0 c).arrAt 5 cfg0.N = accAt m c t.val t.isLt := by
  refine (dats m 0 c).arrAt_eq_of_cover 5 _ (fun t' hf => ?_) (fun i => ⟨t, (flush0_5 t).mpr (by omega), ?_⟩)
  · have ht' : t'.val = 2047 := by
      have h1 := (flush0_5 t').mp hf
      have h2 := lt_grid t'.isLt
      omega
    obtain rfl : t' = t := Fin.ext (ht'.trans ht.symm)
    show (cfg0.win 5).cut (grid0.coords t') ((dats m 0 c).after 5 t') = _
    rw [after5]
    obtain ⟨e0, e1⟩ := idx5 t'
    funext j
    rw [View.read_apply]
    show accAt m c t'.val t'.isLt j = accAt m c t'.val t'.isLt (((cfg0.win 5).blk t').view.emb j)
    congr 1
    funext a; apply Fin.ext
    match a with
    | ⟨0, _⟩ => show (j 0).val = win0_5.index t' (0 : Fin 2) * 2 + 1 * (j 0).val; omega
    | ⟨1, _⟩ => show (j 1).val = win0_5.index t' (1 : Fin 2) * 8 + 1 * (j 1).val; omega
  · obtain ⟨e0, e1⟩ := idx5 t
    show i ∈ ((View.whole main_v69).slice (win0_5.rect t)).set
    rw [View.set_slice_whole, Rect.mem_set_unit]
    intro a
    match a with
    | ⟨0, _⟩ => show win0_5.index t (0 : Fin 2) * 2 ≤ (i 0).val ∧ (i 0).val < win0_5.index t (0 : Fin 2) * 2 + 2; have hi0 : (i 0).val < 2 := (i 0).isLt; omega
    | ⟨1, _⟩ => show win0_5.index t (1 : Fin 2) * 8 ≤ (i 1).val ∧ (i 1).val < win0_5.index t (1 : Fin 2) * 8 + 8; have hi1 : (i 1).val < 8 := (i 1).isLt; omega

end Cert.KernelIdeal.Tile

end
-- ==== Proof.TileValueDef.lean ====
/-
  The value one tile's body adds into the resident [2,8] accumulator, as the composition of the generated payloads
  of the five loaded blocks, the grid coordinates and the accumulator's previous contents.
-/
import proofs.«113635_j4526895530581_2_alg».proof.Proof.Gen.KernelIdeal.Skeleton

noncomputable section

namespace Cert.TileValue

open Idealize.ShloMosaic Cert.KernelIdeal Cert.KernelIdeal.Gen

variable {F : FTy → Type} [FloatOps F]

/-- What the body stores into the accumulator at tile `(i, j)`: the generated payloads composed exactly as the four
    parts of the body pass them on, `old` being the accumulator's previous contents. -/
def tileOut (i j : ℕ) (v0 : Vec F S8x16x3 .f32) (v1 : Vec F S8x128x3 .f32) (v2 : Vec F S8x16x128 .i32)
    (v3 : Vec F S8x16x5 .f32) (v5 : Vec F S8x128x5 .f32) (old : Vec F S2x8 .f32) : FVec F S2x8 .f32 :=
  k0_pay31 (k0_pay6 v3) (k0_pay7 v3) (k0_pay10 v5) (k0_pay11 v5)
    (k0_pay18 (BitVec.ofNat 32 i) (BitVec.ofNat 32 j) v2)
    (k0_pay22 (k0_pay20 (k0_pay13 v0 v1) (k0_pay14 v0 v1)) (k0_pay21 (k0_pay13 v0 v1) (k0_pay14 v0 v1)))
    (k0_pay23 (k0_pay15 (k0_pay13 v0 v1) (k0_pay14 v0 v1)) (k0_pay16 (k0_pay3 v3) (k0_pay8 v5))
      (k0_pay17 (k0_pay4 v3) (k0_pay9 v5)))
    (k0_pay25 (k0_pay3 v3) (k0_pay6 v3) (k0_pay15 (k0_pay13 v0 v1) (k0_pay14 v0 v1)))
    (k0_pay26 (k0_pay8 v5) (k0_pay11 v5) (k0_pay15 (k0_pay13 v0 v1) (k0_pay14 v0 v1)))
    (k0_pay27 (k0_pay15 (k0_pay13 v0 v1) (k0_pay14 v0 v1)))
    (k0_pay28 (k0_pay5 v3))
    (k0_pay29 (k0_pay12 v5))
    old

end Cert.TileValue

end
-- ==== Proof.KIOut.lean ====
/-
  What the body leaves in the accumulator's buffer is the tile's value: at the first grid point over an accumulator
  of zeros, at a later point over the accumulator's previous contents.  Each load through a whole rectangle at zero
  offsets reads the whole block, and the last store through the whole rectangle leaves its payload.
-/
import proofs.«113635_j4526895530581_2_alg».proof.Proof.KIFrame
import proofs.«113635_j4526895530581_2_alg».proof.Proof.TileValueDef
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A later point leaves the tile's value over the previous contents. -/
theorem outLater_eq (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : ¬resetCond i) (x0 : Vec F S8x16x3 .f32) (x1 : Vec F S8x128x3 .f32) (x2 : Vec F S8x16x128 .i32) (x3 : Vec F S8x16x5 .f32) (x4 : Vec F S8x128x5 .f32) (xo : Vec F S2x8 .f32) :
    outLater c i a2 h2 a3 h3 a4 h4 a5 h5 a6 h6 a7 h7 hc x0 x1 x2 x3 x4 xo = Cert.TileValue.tileOut (i 0).val (i 1).val x0 x1 x2 x3 x4 xo := by
  unfold outLater
  rw [View.read_writes_eq_canon _ _ _ (coverLater c i a2 h2 a3 h3 a4 h4 a5 h5 a6 h6 a7 h7 hc x0 x1 x2 x3 x4 xo)]
  unfold runLater
  dsimp only
  sl_unfold_words
  rw [View.canon_unit_zero hz2]
  simp only [View.readAt_eq_ld, h2.read_unread, h3.read_unread, h4.read_unread, h5.read_unread, h6.read_unread, h7.read_unread,
    View.ld_unit_zero (S := S8x16x3) hz3, View.ld_unit_zero (S := S8x128x3) hz3, View.ld_unit_zero (S := S8x16x128) hz3,
    View.ld_unit_zero (S := S8x16x5) hz3, View.ld_unit_zero (S := S8x128x5) hz3, View.ld_unit_zero (S := S2x8) hz2]
  rfl

/-- The first point leaves the tile's value over an accumulator of zeros. -/
theorem outFirst_eq (c : Dev nD) (i : grid0.Coords) (a2 : Memref sig .tc .vmem S8x16x3 .f32) (h2 : a2.IsWhole) (a3 : Memref sig .tc .vmem S8x128x3 .f32) (h3 : a3.IsWhole) (a4 : Memref sig .tc .vmem S8x16x128 .i32) (h4 : a4.IsWhole) (a5 : Memref sig .tc .vmem S8x16x5 .f32) (h5 : a5.IsWhole) (a6 : Memref sig .tc .vmem S8x128x5 .f32) (h6 : a6.IsWhole) (a7 : Memref sig .tc .vmem S2x8 .f32) (h7 : a7.IsWhole) (hc : resetCond i) (x0 : Vec F S8x16x3 .f32) (x1 : Vec F S8x128x3 .f32) (x2 : Vec F S8x16x128 .i32) (x3 : Vec F S8x16x5 .f32) (x4 : Vec F S8x128x5 .f32) :
    outFirst c i a2 h2 a3 h3 a4 h4 a5 h5 a6 h6 a7 h7 hc x0 x1 x2 x3 x4 = Cert.TileValue.tileOut (i 0).val (i 1).val x0 x1 x2 x3 x4 (k0_pay30 (F := F)) := by
  unfold outFirst
  rw [View.read_writes_eq_canon _ _ _ (coverFirst c i a2 h2 a3 h3 a4 h4 a5 h5 a6 h6 a7 h7 hc x0 x1 x2 x3 x4)]
  unfold runFirst
  dsimp only
  sl_unfold_words
  rw [View.canon_cons_unit_zero hz2]
  simp only [View.readAt_eq_ld, h2.read_unread, h3.read_unread, h4.read_unread, h5.read_unread, h6.read_unread,
    View.readCov_unit_zero (S := S2x8) a7.view hz2,
    View.ld_unit_zero (S := S8x16x3) hz3, View.ld_unit_zero (S := S8x128x3) hz3, View.ld_unit_zero (S := S8x16x128) hz3,
    View.ld_unit_zero (S := S8x16x5) hz3, View.ld_unit_zero (S := S8x128x5) hz3]
  rfl

end Cert.KernelIdeal.Tile

end
-- ==== Proof.KIBlocks.lean ====
/-
  The six windows' index maps in closed form, and each input window's block read at coordinates as the entry array
  read at the global index.

  The grid is 128 x 16; point `t` has coordinates `(t / 16, t % 16)`.  The row windows (coordinates, parameters)
  take block `t / 16` of 16 rows, the column windows block `t % 16` of 128 rows, the path-distance window block
  `(t / 16, t % 16)` of 16 x 128; the result window is always block `(0, 0)`.  A block's coordinate is the block
  index times the block size plus the coordinate inside the block.
-/
import proofs.«113635_j4526895530581_2_alg».proof.Proof.KIBase
import Idealize.ShloMosaic.Lib.ValueIdx
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.ValueIdx
open Idealize.SL Idealize.SL.Sem

variable {F : FTy → Type} [FloatOps F]

variable (m : (ℓ : Loc nD τ sig) → Buf (Elt F) ℓ)

/-- The grid point `t` has coordinates `(t / 16, t % 16)`. -/
theorem coords_facts : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The windows' block indices at point `t`, axis by axis. -/
theorem idx_facts : ∀ t : Fin cfg0.N,
    (win0_0.index t (0 : Fin 3) = 0 ∧ win0_0.index t (1 : Fin 3) = t.val / 16 ∧ win0_0.index t (2 : Fin 3) = 0)
    ∧ (win0_1.index t (0 : Fin 3) = 0 ∧ win0_1.index t (1 : Fin 3) = t.val % 16 ∧ win0_1.index t (2 : Fin 3) = 0)
    ∧ (win0_2.index t (0 : Fin 3) = 0 ∧ win0_2.index t (1 : Fin 3) = t.val / 16 ∧ win0_2.index t (2 : Fin 3) = t.val % 16)
    ∧ (win0_3.index t (0 : Fin 3) = 0 ∧ win0_3.index t (1 : Fin 3) = t.val / 16 ∧ win0_3.index t (2 : Fin 3) = 0)
    ∧ (win0_4.index t (0 : Fin 3) = 0 ∧ win0_4.index t (1 : Fin 3) = t.val % 16 ∧ win0_4.index t (2 : Fin 3) = 0)
    ∧ (win0_5.index t (0 : Fin 2) = 0 ∧ win0_5.index t (1 : Fin 2) = 0) :=
  (by decide +kernel : ∀ t : Fin grid0.N, _)

/-- Window 0's block at point `t` is rows `16 (t / 16) … 16 (t / 16) + 15` of the coordinates. -/
theorem iblk0_apply (c : Dev nD) (t : Fin cfg0.N) (x : S8x16x3.Idx) (k : S8x2048x3.Idx)
    (h0 : (k 0).val = (x 0).val) (h1 : (k 1).val = 16 * (t.val / 16) + (x 1).val) (h2 : (k 2).val = (x 2).val) :
    (iblk m c 0 t : S8x16x3.Idx → Elt F .f32) x = (V m c main_arg0 : S8x2048x3.Idx → Elt F .f32) k := by
  obtain ⟨⟨e0, e1, e2⟩, -⟩ := idx_facts t
  unfold iblk
  rw [View.read_apply]
  show V m c main_arg0 _ = V m c main_arg0 _
  congr 1
  funext a
  apply Fin.ext
  match a with
  | ⟨0, _⟩ => show win0_0.index t 0 * 8 + 1 * (x 0).val = (k 0).val; rw [e0, h0]; omega
  | ⟨1, _⟩ => show win0_0.index t 1 * 16 + 1 * (x 1).val = (k 1).val; rw [e1, h1]; omega
  | ⟨2, _⟩ => show win0_0.index t 2 * 3 + 1 * (x 2).val = (k 2).val; rw [e2, h2]; omega

/-- Window 1's block at point `t` is rows `128 (t % 16) … 128 (t % 16) + 127` of the coordinates. -/
theorem iblk1_apply (c : Dev nD) (t : Fin cfg0.N) (x : S8x128x3.Idx) (k : S8x2048x3.Idx)
    (h0 : (k 0).val = (x 0).val) (h1 : (k 1).val = 128 * (t.val % 16) + (x 1).val) (h2 : (k 2).val = (x 2).val) :
    (iblk m c 1 t : S8x128x3.Idx → Elt F .f32) x = (V m c main_arg0 : S8x2048x3.Idx → Elt F .f32) k := by
  obtain ⟨-, ⟨e0, e1, e2⟩, -⟩ := idx_facts t
  unfold iblk
  rw [View.read_apply]
  show V m c main_arg0 _ = V m c main_arg0 _
  congr 1
  funext a
  apply Fin.ext
  match a with
  | ⟨0, _⟩ => show win0_1.index t 0 * 8 + 1 * (x 0).val = (k 0).val; rw [e0, h0]; omega
  | ⟨1, _⟩ => show win0_1.index t 1 * 128 + 1 * (x 1).val = (k 1).val; rw [e1, h1]; omega
  | ⟨2, _⟩ => show win0_1.index t 2 * 3 + 1 * (x 2).val = (k 2).val; rw [e2, h2]; omega

/-- Window 2's block at point `t` is rows `16 (t / 16) …` and columns `128 (t % 16) …` of the path distances. -/
theorem iblk2_apply (c : Dev nD) (t : Fin cfg0.N) (x : S8x16x128.Idx) (k : S8x2048x2048.Idx)
    (h0 : (k 0).val = (x 0).val) (h1 : (k 1).val = 16 * (t.val / 16) + (x 1).val) (h2 : (k 2).val = 128 * (t.val % 16) + (x 2).val) :
    (iblk m c 2 t : S8x16x128.Idx → Elt F .i32) x = (V m c main_arg3 : S8x2048x2048.Idx → Elt F .i32) k := by
  obtain ⟨-, -, ⟨e0, e1, e2⟩, -⟩ := idx_facts t
  unfold iblk
  rw [View.read_apply]
  show V m c main_arg3 _ = V m c main_arg3 _
  congr 1
  funext a
  apply Fin.ext
  match a with
  | ⟨0, _⟩ => show win0_2.index t 0 * 8 + 1 * (x 0).val = (k 0).val; rw [e0, h0]; omega
  | ⟨1, _⟩ => show win0_2.index t 1 * 16 + 1 * (x 1).val = (k 1).val; rw [e1, h1]; omega
  | ⟨2, _⟩ => show win0_2.index t 2 * 128 + 1 * (x 2).val = (k 2).val; rw [e2, h2]; omega

/-- Window 3's block at point `t` is rows `16 (t / 16) … 16 (t / 16) + 15` of the per-atom parameters. -/
theorem iblk3_apply (c : Dev nD) (t : Fin cfg0.N) (x : S8x16x5.Idx) (k : S8x2048x5.Idx)
    (h0 : (k 0).val = (x 0).val) (h1 : (k 1).val = 16 * (t.val / 16) + (x 1).val) (h2 : (k 2).val = (x 2).val) :
    (iblk m c 3 t : S8x16x5.Idx → Elt F .f32) x = (V m c main_v68 : S8x2048x5.Idx → Elt F .f32) k := by
  obtain ⟨-, -, -, ⟨e0, e1, e2⟩, -⟩ := idx_facts t
  unfold iblk
  rw [View.read_apply]
  show V m c main_v68 _ = V m c main_v68 _
  congr 1
  funext a
  apply Fin.ext
  match a with
  | ⟨0, _⟩ => show win0_3.index t 0 * 8 + 1 * (x 0).val = (k 0).val; rw [e0, h0]; omega
  | ⟨1, _⟩ => show win0_3.index t 1 * 16 + 1 * (x 1).val = (k 1).val; rw [e1, h1]; omega
  | ⟨2, _⟩ => show win0_3.index t 2 * 5 + 1 * (x 2).val = (k 2).val; rw [e2, h2]; omega

/-- Window 4's block at point `t` is rows `128 (t % 16) … 128 (t % 16) + 127` of the per-atom parameters. -/
theorem iblk4_apply (c : Dev nD) (t : Fin cfg0.N) (x : S8x128x5.Idx) (k : S8x2048x5.Idx)
    (h0 : (k 0).val = (x 0).val) (h1 : (k 1).val = 128 * (t.val % 16) + (x 1).val) (h2 : (k 2).val = (x 2).val) :
    (iblk m c 4 t : S8x128x5.Idx → Elt F .f32) x = (V m c main_v68 : S8x2048x5.Idx → Elt F .f32) k := by
  obtain ⟨-, -, -, -, ⟨e0, e1, e2⟩, -⟩ := idx_facts t
  unfold iblk
  rw [View.read_apply]
  show V m c main_v68 _ = V m c main_v68 _
  congr 1
  funext a
  apply Fin.ext
  match a with
  | ⟨0, _⟩ => show win0_4.index t 0 * 8 + 1 * (x 0).val = (k 0).val; rw [e0, h0]; omega
  | ⟨1, _⟩ => show win0_4.index t 1 * 128 + 1 * (x 1).val = (k 1).val; rw [e1, h1]; omega
  | ⟨2, _⟩ => show win0_4.index t 2 * 5 + 1 * (x 2).val = (k 2).val; rw [e2, h2]; omega

/-- A grid point is below 2048. -/
theorem lt_N (t : Fin cfg0.N) : t.val < 2048 := lt_of_lt_of_eq t.isLt N_0

/-- Row `a` of the row block of point `t`. -/
abbrev rowOf (t : Fin cfg0.N) (a : Fin 16) : Fin 2048 := ⟨16 * (t.val / 16) + a.val, by have := lt_N t; omega⟩
/-- Column `b` of the column block of point `t`. -/
abbrev colOf (t : Fin cfg0.N) (b : Fin 128) : Fin 2048 := ⟨128 * (t.val % 16) + b.val, by have := lt_N t; omega⟩

/-- Window 0 at coordinates: pose `p`, row `a` of the block, coordinate `d`. -/
theorem iblk0_ix (c : Dev nD) (t : Fin cfg0.N) (p : Fin 8) (a : Fin 16) (d : Fin 3) :
    (iblk m c 0 t : S8x16x3.Idx → Elt F .f32) (ix3 p a d)
      = (V m c main_arg0 : S8x2048x3.Idx → Elt F .f32) (ix3 p (rowOf t a) d) :=
  iblk0_apply m c t _ _ rfl rfl rfl
/-- Window 1 at coordinates: pose `p`, row `b` of the block, coordinate `d`. -/
theorem iblk1_ix (c : Dev nD) (t : Fin cfg0.N) (p : Fin 8) (b : Fin 128) (d : Fin 3) :
    (iblk m c 1 t : S8x128x3.Idx → Elt F .f32) (ix3 p b d)
      = (V m c main_arg0 : S8x2048x3.Idx → Elt F .f32) (ix3 p (colOf t b) d) :=
  iblk1_apply m c t _ _ rfl rfl rfl
/-- Window 2 at coordinates: pose `p`, row `a` and column `b` of the block. -/
theorem iblk2_ix (c : Dev nD) (t : Fin cfg0.N) (p : Fin 8) (a : Fin 16) (b : Fin 128) :
    (iblk m c 2 t : S8x16x128.Idx → Elt F .i32) (ix3 p a b)
      = (V m c main_arg3 : S8x2048x2048.Idx → Elt F .i32) (ix3 p (rowOf t a) (colOf t b)) :=
  iblk2_apply m c t _ _ rfl rfl rfl
/-- Window 3 at coordinates: pose `p`, row `a` of the block, parameter `e`. -/
theorem iblk3_ix (c : Dev nD) (t : Fin cfg0.N) (p : Fin 8) (a : Fin 16) (e : Fin 5) :
    (iblk m c 3 t : S8x16x5.Idx → Elt F .f32) (ix3 p a e)
      = (V m c main_v68 : S8x2048x5.Idx → Elt F .f32) (ix3 p (rowOf t a) e) :=
  iblk3_apply m c t _ _ rfl rfl rfl
/-- Window 4 at coordinates: pose `p`, row `b` of the block, parameter `e`. -/
theorem iblk4_ix (c : Dev nD) (t : Fin cfg0.N) (p : Fin 8) (b : Fin 128) (e : Fin 5) :
    (iblk m c 4 t : S8x128x5.Idx → Elt F .f32) (ix3 p b e)
      = (V m c main_v68 : S8x2048x5.Idx → Elt F .f32) (ix3 p (colOf t b) e) :=
  iblk4_apply m c t _ _ rfl rfl rfl

end Cert.KernelIdeal.Tile

end
-- ==== Proof.PairEnergy.lean ====
/-
  The pairwise energy this kernel and its reference both compute, written once over the extended reals.

  For a pose `p` and atoms `q`, `k` (2048 atoms, 3 coordinates each) the squared norm of an atom is
  `0 + Σ_d x_d²`, the cross term `Σ_d x_{q,d} · x_{k,d}`, and the distance
  `d = √(max (|q|² + |k|² − 2·cross) 1e-12)`.  From per-atom parameters (radius `R`, well depth `W`, free energy
  `DG`, correlation length `LAM`, volume `VOL`) the pair has a Lennard-Jones 12-6 energy, linear below
  `0.6·σ`, and a symmetrized Lazaridis-Karplus desolvation energy; each is weighted by a count-pair weight read from
  the bonded path distance (zero on the diagonal) times a cubic fade between 4.5 and 6.  A pose's score is half the
  sum over all ordered pairs.  Every literal is kept as the binary32 word both programs print.
-/
import Idealize.ShloMosaic.PureOps.Ideal

noncomputable section

namespace Cert.PairEnergy

open Idealize.ShloMosaic

/-- The extended real a binary32 word denotes. -/
abbrev lit (b : BitVec 32) : EReal := Ideal.ofBits .f32 b

/-- Squared norm of atom `q` of pose `p`: zero plus the sum of the squared coordinates. -/
def sq (X : Fin 8 → Fin 2048 → Fin 3 → EReal) (p : Fin 8) (q : Fin 2048) : EReal :=
  lit 0x00000000#32 + ∑ d : Fin 3, X p q d * X p q d

/-- Inner product of atoms `q` and `k` of pose `p`. -/
def cross (X : Fin 8 → Fin 2048 → Fin 3 → EReal) (p : Fin 8) (q k : Fin 2048) : EReal :=
  ∑ d : Fin 3, X p q d * X p k d

/-- Distance from the two squared norms and the inner product, floored at `√1e-12`. -/
def distOf (sqi sqj cr : EReal) : EReal :=
  Ideal.sqrt (max ((sqi + sqj) - lit 0x40000000#32 * cr) (lit 0x2B8CBCCC#32))

/-- Distance between atoms `q` and `k` of pose `p`. -/
def dist (X : Fin 8 → Fin 2048 → Fin 3 → EReal) (p : Fin 8) (q k : Fin 2048) : EReal :=
  distOf (sq X p q) (sq X p k) (cross X p q k)

/-- The diagonal test, on 32-bit words: atom `q` against atom `k`. -/
def selfMask (q k : Fin 2048) : BitVec 1 := IntOp.cmpi .eq (BitVec.ofNat 32 q.val) (BitVec.ofNat 32 k.val)

/-- Count-pair weight: 0 on the diagonal and for a bonded path shorter than 4, 0.2 at exactly 4, else 1. -/
def countPair (self : BitVec 1) (pd : BitVec 32) : EReal :=
  Scalar.select self (lit 0x00000000#32)
    (Scalar.select (IntOp.cmpi .slt pd 4#32) (lit 0x00000000#32)
      (Scalar.select (IntOp.cmpi .eq pd 4#32) (lit 0x3E4CCCCD#32) (lit 0x3F800000#32)))

/-- Cubic fade: with `t = clip ((d − 4.5)/1.5) 0 1`, the weight `1 − t²·(3 − 2t)`. -/
def fade (d : EReal) : EReal :=
  let t := min (lit 0x3F800000#32) (max (lit 0x00000000#32) (Ideal.div (d - lit 0x40900000#32) (lit 0x3FC00000#32)))
  lit 0x3F800000#32 - (t * t) * (lit 0x40400000#32 - lit 0x40000000#32 * t)

/-- Sixth power as the product of the fourth power and the square. -/
def pow6 (x : EReal) : EReal := ((x * x) * (x * x)) * (x * x)

/-- Lennard-Jones 12-6 at distance `d` for `σ` and depth `ε`, continued linearly below `0.6·σ`. -/
def lj (σ ε d : EReal) : EReal :=
  let dlin := lit 0x3F19999A#32 * σ
  let x6 := pow6 (Ideal.div σ (max d dlin))
  let std := ε * (x6 * x6 - lit 0x40000000#32 * x6)
  let x6l := pow6 (Ideal.div σ dlin)
  let slope := Ideal.div ((ε * lit 0x41400000#32) * (x6l - x6l * x6l)) dlin
  Scalar.select (Ideal.cmp .olt d dlin) (std + slope * (d - dlin)) std

/-- Lazaridis-Karplus desolvation of the pair at distance `d` (flattened below 1), symmetrized. -/
def lk (d ri rj lami lamj dgi dgj voli volj : EReal) : EReal :=
  let dlk := max d (lit 0x3F800000#32)
  let xi := Ideal.div (dlk - ri) lami
  let xj := Ideal.div (dlk - rj) lamj
  Ideal.div (lit 0xBDB7E5B0#32) (dlk * dlk)
    * (Ideal.div (dgi * volj) lami * Ideal.exp (-xi * xi) + Ideal.div (dgj * voli) lamj * Ideal.exp (-xj * xj))

/-- The per-atom parameter arrays and the bonded path distances. -/
structure Params where
  R : Fin 8 → Fin 2048 → EReal
  W : Fin 8 → Fin 2048 → EReal
  DG : Fin 8 → Fin 2048 → EReal
  LAM : Fin 8 → Fin 2048 → EReal
  VOL : Fin 8 → Fin 2048 → EReal
  PD : Fin 8 → Fin 2048 → Fin 2048 → BitVec 32

/-- Count-pair weight times fade for the pair `(q, k)`. -/
def weight (X : Fin 8 → Fin 2048 → Fin 3 → EReal) (P : Params) (p : Fin 8) (q k : Fin 2048) : EReal :=
  countPair (selfMask q k) (P.PD p q k) * fade (dist X p q k)

/-- Weighted Lennard-Jones energy of the pair `(q, k)`. -/
def ljTerm (X : Fin 8 → Fin 2048 → Fin 3 → EReal) (P : Params) (p : Fin 8) (q k : Fin 2048) : EReal :=
  lj (P.R p q + P.R p k) (Ideal.sqrt (P.W p q * P.W p k)) (dist X p q k) * weight X P p q k

/-- Weighted Lazaridis-Karplus energy of the pair `(q, k)`. -/
def lkTerm (X : Fin 8 → Fin 2048 → Fin 3 → EReal) (P : Params) (p : Fin 8) (q k : Fin 2048) : EReal :=
  lk (dist X p q k) (P.R p q) (P.R p k) (P.LAM p q) (P.LAM p k) (P.DG p q) (P.DG p k) (P.VOL p q) (P.VOL p k)
    * weight X P p q k

/-- Row 0 is the Lennard-Jones term, row 1 the Lazaridis-Karplus term. -/
def term (X : Fin 8 → Fin 2048 → Fin 3 → EReal) (P : Params) (s : Fin 2) (p : Fin 8) (q k : Fin 2048) : EReal :=
  if s = 0 then ljTerm X P p q k else lkTerm X P p q k

/-- The score of pose `p`, row `s`: half of zero plus the sum over all ordered pairs. -/
def score (X : Fin 8 → Fin 2048 → Fin 3 → EReal) (P : Params) (s : Fin 2) (p : Fin 8) : EReal :=
  lit 0x3F000000#32 * (lit 0x00000000#32 + ∑ q : Fin 2048, ∑ k : Fin 2048, term X P s p q k)

end Cert.PairEnergy

end
-- ==== Proof.TileValueLayout.lean ====
/-
  The layout and contraction operations of one tile's body, each read at explicit coordinates
  (pose `p`, row atom `a` of 16, column atom `b` of 128): a per-row vector laid along the columns, a per-column
  vector laid along the rows, one parameter column of a parameter block, the lane sums, the batched inner product,
  the iota along an axis, and the two [1,8] rows stacked into [2,8].
-/
import proofs.«113635_j4526895530581_2_alg».proof.Proof.Gen.KernelIdeal.Skeleton
import Idealize.ShloMosaic.Lib.ValueIdx
import Idealize.ShloMosaic.Lib.ValueLayout
import Idealize.ShloMosaic.PureOps.Ideal.Laws

noncomputable section

open scoped BigOperators

namespace Cert.TileValue

open Idealize.ShloMosaic Idealize.ShloMosaic.ValueIdx Cert.KernelIdeal Cert.KernelIdeal.Gen

variable {α : Type}

/-! ## Broadcasts of a per-row and of a per-column vector over the tile -/

/-- A per-row vector `[8,16]`, cast to `[8,16,1]` and laid along the 128 columns, reads its entry of row `a`. -/
theorem rowBcast_apply (x : (⟨2, ![8, 16]⟩ : Shape).Idx → α) (h1 : S8x16.ShapeCasts S8x16x1)
    (h2 : S8x16x1.Broadcasts S8x16x128) (p : Fin 8) (a : Fin 16) (b : Fin 128) :
    broadcastTo S8x16x128 (shapeCast S8x16x1 x h1) h2 (ix3 p a b) = x (ix2 p a) := by
  refine (broadcastTo_apply _ h2 (ix3 p a b) (ix3 p a (0 : Fin 1)) fun ax => ?_).trans ?_
  · match ax with
    | ⟨0, _⟩ => rfl
    | ⟨1, _⟩ => rfl
    | ⟨2, _⟩ => rfl
  · refine shapeCast_apply x h1 _ _ ?_
    rw [Shape.rowMajor_val_three, Shape.rowMajor_val_two]
    show p.val * 16 + a.val = (p.val * 16 + a.val) * 1 + 0
    omega

/-- A per-column vector `[8,128]`, cast to `[8,1,128]` and laid along the 16 rows, reads its entry of column `b`. -/
theorem colBcast_apply (x : (⟨2, ![8, 128]⟩ : Shape).Idx → α) (h1 : S8x128.ShapeCasts S8x1x128)
    (h2 : S8x1x128.Broadcasts S8x16x128) (p : Fin 8) (a : Fin 16) (b : Fin 128) :
    broadcastTo S8x16x128 (shapeCast S8x1x128 x h1) h2 (ix3 p a b) = x (ix2 p b) := by
  refine (broadcastTo_apply _ h2 (ix3 p a b) (ix3 p (0 : Fin 1) b) fun ax => ?_).trans ?_
  · match ax with
    | ⟨0, _⟩ => rfl
    | ⟨1, _⟩ => rfl
    | ⟨2, _⟩ => rfl
  · refine shapeCast_apply x h1 _ _ ?_
    rw [Shape.rowMajor_val_three, Shape.rowMajor_val_two]
    show p.val * 128 + b.val = (p.val * 1 + 0) * 128 + b.val
    omega

/-! ## One parameter column of a parameter block -/

/-- Column `c` of the row atoms' parameter block `[8,16,5]`, as a `[8,16]` vector, reads the block at `(p, a, c)`. -/
theorem paramRow_apply (x : (⟨3, ![8, 16, 5]⟩ : Shape).Idx → α) (c : ℕ) (hs : S8x16x5.Slices ![0, 0, c] S8x16x1)
    (hc : S8x16x1.ShapeCasts S8x16) (p : Fin 8) (a : Fin 16) (k : Fin 5) (hk : k.val = c) :
    shapeCast S8x16 (extractStridedSlice S8x16x1 ![0, 0, c] x hs) hc (ix2 p a) = x (ix3 p a k) := by
  refine (shapeCast_apply _ hc (ix2 p a) (ix3 p a (0 : Fin 1)) ?_).trans ?_
  · rw [Shape.rowMajor_val_three, Shape.rowMajor_val_two]
    show (p.val * 16 + a.val) * 1 + 0 = p.val * 16 + a.val
    omega
  · refine extractStridedSlice_apply _ x hs _ _ fun ax => ?_
    match ax with
    | ⟨0, _⟩ => exact (Nat.zero_add _).symm
    | ⟨1, _⟩ => exact (Nat.zero_add _).symm
    | ⟨2, _⟩ => show k.val = c + 0; omega

/-- Column `c` of the column atoms' parameter block `[8,128,5]`, as a `[8,128]` vector, reads the block at `(p, b, c)`. -/
theorem paramCol_apply (x : (⟨3, ![8, 128, 5]⟩ : Shape).Idx → α) (c : ℕ) (hs : S8x128x5.Slices ![0, 0, c] S8x128x1)
    (hc : S8x128x1.ShapeCasts S8x128) (p : Fin 8) (b : Fin 128) (k : Fin 5) (hk : k.val = c) :
    shapeCast S8x128 (extractStridedSlice S8x128x1 ![0, 0, c] x hs) hc (ix2 p b) = x (ix3 p b k) := by
  refine (shapeCast_apply _ hc (ix2 p b) (ix3 p b (0 : Fin 1)) ?_).trans ?_
  · rw [Shape.rowMajor_val_three, Shape.rowMajor_val_two]
    show (p.val * 128 + b.val) * 1 + 0 = p.val * 128 + b.val
    omega
  · refine extractStridedSlice_apply _ x hs _ _ fun ax => ?_
    match ax with
    | ⟨0, _⟩ => exact (Nat.zero_add _).symm
    | ⟨1, _⟩ => exact (Nat.zero_add _).symm
    | ⟨2, _⟩ => show k.val = c + 0; omega

/-! ## The lane sums -/

/-- The sum of a `[8,16,3]` block over its last axis, at `(p, a)`. -/
theorem sumLast_16x3 (src : FVec Ideal S8x16x3 .f32) (h : S8x16x3.Reduces [2] S8x16) (hφ : FKind.Formats .f32)
    (hacc : (0x00000000#32 : BitVec 32) = 0x00000000#32) (p : Fin 8) (a : Fin 16) :
    multiReduction (F := Ideal) .add [2] S8x16 src 0x00000000#32 h hφ hacc (ix2 p a) = ∑ d : Fin 3, src (ix3 p a d) := by
  refine (Ideal.multiReduction_add_single src 0x00000000#32 h hφ hacc (ix2 p a)).trans ?_
  refine Finset.sum_congr rfl fun d _ => congrArg src ?_
  funext ax
  match ax with
  | ⟨0, _⟩ => rfl
  | ⟨1, _⟩ => rfl
  | ⟨2, _⟩ => rfl

/-- The sum of a `[8,128,3]` block over its last axis, at `(p, b)`. -/
theorem sumLast_128x3 (src : FVec Ideal S8x128x3 .f32) (h : S8x128x3.Reduces [2] S8x128) (hφ : FKind.Formats .f32)
    (hacc : (0x00000000#32 : BitVec 32) = 0x00000000#32) (p : Fin 8) (b : Fin 128) :
    multiReduction (F := Ideal) .add [2] S8x128 src 0x00000000#32 h hφ hacc (ix2 p b) = ∑ d : Fin 3, src (ix3 p b d) := by
  refine (Ideal.multiReduction_add_single src 0x00000000#32 h hφ hacc (ix2 p b)).trans ?_
  refine Finset.sum_congr rfl fun d _ => congrArg src ?_
  funext ax
  match ax with
  | ⟨0, _⟩ => rfl
  | ⟨1, _⟩ => rfl
  | ⟨2, _⟩ => rfl

/-- The sum of a tile `[8,16,128]` over its columns, at `(p, a)`. -/
theorem sumCols (src : FVec Ideal S8x16x128 .f32) (h : S8x16x128.Reduces [2] S8x16) (hφ : FKind.Formats .f32)
    (hacc : (0x00000000#32 : BitVec 32) = 0x00000000#32) (p : Fin 8) (a : Fin 16) :
    multiReduction (F := Ideal) .add [2] S8x16 src 0x00000000#32 h hφ hacc (ix2 p a) = ∑ b : Fin 128, src (ix3 p a b) := by
  refine (Ideal.multiReduction_add_single src 0x00000000#32 h hφ hacc (ix2 p a)).trans ?_
  refine Finset.sum_congr rfl fun d _ => congrArg src ?_
  funext ax
  match ax with
  | ⟨0, _⟩ => rfl
  | ⟨1, _⟩ => rfl
  | ⟨2, _⟩ => rfl

/-- The sum of a `[8,16]` vector over its rows, at `p`. -/
theorem sumRows (src : FVec Ideal S8x16 .f32) (h : S8x16.Reduces [1] S8) (hφ : FKind.Formats .f32)
    (hacc : (0x00000000#32 : BitVec 32) = 0x00000000#32) (p : Fin 8) :
    multiReduction (F := Ideal) .add [1] S8 src 0x00000000#32 h hφ hacc (ix1 p) = ∑ a : Fin 16, src (ix2 p a) := by
  refine (Ideal.multiReduction_add_single src 0x00000000#32 h hφ hacc (ix1 p)).trans ?_
  refine Finset.sum_congr rfl fun d _ => congrArg src ?_
  funext ax
  match ax with
  | ⟨0, _⟩ => rfl
  | ⟨1, _⟩ => rfl

/-! ## The batched inner product -/

theorem dot_lhs0 (i : S8x16x128.Idx) (q : dot_S8x16x3_S8x128x3_S8x16x128_2_2_1_1_0_0.contr.Idx) :
    (dot_S8x16x3_S8x128x3_S8x16x128_2_2_1_1_0_0.lhsIdx i q 0).val = (i 0).val := by
  unfold DotDims.lhsIdx
  rw [dif_pos (show (0 : Fin S8x16x3.rank) ∈ dot_S8x16x3_S8x128x3_S8x16x128_2_2_1_1_0_0.lhsBatch by decide)]
  rfl
theorem dot_lhs1 (i : S8x16x128.Idx) (q : dot_S8x16x3_S8x128x3_S8x16x128_2_2_1_1_0_0.contr.Idx) :
    (dot_S8x16x3_S8x128x3_S8x16x128_2_2_1_1_0_0.lhsIdx i q 1).val = (i 1).val := by
  unfold DotDims.lhsIdx
  rw [dif_neg (show ¬(1 : Fin S8x16x3.rank) ∈ dot_S8x16x3_S8x128x3_S8x16x128_2_2_1_1_0_0.lhsBatch by decide),
    dif_pos (show (1 : Fin S8x16x3.rank) ∈ dot_S8x16x3_S8x128x3_S8x16x128_2_2_1_1_0_0.lhsNonContracting by decide)]
  rfl
theorem dot_lhs2 (i : S8x16x128.Idx) (q : dot_S8x16x3_S8x128x3_S8x16x128_2_2_1_1_0_0.contr.Idx) :
    (dot_S8x16x3_S8x128x3_S8x16x128_2_2_1_1_0_0.lhsIdx i q 2).val = (q ⟨0, by decide⟩).val :=
  dot_S8x16x3_S8x128x3_S8x16x128_2_2_1_1_0_0.lhsIdx_val_of_single rfl i q
theorem dot_rhs0 (i : S8x16x128.Idx) (q : dot_S8x16x3_S8x128x3_S8x16x128_2_2_1_1_0_0.contr.Idx) :
    (dot_S8x16x3_S8x128x3_S8x16x128_2_2_1_1_0_0.rhsIdx i q 0).val = (i 0).val := by
  unfold DotDims.rhsIdx
  rw [dif_pos (show (0 : Fin S8x128x3.rank) ∈ dot_S8x16x3_S8x128x3_S8x16x128_2_2_1_1_0_0.rhsBatch by decide)]
  rfl
theorem dot_rhs1 (i : S8x16x128.Idx) (q : dot_S8x16x3_S8x128x3_S8x16x128_2_2_1_1_0_0.contr.Idx) :
    (dot_S8x16x3_S8x128x3_S8x16x128_2_2_1_1_0_0.rhsIdx i q 1).val = (i 2).val := by
  unfold DotDims.rhsIdx
  rw [dif_neg (show ¬(1 : Fin S8x128x3.rank) ∈ dot_S8x16x3_S8x128x3_S8x16x128_2_2_1_1_0_0.rhsBatch by decide),
    dif_pos (show (1 : Fin S8x128x3.rank) ∈ dot_S8x16x3_S8x128x3_S8x16x128_2_2_1_1_0_0.rhsNonContracting by decide)]
  rfl
theorem dot_rhs2 (i : S8x16x128.Idx) (q : dot_S8x16x3_S8x128x3_S8x16x128_2_2_1_1_0_0.contr.Idx) :
    (dot_S8x16x3_S8x128x3_S8x16x128_2_2_1_1_0_0.rhsIdx i q 2).val = (q ⟨0, by decide⟩).val :=
  dot_S8x16x3_S8x128x3_S8x16x128_2_2_1_1_0_0.rhsIdx_val_of_single rfl i q

/-- The batched product of the row and column coordinate blocks into a zero accumulator, at `(p, a, b)`: the inner
    product of row atom `a` and column atom `b` of pose `p`. -/
theorem matmul_tile_apply (v0 : FVec Ideal S8x16x3 .f32) (v1 : FVec Ideal S8x128x3 .f32) (prec : Option ContractPrecision)
    (p : Fin 8) (a : Fin 16) (b : Fin 128) :
    matmul dot_S8x16x3_S8x128x3_S8x16x128_2_2_1_1_0_0 prec v0 v1 (constant (F := Ideal) S8x16x128 .f32 0x00000000#32) (ix3 p a b)
      = ∑ d : Fin 3, v0 (ix3 p a d) * v1 (ix3 p b d) := by
  simp only [matmul]
  rw [Ideal.matmul_constant_zero_apply,
    ← Equiv.sum_comp (contrEquiv1 dot_S8x16x3_S8x128x3_S8x16x128_2_2_1_1_0_0 3 rfl rfl).symm]
  refine Finset.sum_congr rfl fun k _ => ?_
  have hk := contrEquiv1_symm_val dot_S8x16x3_S8x128x3_S8x16x128_2_2_1_1_0_0 3 rfl rfl k
  have el : dot_S8x16x3_S8x128x3_S8x16x128_2_2_1_1_0_0.lhsIdx (ix3 p a b)
      ((contrEquiv1 dot_S8x16x3_S8x128x3_S8x16x128_2_2_1_1_0_0 3 rfl rfl).symm k) = ix3 p a k :=
    funext fun ax => Fin.ext (by
      match ax with
      | ⟨0, _⟩ => exact dot_lhs0 _ _
      | ⟨1, _⟩ => exact dot_lhs1 _ _
      | ⟨2, _⟩ => exact (dot_lhs2 _ _).trans hk)
  have er : dot_S8x16x3_S8x128x3_S8x16x128_2_2_1_1_0_0.rhsIdx (ix3 p a b)
      ((contrEquiv1 dot_S8x16x3_S8x128x3_S8x16x128_2_2_1_1_0_0 3 rfl rfl).symm k) = ix3 p b k :=
    funext fun ax => Fin.ext (by
      match ax with
      | ⟨0, _⟩ => exact dot_rhs0 _ _
      | ⟨1, _⟩ => exact dot_rhs1 _ _
      | ⟨2, _⟩ => exact (dot_rhs2 _ _).trans hk)
  rw [el, er]

/-! ## The iota along the rows and along the columns -/

theorem iotaRows_apply (h : S8x16x128.Iotas .tc 32 [1]) (p : Fin 8) (a : Fin 16) (b : Fin 128) :
    iota .tc S8x16x128 32 [1] h (ix3 p a b) = BitVec.ofNat 32 a.val :=
  iota_single_apply .tc S8x16x128 32 1 h (ix3 p a b)

theorem iotaCols_apply (h : S8x16x128.Iotas .tc 32 [2]) (p : Fin 8) (a : Fin 16) (b : Fin 128) :
    iota .tc S8x16x128 32 [2] h (ix3 p a b) = BitVec.ofNat 32 b.val :=
  iota_single_apply .tc S8x16x128 32 2 h (ix3 p a b)

/-! ## Two `[8]` vectors stacked as the rows of `[2,8]` -/

/-- Row 0 of the stack is the first vector, row 1 the second. -/
theorem stack_apply (x y : (⟨1, ![8]⟩ : Shape).Idx → α) (h : S8.ShapeCasts S1x8)
    (hc : Shape.Concatenates [S1x8, S1x8] S2x8 0) (s : Fin 2) (p : Fin 8) :
    concatenate S2x8 0 [⟨S1x8, shapeCast S1x8 x h⟩, ⟨S1x8, shapeCast S1x8 y h⟩] hc (ix2 s p)
      = if s = 0 then x (ix1 p) else y (ix1 p) := by
  by_cases hs : s = 0
  · subst hs
    rw [if_pos rfl]
    refine (concatenate_pair_apply_left (0 : Fin S2x8.rank) _ _ hc (ix2 (0 : Fin 2) p) rfl (ix2 (0 : Fin 1) p) fun b => ?_).trans ?_
    · match b with
      | ⟨0, _⟩ => rfl
      | ⟨1, _⟩ => rfl
    · exact shapeCast_a_1a_apply x h 0 p
  · rw [if_neg hs]
    obtain rfl : s = 1 := Fin.ext (by have := s.isLt; have : s.val ≠ 0 := fun h0 => hs (Fin.ext h0); omega)
    refine (concatenate_pair_apply_right (0 : Fin S2x8.rank) _ _ hc (ix2 (1 : Fin 2) p) rfl rfl (ix2 (0 : Fin 1) p)
      (fun b hb => ?_) ?_).trans ?_
    · match b with
      | ⟨0, _⟩ => exact absurd rfl hb
      | ⟨1, _⟩ => rfl
    · rfl
    · exact shapeCast_a_1a_apply y h 0 p

end Cert.TileValue

end
-- ==== Proof.TileValuePointwise.lean ====
/-
  The pointwise part of one tile's body read at an element, at the ideal values: the distance from the squared-norm sum
  and twice the inner product, the cubic fade, the Lennard-Jones energy, the pieces of the Lazaridis-Karplus energy,
  and the count-pair weight, each as the specification's scalar function of the operands' elements.
-/
import proofs.«113635_j4526895530581_2_alg».proof.Proof.Gen.KernelIdeal.Skeleton
import proofs.«113635_j4526895530581_2_alg».proof.Proof.PairEnergy
import proofs.«113635_j4526895530581_2_alg».proof.Proof.TileValueLayout

noncomputable section

open scoped BigOperators

namespace Cert.TileValue

open Idealize.ShloMosaic Idealize.ShloMosaic.ValueIdx Cert.KernelIdeal Cert.KernelIdeal.Gen Cert.PairEnergy

/-! ## Distance and fade -/

/-- The distance block at an element: the root of the floored difference of its two operands' elements. -/
theorem pay15_apply (v36 v38 : FVec Ideal S8x16x128 .f32) (x : S8x16x128.Idx) :
    k0_pay15 v36 v38 x = Ideal.sqrt (max (v36 x - v38 x) (lit 0x2B8CBCCC#32)) := rfl

/-- The three fade payloads combine, at an element, to the cubic fade of the distance there. -/
theorem fade_apply (v36 v38 : FVec Ideal S8x16x128 .f32) (x : S8x16x128.Idx) :
    k0_pay22 (k0_pay20 v36 v38) (k0_pay21 v36 v38) x = fade (k0_pay15 v36 v38 x) := rfl

/-! ## Lennard-Jones -/

/-- The Lennard-Jones payload at an element is `lj` of the elements of σ, ε and the distance. -/
theorem pay23_apply (v42 v47 v53 : FVec Ideal S8x16x128 .f32) (x : S8x16x128.Idx) :
    k0_pay23 v42 v47 v53 x = lj (v47 x) (v53 x) (v42 x) := rfl

/-! ## Lazaridis-Karplus pieces -/

theorem pay24_apply (v42 : FVec Ideal S8x16x128 .f32) (x : S8x16x128.Idx) :
    k0_pay24 v42 x = max (v42 x) (lit 0x3F800000#32) := rfl

theorem pay27_apply (v42 : FVec Ideal S8x16x128 .f32) (x : S8x16x128.Idx) :
    k0_pay27 v42 x = Ideal.div (lit 0xBDB7E5B0#32) (max (v42 x) (lit 0x3F800000#32) * max (v42 x) (lit 0x3F800000#32)) := rfl

/-! ## Per-row and per-column operands laid over the tile -/

/-- σ's payload at `(p, a, b)`: the row atom's radius plus the column atom's. -/
theorem pay16_apply (v8 : FVec Ideal S8x16 .f32) (v18 : FVec Ideal S8x128 .f32) (p : Fin 8) (a : Fin 16) (b : Fin 128) :
    k0_pay16 v8 v18 (ix3 p a b) = v8 (ix2 p a) + v18 (ix2 p b) := by
  show broadcastTo S8x16x128 (shapeCast S8x16x1 v8 _) _ (ix3 p a b)
    + broadcastTo S8x16x128 (shapeCast S8x1x128 v18 _) _ (ix3 p a b) = _
  rw [rowBcast_apply, colBcast_apply]

/-- ε's payload at `(p, a, b)`: the root of the product of the two well depths. -/
theorem pay17_apply (v10 : FVec Ideal S8x16 .f32) (v20 : FVec Ideal S8x128 .f32) (p : Fin 8) (a : Fin 16) (b : Fin 128) :
    k0_pay17 v10 v20 (ix3 p a b) = Ideal.sqrt (v10 (ix2 p a) * v20 (ix2 p b)) := by
  show Ideal.sqrt (broadcastTo S8x16x128 (shapeCast S8x16x1 v10 _) _ (ix3 p a b)
    * broadcastTo S8x16x128 (shapeCast S8x1x128 v20 _) _ (ix3 p a b)) = _
  rw [rowBcast_apply, colBcast_apply]

/-- The row atom's scaled offset `(max d 1 − R_q) / λ_q` at `(p, a, b)`. -/
theorem pay25_apply (v8 v14 : FVec Ideal S8x16 .f32) (v42 : FVec Ideal S8x16x128 .f32) (p : Fin 8) (a : Fin 16) (b : Fin 128) :
    k0_pay25 v8 v14 v42 (ix3 p a b)
      = Ideal.div (max (v42 (ix3 p a b)) (lit 0x3F800000#32) - v8 (ix2 p a)) (v14 (ix2 p a)) := by
  show Ideal.div (max (v42 (ix3 p a b)) (lit 0x3F800000#32) - broadcastTo S8x16x128 (shapeCast S8x16x1 v8 _) _ (ix3 p a b))
    (broadcastTo S8x16x128 (shapeCast S8x16x1 v14 _) _ (ix3 p a b)) = _
  rw [rowBcast_apply, rowBcast_apply]

/-- The column atom's scaled offset `(max d 1 − R_k) / λ_k` at `(p, a, b)`. -/
theorem pay26_apply (v18 v24 : FVec Ideal S8x128 .f32) (v42 : FVec Ideal S8x16x128 .f32) (p : Fin 8) (a : Fin 16) (b : Fin 128) :
    k0_pay26 v18 v24 v42 (ix3 p a b)
      = Ideal.div (max (v42 (ix3 p a b)) (lit 0x3F800000#32) - v18 (ix2 p b)) (v24 (ix2 p b)) := by
  show Ideal.div (max (v42 (ix3 p a b)) (lit 0x3F800000#32) - broadcastTo S8x16x128 (shapeCast S8x1x128 v18 _) _ (ix3 p a b))
    (broadcastTo S8x16x128 (shapeCast S8x1x128 v24 _) _ (ix3 p a b)) = _
  rw [colBcast_apply, colBcast_apply]

theorem pay28_apply (v12 : FVec Ideal S8x16 .f32) (p : Fin 8) (a : Fin 16) (b : Fin 128) :
    k0_pay28 v12 (ix3 p a b) = v12 (ix2 p a) := by
  unfold k0_pay28
  exact rowBcast_apply v12 _ _ p a b

theorem pay29_apply (v26 : FVec Ideal S8x128 .f32) (p : Fin 8) (a : Fin 16) (b : Fin 128) :
    k0_pay29 v26 (ix3 p a b) = v26 (ix2 p b) := by
  unfold k0_pay29
  exact colBcast_apply v26 _ _ p a b

/-! ## The count-pair weight -/

/-- The count-pair payload at `(p, a, b)`: `countPair` of the comparison of the two global atom numbers, as the
    body computes them on 32-bit words, and the bonded path distance there. -/
theorem pay18_apply (arg0 arg1 : BitVec 32) (v2 : Vec Ideal S8x16x128 .i32) (p : Fin 8) (a : Fin 16) (b : Fin 128) :
    k0_pay18 (F := Ideal) arg0 arg1 v2 (ix3 p a b)
      = countPair (IntOp.cmpi .eq (arg0 * 16#32 + BitVec.ofNat 32 a.val) (arg1 * 128#32 + BitVec.ofNat 32 b.val))
          (v2 (ix3 p a b)) := by
  show Scalar.select (IntOp.cmpi .eq (IntOp.addi (Scalar.muli arg0 16#32) (iota .tc S8x16x128 32 [1] _ (ix3 p a b)))
      (IntOp.addi (Scalar.muli arg1 128#32) (iota .tc S8x16x128 32 [2] _ (ix3 p a b)))) _ _ = _
  rw [iotaRows_apply, iotaCols_apply]
  rfl

/-- The global number of row atom `a` of row block `i`, on 32-bit words. -/
theorem rowWord (i a : ℕ) : BitVec.ofNat 32 i * 16#32 + BitVec.ofNat 32 a = BitVec.ofNat 32 (16 * i + a) := by
  rw [show (16#32 : BitVec 32) = BitVec.ofNat 32 16 from rfl, ← BitVec.ofNat_mul, ← BitVec.ofNat_add, Nat.mul_comm]

/-- The global number of column atom `b` of column block `j`, on 32-bit words. -/
theorem colWord (j b : ℕ) : BitVec.ofNat 32 j * 128#32 + BitVec.ofNat 32 b = BitVec.ofNat 32 (128 * j + b) := by
  rw [show (128#32 : BitVec 32) = BitVec.ofNat 32 128 from rfl, ← BitVec.ofNat_mul, ← BitVec.ofNat_add, Nat.mul_comm]

end Cert.TileValue

end
-- ==== Proof.TileValueTerm.lean ====
/-
  One tile's pair terms from the whole arrays. Under the block hypotheses — the row coordinate block is rows
  `16i … 16i+15` of `X`, the column block is rows `128j … 128j+127`, the path-distance block and the two parameter
  blocks likewise — the tile's Lennard-Jones and Lazaridis-Karplus products at `(p, a, b)` are the specification's
  `ljTerm` and `lkTerm` of atoms `16i + a` and `128j + b`.
-/
import proofs.«113635_j4526895530581_2_alg».proof.Proof.TileValuePointwise

noncomputable section

open scoped BigOperators

namespace Cert.TileValue

open Idealize.ShloMosaic Idealize.ShloMosaic.ValueIdx Cert.KernelIdeal Cert.KernelIdeal.Gen Cert.PairEnergy

/-- Row atom `a` of row block `i`. -/
abbrev rowAtom (i : ℕ) (hi : i < 128) (a : Fin 16) : Fin 2048 := ⟨16 * i + a.val, by omega⟩
/-- Column atom `b` of column block `j`. -/
abbrev colAtom (j : ℕ) (hj : j < 16) (b : Fin 128) : Fin 2048 := ⟨128 * j + b.val, by omega⟩

/-- The zero word denotes zero. -/
theorem lit_zero : lit 0x00000000#32 = 0 := Ideal.ofBits_zero_f32

/-! ## The parameter columns -/

section Params
variable (v3 : Vec Ideal S8x16x5 .f32) (v5 : Vec Ideal S8x128x5 .f32) (p : Fin 8) (a : Fin 16) (b : Fin 128)

theorem pay3_apply : k0_pay3 v3 (ix2 p a) = v3 (ix3 p a (0 : Fin 5)) := by
  unfold k0_pay3 k0_pay1; simp only [shapeCast_self]; exact paramRow_apply v3 0 _ _ p a 0 rfl
theorem pay4_apply : k0_pay4 v3 (ix2 p a) = v3 (ix3 p a (1 : Fin 5)) := by
  unfold k0_pay4 k0_pay1; simp only [shapeCast_self]; exact paramRow_apply v3 1 _ _ p a 1 rfl
theorem pay5_apply : k0_pay5 v3 (ix2 p a) = v3 (ix3 p a (2 : Fin 5)) := by
  unfold k0_pay5 k0_pay1; simp only [shapeCast_self]; exact paramRow_apply v3 2 _ _ p a 2 rfl
theorem pay6_apply : k0_pay6 v3 (ix2 p a) = v3 (ix3 p a (3 : Fin 5)) := by
  unfold k0_pay6 k0_pay1; simp only [shapeCast_self]; exact paramRow_apply v3 3 _ _ p a 3 rfl
theorem pay7_apply : k0_pay7 v3 (ix2 p a) = v3 (ix3 p a (4 : Fin 5)) := by
  unfold k0_pay7 k0_pay1; simp only [shapeCast_self]; exact paramRow_apply v3 4 _ _ p a 4 rfl
theorem pay8_apply : k0_pay8 v5 (ix2 p b) = v5 (ix3 p b (0 : Fin 5)) := by
  unfold k0_pay8 k0_pay2; simp only [shapeCast_self]; exact paramCol_apply v5 0 _ _ p b 0 rfl
theorem pay9_apply : k0_pay9 v5 (ix2 p b) = v5 (ix3 p b (1 : Fin 5)) := by
  unfold k0_pay9 k0_pay2; simp only [shapeCast_self]; exact paramCol_apply v5 1 _ _ p b 1 rfl
theorem pay10_apply : k0_pay10 v5 (ix2 p b) = v5 (ix3 p b (2 : Fin 5)) := by
  unfold k0_pay10 k0_pay2; simp only [shapeCast_self]; exact paramCol_apply v5 2 _ _ p b 2 rfl
theorem pay11_apply : k0_pay11 v5 (ix2 p b) = v5 (ix3 p b (3 : Fin 5)) := by
  unfold k0_pay11 k0_pay2; simp only [shapeCast_self]; exact paramCol_apply v5 3 _ _ p b 3 rfl
theorem pay12_apply : k0_pay12 v5 (ix2 p b) = v5 (ix3 p b (4 : Fin 5)) := by
  unfold k0_pay12 k0_pay2; simp only [shapeCast_self]; exact paramCol_apply v5 4 _ _ p b 4 rfl

end Params

/-! ## The distance -/

section Dist
variable (X : Fin 8 → Fin 2048 → Fin 3 → EReal) (i j : ℕ) (hi : i < 128) (hj : j < 16)
variable (v0 : Vec Ideal S8x16x3 .f32) (v1 : Vec Ideal S8x128x3 .f32)
variable (hv0 : ∀ (p : Fin 8) (a : Fin 16) (d : Fin 3), v0 (ix3 p a d) = X p (rowAtom i hi a) d)
variable (hv1 : ∀ (p : Fin 8) (b : Fin 128) (d : Fin 3), v1 (ix3 p b d) = X p (colAtom j hj b) d)
include hv0 hv1

/-- The squared-norm sum of the tile at `(p, a, b)`. -/
theorem pay13_apply (p : Fin 8) (a : Fin 16) (b : Fin 128) :
    k0_pay13 v0 v1 (ix3 p a b) = PairEnergy.sq X p (rowAtom i hi a) + PairEnergy.sq X p (colAtom j hj b) := by
  show broadcastTo S8x16x128 (shapeCast S8x16x1
        (multiReduction (F := Ideal) .add [2] S8x16 (mulf v0 v0) 0x00000000#32 _ _ _) _) _ (ix3 p a b)
      + broadcastTo S8x16x128 (shapeCast S8x1x128
        (multiReduction (F := Ideal) .add [2] S8x128 (mulf v1 v1) 0x00000000#32 _ _ _) _) _ (ix3 p a b) = _
  rw [rowBcast_apply, colBcast_apply, sumLast_16x3, sumLast_128x3]
  unfold PairEnergy.sq
  rw [lit_zero, zero_add, zero_add]
  refine congrArg₂ (· + ·) (Finset.sum_congr rfl fun d _ => ?_) (Finset.sum_congr rfl fun d _ => ?_)
  · rw [mulf_apply, hv0]
  · rw [mulf_apply, hv1]

/-- Twice the inner product of the tile at `(p, a, b)`. -/
theorem pay14_apply (p : Fin 8) (a : Fin 16) (b : Fin 128) :
    k0_pay14 v0 v1 (ix3 p a b) = lit 0x40000000#32 * PairEnergy.cross X p (rowAtom i hi a) (colAtom j hj b) := by
  show lit 0x40000000#32 * matmul dot_S8x16x3_S8x128x3_S8x16x128_2_2_1_1_0_0 (some .fp32) v0 v1
      (constant (F := Ideal) S8x16x128 .f32 0x00000000#32) (ix3 p a b) = _
  rw [matmul_tile_apply]
  unfold PairEnergy.cross
  refine congrArg _ (Finset.sum_congr rfl fun d _ => ?_)
  rw [hv0, hv1]

/-- The distance of the tile at `(p, a, b)`. -/
theorem dist_apply (p : Fin 8) (a : Fin 16) (b : Fin 128) :
    k0_pay15 (k0_pay13 v0 v1) (k0_pay14 v0 v1) (ix3 p a b) = PairEnergy.dist X p (rowAtom i hi a) (colAtom j hj b) := by
  rw [pay15_apply, pay13_apply X i j hi hj v0 v1 hv0 hv1, pay14_apply X i j hi hj v0 v1 hv0 hv1]
  rfl

end Dist

/-! ## The pair terms -/

/-- The five loaded blocks are the blocks of the whole arrays at tile `(i, j)`: rows `16i … 16i+15` of the
    coordinates, of the parameters and of the path distances, columns `128j … 128j+127` likewise; the parameter blocks
    hold radius, well depth, free energy, correlation length and volume along their last axis. -/
structure Blocks (X : Fin 8 → Fin 2048 → Fin 3 → EReal) (P : Params) (i j : ℕ) (hi : i < 128) (hj : j < 16)
    (v0 : Vec Ideal S8x16x3 .f32) (v1 : Vec Ideal S8x128x3 .f32) (v2 : Vec Ideal S8x16x128 .i32)
    (v3 : Vec Ideal S8x16x5 .f32) (v5 : Vec Ideal S8x128x5 .f32) : Prop where
  x0 : ∀ (p : Fin 8) (a : Fin 16) (d : Fin 3), v0 (ix3 p a d) = X p (rowAtom i hi a) d
  x1 : ∀ (p : Fin 8) (b : Fin 128) (d : Fin 3), v1 (ix3 p b d) = X p (colAtom j hj b) d
  pd : ∀ (p : Fin 8) (a : Fin 16) (b : Fin 128), v2 (ix3 p a b) = P.PD p (rowAtom i hi a) (colAtom j hj b)
  r3 : ∀ (p : Fin 8) (a : Fin 16), v3 (ix3 p a (0 : Fin 5)) = P.R p (rowAtom i hi a)
  w3 : ∀ (p : Fin 8) (a : Fin 16), v3 (ix3 p a (1 : Fin 5)) = P.W p (rowAtom i hi a)
  dg3 : ∀ (p : Fin 8) (a : Fin 16), v3 (ix3 p a (2 : Fin 5)) = P.DG p (rowAtom i hi a)
  lam3 : ∀ (p : Fin 8) (a : Fin 16), v3 (ix3 p a (3 : Fin 5)) = P.LAM p (rowAtom i hi a)
  vol3 : ∀ (p : Fin 8) (a : Fin 16), v3 (ix3 p a (4 : Fin 5)) = P.VOL p (rowAtom i hi a)
  r5 : ∀ (p : Fin 8) (b : Fin 128), v5 (ix3 p b (0 : Fin 5)) = P.R p (colAtom j hj b)
  w5 : ∀ (p : Fin 8) (b : Fin 128), v5 (ix3 p b (1 : Fin 5)) = P.W p (colAtom j hj b)
  dg5 : ∀ (p : Fin 8) (b : Fin 128), v5 (ix3 p b (2 : Fin 5)) = P.DG p (colAtom j hj b)
  lam5 : ∀ (p : Fin 8) (b : Fin 128), v5 (ix3 p b (3 : Fin 5)) = P.LAM p (colAtom j hj b)
  vol5 : ∀ (p : Fin 8) (b : Fin 128), v5 (ix3 p b (4 : Fin 5)) = P.VOL p (colAtom j hj b)

section Terms
variable {X : Fin 8 → Fin 2048 → Fin 3 → EReal} {P : Params} {i j : ℕ} {hi : i < 128} {hj : j < 16}
variable {v0 : Vec Ideal S8x16x3 .f32} {v1 : Vec Ideal S8x128x3 .f32} {v2 : Vec Ideal S8x16x128 .i32}
variable {v3 : Vec Ideal S8x16x5 .f32} {v5 : Vec Ideal S8x128x5 .f32}

/-- The distance of the tile at `(p, a, b)`, from the block hypotheses. -/
theorem Blocks.dist (h : Blocks X P i j hi hj v0 v1 v2 v3 v5) (p : Fin 8) (a : Fin 16) (b : Fin 128) :
    k0_pay15 (k0_pay13 v0 v1) (k0_pay14 v0 v1) (ix3 p a b) = PairEnergy.dist X p (rowAtom i hi a) (colAtom j hj b) :=
  dist_apply X i j hi hj v0 v1 h.x0 h.x1 p a b

/-- Count-pair weight times fade at `(p, a, b)`: the diagonal test on the two global atom numbers is the
    specification's, since `16·i + a` and `128·j + b` are computed on words by a ring homomorphism. -/
theorem Blocks.weight (h : Blocks X P i j hi hj v0 v1 v2 v3 v5) (p : Fin 8) (a : Fin 16) (b : Fin 128) :
    k0_pay18 (F := Ideal) (BitVec.ofNat 32 i) (BitVec.ofNat 32 j) v2 (ix3 p a b)
        * k0_pay22 (k0_pay20 (k0_pay13 v0 v1) (k0_pay14 v0 v1)) (k0_pay21 (k0_pay13 v0 v1) (k0_pay14 v0 v1)) (ix3 p a b)
      = PairEnergy.weight X P p (rowAtom i hi a) (colAtom j hj b) := by
  rw [pay18_apply, rowWord, colWord, h.pd, fade_apply, h.dist]
  rfl

/-- The weighted Lennard-Jones product at `(p, a, b)` is the specification's `ljTerm`. -/
theorem Blocks.ljTerm (h : Blocks X P i j hi hj v0 v1 v2 v3 v5) (p : Fin 8) (a : Fin 16) (b : Fin 128) :
    k0_pay23 (k0_pay15 (k0_pay13 v0 v1) (k0_pay14 v0 v1)) (k0_pay16 (k0_pay3 v3) (k0_pay8 v5))
          (k0_pay17 (k0_pay4 v3) (k0_pay9 v5)) (ix3 p a b)
        * (k0_pay18 (F := Ideal) (BitVec.ofNat 32 i) (BitVec.ofNat 32 j) v2 (ix3 p a b)
          * k0_pay22 (k0_pay20 (k0_pay13 v0 v1) (k0_pay14 v0 v1)) (k0_pay21 (k0_pay13 v0 v1) (k0_pay14 v0 v1)) (ix3 p a b))
      = PairEnergy.ljTerm X P p (rowAtom i hi a) (colAtom j hj b) := by
  rw [h.weight, pay23_apply, h.dist, pay16_apply, pay17_apply, pay3_apply, pay8_apply, pay4_apply, pay9_apply,
    h.r3, h.r5, h.w3, h.w5]
  rfl

/-- The weighted Lazaridis-Karplus product at `(p, a, b)` is the specification's `lkTerm`: the body writes `−x` as
    `0 − x`. -/
theorem Blocks.lkTerm (h : Blocks X P i j hi hj v0 v1 v2 v3 v5) (p : Fin 8) (a : Fin 16) (b : Fin 128) :
    (k0_pay27 (k0_pay15 (k0_pay13 v0 v1) (k0_pay14 v0 v1)) (ix3 p a b)
        * (Ideal.div (k0_pay28 (k0_pay5 v3) (ix3 p a b) * k0_pay29 (k0_pay12 v5) (ix3 p a b)) (k0_pay6 v3 (ix2 p a))
              * Ideal.exp ((lit 0x00000000#32
                    - k0_pay25 (k0_pay3 v3) (k0_pay6 v3) (k0_pay15 (k0_pay13 v0 v1) (k0_pay14 v0 v1)) (ix3 p a b))
                  * k0_pay25 (k0_pay3 v3) (k0_pay6 v3) (k0_pay15 (k0_pay13 v0 v1) (k0_pay14 v0 v1)) (ix3 p a b))
            + Ideal.div (k0_pay10 v5 (ix2 p b) * k0_pay7 v3 (ix2 p a)) (k0_pay11 v5 (ix2 p b))
              * Ideal.exp ((lit 0x00000000#32
                    - k0_pay26 (k0_pay8 v5) (k0_pay11 v5) (k0_pay15 (k0_pay13 v0 v1) (k0_pay14 v0 v1)) (ix3 p a b))
                  * k0_pay26 (k0_pay8 v5) (k0_pay11 v5) (k0_pay15 (k0_pay13 v0 v1) (k0_pay14 v0 v1)) (ix3 p a b))))
        * (k0_pay18 (F := Ideal) (BitVec.ofNat 32 i) (BitVec.ofNat 32 j) v2 (ix3 p a b)
          * k0_pay22 (k0_pay20 (k0_pay13 v0 v1) (k0_pay14 v0 v1)) (k0_pay21 (k0_pay13 v0 v1) (k0_pay14 v0 v1)) (ix3 p a b))
      = PairEnergy.lkTerm X P p (rowAtom i hi a) (colAtom j hj b) := by
  rw [h.weight, pay27_apply, pay25_apply, pay26_apply, pay28_apply, pay29_apply, h.dist, pay3_apply, pay5_apply,
    pay6_apply, pay7_apply, pay8_apply, pay10_apply, pay11_apply, pay12_apply,
    h.r3, h.dg3, h.lam3, h.vol3, h.r5, h.dg5, h.lam5, h.vol5, lit_zero, zero_sub, zero_sub]
  rfl

end Terms

end Cert.TileValue

end
-- ==== Proof.TileValueAcc.lean ====
/-
  The last payload of one tile's body read at `(s, p)`: the accumulator's previous entry plus half the double sum,
  over the tile's rows and columns, of the weighted Lennard-Jones product (row 0) or of the weighted Lazaridis-Karplus
  product (row 1) of the payload's operands.
-/
import proofs.«113635_j4526895530581_2_alg».proof.Proof.Gen.KernelIdeal.Skeleton
import proofs.«113635_j4526895530581_2_alg».proof.Proof.PairEnergy
import proofs.«113635_j4526895530581_2_alg».proof.Proof.TileValueLayout

noncomputable section

open scoped BigOperators

namespace Cert.TileValue

open Idealize.ShloMosaic Idealize.ShloMosaic.ValueIdx Cert.KernelIdeal Cert.KernelIdeal.Gen Cert.PairEnergy

section
variable (v14 v16 : FVec Ideal S8x16 .f32) (v22 v24 : FVec Ideal S8x128 .f32)
variable (v73 v89 v116 v124 v130 v133 v136 v137 : FVec Ideal S8x16x128 .f32)

/-- The weighted Lennard-Jones product of the tile's operands at an element. -/
def ljProd (x : S8x16x128.Idx) : EReal := v116 x * (v73 x * v89 x)

/-- The weighted Lazaridis-Karplus product of the tile's operands at `(p, a, b)`. -/
def lkProd (p : Fin 8) (a : Fin 16) (b : Fin 128) : EReal :=
  (v133 (ix3 p a b)
    * (Ideal.div (v136 (ix3 p a b) * v137 (ix3 p a b)) (v14 (ix2 p a))
          * Ideal.exp ((lit 0x00000000#32 - v124 (ix3 p a b)) * v124 (ix3 p a b))
        + Ideal.div (v22 (ix2 p b) * v16 (ix2 p a)) (v24 (ix2 p b))
          * Ideal.exp ((lit 0x00000000#32 - v130 (ix3 p a b)) * v130 (ix3 p a b))))
    * (v73 (ix3 p a b) * v89 (ix3 p a b))

/-- The Lennard-Jones tile the last payload sums, at `(p, a, b)`. -/
theorem ljTile_apply (p : Fin 8) (a : Fin 16) (b : Fin 128) :
    mulf v116 (mulf v73 v89) (ix3 p a b) = ljProd v73 v89 v116 (ix3 p a b) := rfl

/-- The Lazaridis-Karplus tile the last payload sums, at `(p, a, b)`. -/
theorem lkTile_apply (h1 : S8x16.ShapeCasts S8x16x1) (h2 : S8x16x1.Broadcasts S8x16x128)
    (h3 : S8x128.ShapeCasts S8x1x128) (h4 : S8x1x128.Broadcasts S8x16x128) (p : Fin 8) (a : Fin 16) (b : Fin 128) :
    mulf (mulf v133 (addf
        (mulf (divf (mulf v136 v137) (broadcastTo S8x16x128 (shapeCast S8x16x1 v14 h1) h2))
          (exp (mulf (subf (broadcast S8x16x128 (Scalar.ofBits (F := Ideal) .f32 0x00000000#32)) v124) v124)))
        (mulf (divf (mulf (broadcastTo S8x16x128 (shapeCast S8x1x128 v22 h3) h4)
            (broadcastTo S8x16x128 (shapeCast S8x16x1 v16 h1) h2)) (broadcastTo S8x16x128 (shapeCast S8x1x128 v24 h3) h4))
          (exp (mulf (subf (broadcast S8x16x128 (Scalar.ofBits (F := Ideal) .f32 0x00000000#32)) v130) v130)))))
      (mulf v73 v89) (ix3 p a b)
      = lkProd v14 v16 v22 v24 v73 v89 v124 v130 v133 v136 v137 p a b := by
  show (v133 (ix3 p a b)
    * (Ideal.div (v136 (ix3 p a b) * v137 (ix3 p a b)) (broadcastTo S8x16x128 (shapeCast S8x16x1 v14 h1) h2 (ix3 p a b))
          * Ideal.exp ((lit 0x00000000#32 - v124 (ix3 p a b)) * v124 (ix3 p a b))
        + Ideal.div (broadcastTo S8x16x128 (shapeCast S8x1x128 v22 h3) h4 (ix3 p a b)
            * broadcastTo S8x16x128 (shapeCast S8x16x1 v16 h1) h2 (ix3 p a b))
            (broadcastTo S8x16x128 (shapeCast S8x1x128 v24 h3) h4 (ix3 p a b))
          * Ideal.exp ((lit 0x00000000#32 - v130 (ix3 p a b)) * v130 (ix3 p a b))))
    * (v73 (ix3 p a b) * v89 (ix3 p a b)) = _
  rw [rowBcast_apply, rowBcast_apply, colBcast_apply, colBcast_apply]
  rfl

/-- The last payload at `(s, p)`. -/
theorem pay31_apply (old : Vec Ideal S2x8 .f32) (s : Fin 2) (p : Fin 8) :
    k0_pay31 v14 v16 v22 v24 v73 v89 v116 v124 v130 v133 v136 v137 old (ix2 s p)
      = old (ix2 s p) + (if s = 0
          then lit 0x3F000000#32 * ∑ a : Fin 16, ∑ b : Fin 128, ljProd v73 v89 v116 (ix3 p a b)
          else lit 0x3F000000#32 * ∑ a : Fin 16, ∑ b : Fin 128,
            lkProd v14 v16 v22 v24 v73 v89 v124 v130 v133 v136 v137 p a b) := by
  unfold k0_pay31
  simp only [shapeCast_self]
  rw [addf_apply, stack_apply]
  refine congrArg (old (ix2 s p) + ·) ?_
  by_cases hs : s = 0
  · rw [if_pos hs, if_pos hs, mulf_apply, broadcast_apply, sumRows]
    refine congrArg _ (Finset.sum_congr rfl fun a _ => ?_)
    rw [sumCols]
    exact Finset.sum_congr rfl fun b _ => ljTile_apply v73 v89 v116 p a b
  · rw [if_neg hs, if_neg hs, mulf_apply, broadcast_apply, sumRows]
    refine congrArg _ (Finset.sum_congr rfl fun a _ => ?_)
    rw [sumCols]
    exact Finset.sum_congr rfl fun b _ => lkTile_apply v14 v16 v22 v24 v73 v89 v124 v130 v133 v136 v137 _ _ _ _ p a b

end

end Cert.TileValue

end
-- ==== Proof.TileValue.lean ====
/-
  THE VALUE ONE TILE ADDS. At the ideal values, when the five loaded blocks are the blocks of the whole arrays at tile
  `(i, j)`, the body's stored value at `(s, p)` is the accumulator's previous entry plus one half of zero plus the sum
  over the tile's 16 rows of zero plus the sum over its 128 columns of the specification's pair term of atoms
  `16i + a` and `128j + b`: each lane sum starts from the zero word, and the two `[1,8]` rows are stacked with the
  Lennard-Jones row first.
-/
import proofs.«113635_j4526895530581_2_alg».proof.Proof.TileValueDef
import proofs.«113635_j4526895530581_2_alg».proof.Proof.TileValueTerm
import proofs.«113635_j4526895530581_2_alg».proof.Proof.TileValueAcc

noncomputable section

open scoped BigOperators

namespace Cert.TileValue

open Idealize.ShloMosaic Idealize.ShloMosaic.ValueIdx Cert.KernelIdeal Cert.KernelIdeal.Gen Cert.PairEnergy

/-- The tile's value from the bundled block hypotheses. -/
theorem tileOut_of_blocks {X : Fin 8 → Fin 2048 → Fin 3 → EReal} {P : Params} {i j : ℕ} {hi : i < 128} {hj : j < 16}
    {v0 : Vec Ideal S8x16x3 .f32} {v1 : Vec Ideal S8x128x3 .f32} {v2 : Vec Ideal S8x16x128 .i32}
    {v3 : Vec Ideal S8x16x5 .f32} {v5 : Vec Ideal S8x128x5 .f32} (h : Blocks X P i j hi hj v0 v1 v2 v3 v5)
    (old : Vec Ideal S2x8 .f32) (s : Fin 2) (p : Fin 8) :
    tileOut i j v0 v1 v2 v3 v5 old (ix2 s p)
      = old (ix2 s p) + lit 0x3F000000#32 * (lit 0x00000000#32 + ∑ a : Fin 16, (lit 0x00000000#32
          + ∑ b : Fin 128, PairEnergy.term X P s p (rowAtom i hi a) (colAtom j hj b))) := by
  unfold tileOut
  rw [pay31_apply]
  refine congrArg (old (ix2 s p) + ·) ?_
  by_cases hs : s = 0
  · rw [if_pos hs, lit_zero, zero_add]
    refine congrArg _ (Finset.sum_congr rfl fun a _ => ?_)
    rw [zero_add]
    refine Finset.sum_congr rfl fun b _ => ?_
    unfold PairEnergy.term
    rw [if_pos hs]
    exact h.ljTerm p a b
  · rw [if_neg hs, lit_zero, zero_add]
    refine congrArg _ (Finset.sum_congr rfl fun a _ => ?_)
    rw [zero_add]
    refine Finset.sum_congr rfl fun b _ => ?_
    unfold PairEnergy.term
    rw [if_neg hs]
    exact h.lkTerm p a b

/-- THE TILE'S VALUE. `rowAtom i hi a` is `⟨16 * i + a, _⟩` and `colAtom j hj b` is `⟨128 * j + b, _⟩`. -/
theorem tileOut_apply (X : Fin 8 → Fin 2048 → Fin 3 → EReal) (P : Params) (i j : ℕ) (hi : i < 128) (hj : j < 16)
    (v0 : Vec Ideal S8x16x3 .f32) (v1 : Vec Ideal S8x128x3 .f32) (v2 : Vec Ideal S8x16x128 .i32)
    (v3 : Vec Ideal S8x16x5 .f32) (v5 : Vec Ideal S8x128x5 .f32) (old : Vec Ideal S2x8 .f32)
    (hv0 : ∀ (p : Fin 8) (a : Fin 16) (d : Fin 3), v0 (ix3 p a d) = X p (rowAtom i hi a) d)
    (hv1 : ∀ (p : Fin 8) (b : Fin 128) (d : Fin 3), v1 (ix3 p b d) = X p (colAtom j hj b) d)
    (hv2 : ∀ (p : Fin 8) (a : Fin 16) (b : Fin 128), v2 (ix3 p a b) = P.PD p (rowAtom i hi a) (colAtom j hj b))
    (hv3 : ∀ (p : Fin 8) (a : Fin 16),
      v3 (ix3 p a (0 : Fin 5)) = P.R p (rowAtom i hi a) ∧ v3 (ix3 p a (1 : Fin 5)) = P.W p (rowAtom i hi a)
      ∧ v3 (ix3 p a (2 : Fin 5)) = P.DG p (rowAtom i hi a) ∧ v3 (ix3 p a (3 : Fin 5)) = P.LAM p (rowAtom i hi a)
      ∧ v3 (ix3 p a (4 : Fin 5)) = P.VOL p (rowAtom i hi a))
    (hv5 : ∀ (p : Fin 8) (b : Fin 128),
      v5 (ix3 p b (0 : Fin 5)) = P.R p (colAtom j hj b) ∧ v5 (ix3 p b (1 : Fin 5)) = P.W p (colAtom j hj b)
      ∧ v5 (ix3 p b (2 : Fin 5)) = P.DG p (colAtom j hj b) ∧ v5 (ix3 p b (3 : Fin 5)) = P.LAM p (colAtom j hj b)
      ∧ v5 (ix3 p b (4 : Fin 5)) = P.VOL p (colAtom j hj b))
    (s : Fin 2) (p : Fin 8) :
    tileOut i j v0 v1 v2 v3 v5 old (ix2 s p)
      = old (ix2 s p) + lit 0x3F000000#32 * (lit 0x00000000#32 + ∑ a : Fin 16, (lit 0x00000000#32
          + ∑ b : Fin 128, PairEnergy.term X P s p (rowAtom i hi a) (colAtom j hj b))) :=
  tileOut_of_blocks
    { x0 := hv0, x1 := hv1, pd := hv2
      r3 := fun p a => (hv3 p a).1, w3 := fun p a => (hv3 p a).2.1, dg3 := fun p a => (hv3 p a).2.2.1
      lam3 := fun p a => (hv3 p a).2.2.2.1, vol3 := fun p a => (hv3 p a).2.2.2.2
      r5 := fun p b => (hv5 p b).1, w5 := fun p b => (hv5 p b).2.1, dg5 := fun p b => (hv5 p b).2.2.1
      lam5 := fun p b => (hv5 p b).2.2.2.1, vol5 := fun p b => (hv5 p b).2.2.2.2 } old s p

end Cert.TileValue

end
-- ==== Proof.TileSum.lean ====
/-
  The sum algebra behind a tiled accumulation over the extended reals.

  A 2048 x 2048 array of extended reals is walked in a 128 x 16 grid of tiles: tile `t` (row block `t / 16`,
  column block `t % 16`) holds rows `16·(t/16) … 16·(t/16)+15` and columns `128·(t%16) … 128·(t%16)+127`.
  Each tile contributes `c · (0 + Σ_a (0 + Σ_b f))` to a running accumulator that starts from zero.  For a
  non-negative finite factor `c` the final accumulator is `c · (0 + Σ_q Σ_k f q k)`: the extended reals are an
  additive commutative monoid, so sums reassociate and reindex freely, and a non-negative finite factor
  distributes over sums (no finiteness of the summands is needed).
-/
import Idealize.ShloMosaic.PureOps.Ideal

namespace Cert.TileSum

open Finset

/-- A non-negative finite factor distributes over a finite sum of extended reals. -/
theorem mul_sum_of_nonneg_of_ne_top {ι : Type*} (c : EReal) (hc0 : 0 ≤ c) (hct : c ≠ ⊤)
    (s : Finset ι) (g : ι → EReal) : c * ∑ i ∈ s, g i = ∑ i ∈ s, c * g i := by
  classical
  induction s using Finset.induction_on with
  | empty => simp
  | insert a s ha ih =>
    rw [Finset.sum_insert ha, Finset.sum_insert ha,
      EReal.left_distrib_of_nonneg_of_ne_top hc0 hct, ih]

/-- An accumulator that starts at `0 + tile 0` and adds `tile (t + 1)` at each step holds the partial sums. -/
theorem acc_eq_sum_range {M : Type*} [AddCommMonoid M] (N : ℕ) (tile acc : ℕ → M)
    (h0 : acc 0 = 0 + tile 0) (hs : ∀ t, t + 1 < N → acc (t + 1) = acc t + tile (t + 1)) :
    ∀ t, t < N → acc t = ∑ u ∈ Finset.range (t + 1), tile u := by
  intro t
  induction t with
  | zero => intro _; rw [h0, zero_add, Finset.sum_range_one]
  | succ n ih =>
    intro h
    rw [hs n h, ih (by omega), Finset.sum_range_succ _ (n + 1)]

/-- A sum over `N = m · n` indices splits into `m` blocks of `n`: the index is `n · i + j`. -/
theorem sum_fin_split {M : Type*} [AddCommMonoid M] {m n N : ℕ} (h : m * n = N) (g : ℕ → M) :
    ∑ t : Fin N, g t.val = ∑ i : Fin m, ∑ j : Fin n, g (n * i.val + j.val) := by
  subst h
  calc ∑ t : Fin (m * n), g t.val
      = ∑ x : Fin m × Fin n, g (finProdFinEquiv x).val :=
        (Fintype.sum_equiv finProdFinEquiv _ _ (fun _ => rfl)).symm
    _ = ∑ i : Fin m, ∑ j : Fin n, g (finProdFinEquiv (i, j)).val := Fintype.sum_prod_type _
    _ = ∑ i : Fin m, ∑ j : Fin n, g (n * i.val + j.val) := by
        simp only [finProdFinEquiv_apply_val, Nat.add_comm]

/-- The tiled accumulation equals the factor times the full double sum. -/
theorem fold_tiles (c : EReal) (hc0 : 0 ≤ c) (hct : c ≠ ⊤) (f : Fin 2048 → Fin 2048 → EReal)
    (tile acc : ℕ → EReal)
    (htile : ∀ t (ht : t < 2048), tile t = c * (0 + ∑ a : Fin 16, (0 + ∑ b : Fin 128,
                f ⟨16 * (t / 16) + a.val, by omega⟩ ⟨128 * (t % 16) + b.val, by omega⟩)))
    (h0 : acc 0 = 0 + tile 0)
    (hs : ∀ t, t + 1 < 2048 → acc (t + 1) = acc t + tile (t + 1)) :
    acc 2047 = c * (0 + ∑ q : Fin 2048, ∑ k : Fin 2048, f q k) := by
  -- extend `f` to all pairs of naturals, so that no index carries a bound proof
  let F : ℕ → ℕ → EReal := fun q k => if h : q < 2048 ∧ k < 2048 then f ⟨q, h.1⟩ ⟨k, h.2⟩ else 0
  have hF : ∀ (q k : ℕ) (hq : q < 2048) (hk : k < 2048), f ⟨q, hq⟩ ⟨k, hk⟩ = F q k := by
    intro q k hq hk
    simp only [F, hq, hk, and_self, dite_true]
  -- the accumulator is the sum of all tiles
  have hacc : acc 2047 = ∑ t : Fin 2048, tile t.val := by
    rw [acc_eq_sum_range 2048 tile acc h0 hs 2047 (by omega), Finset.sum_range]
  -- each tile, with the zeros dropped
  have htile' : ∀ t : Fin 2048, tile t.val
      = c * ∑ a : Fin 16, ∑ b : Fin 128, F (16 * (t.val / 16) + a.val) (128 * (t.val % 16) + b.val) := by
    intro t
    rw [htile t.val t.isLt, zero_add]
    simp only [zero_add, hF]
  rw [hacc, zero_add]
  simp only [htile']
  rw [← mul_sum_of_nonneg_of_ne_top c hc0 hct]
  congr 1
  -- the tiles, by row block and column block
  rw [sum_fin_split (m := 128) (n := 16) (N := 2048) (by norm_num)
    (fun u => ∑ a : Fin 16, ∑ b : Fin 128, F (16 * (u / 16) + a.val) (128 * (u % 16) + b.val))]
  -- the full double sum, rows by row block
  have hR : ∑ q : Fin 2048, ∑ k : Fin 2048, f q k
      = ∑ q : Fin 2048, ∑ k : Fin 2048, F q.val k.val :=
    Fintype.sum_congr _ _ (fun q => Fintype.sum_congr _ _ (fun k => hF q.val k.val q.isLt k.isLt))
  rw [hR, sum_fin_split (m := 128) (n := 16) (N := 2048) (by norm_num)
    (fun q => ∑ k : Fin 2048, F q k.val)]
  refine Fintype.sum_congr _ _ (fun i => ?_)
  have hdiv : ∀ j : Fin 16, (16 * i.val + j.val) / 16 = i.val := fun j => by omega
  have hmod : ∀ j : Fin 16, (16 * i.val + j.val) % 16 = j.val := fun j => by omega
  simp only [hdiv, hmod]
  -- swap the column block with the row inside the block, then split the columns
  rw [Finset.sum_comm]
  refine Fintype.sum_congr _ _ (fun a => ?_)
  exact (sum_fin_split (m := 16) (n := 128) (N := 2048) (by norm_num)
    (fun k => F (16 * i.val + a.val) k)).symm

end Cert.TileSum
-- ==== Proof.TileSumLit.lean ====
/-
  The two binary32 words the score is assembled with, as extended reals: the word `0x00000000` denotes zero and
  the word `0x3F000000` denotes the real one half — a non-negative finite factor, which is what distributing it
  over the tiled sum needs.
-/
import Idealize.ShloMosaic.PureOps.Ideal.Laws
import proofs.«113635_j4526895530581_2_alg».proof.Proof.PairEnergy

noncomputable section

namespace Cert.TileSum

open Idealize.ShloMosaic

/-- The word `0x00000000` denotes zero. -/
theorem lit_zero : Cert.PairEnergy.lit 0x00000000#32 = 0 := Ideal.ofBits_zero_f32

/-- The word `0x3F000000` (sign 0, exponent 126, fraction 0) denotes the real one half. -/
theorem lit_half : Cert.PairEnergy.lit 0x3F000000#32 = (((1 : ℝ) / 2 : ℝ) : EReal) := by
  simp [Ideal.ofBits, Ideal.ieee, -EReal.coe_mul]; norm_num

/-- One half is not negative. -/
theorem lit_half_nonneg : 0 ≤ Cert.PairEnergy.lit 0x3F000000#32 := by
  rw [lit_half]; exact EReal.coe_nonneg.mpr (by norm_num)

/-- One half is finite. -/
theorem lit_half_ne_top : Cert.PairEnergy.lit 0x3F000000#32 ≠ ⊤ := by
  rw [lit_half]; exact EReal.coe_ne_top _

end Cert.TileSum

end
-- ==== Proof.TileSumScore.lean ====
/-
  The tiled accumulation with the factor and the zeros written as the binary32 words the specification keeps: the
  conclusion is, word for word, the body of the pose score — the word for one half times the word for zero plus the
  sum over all ordered pairs.
-/
import proofs.«113635_j4526895530581_2_alg».proof.Proof.TileSum
import proofs.«113635_j4526895530581_2_alg».proof.Proof.TileSumLit

noncomputable section

namespace Cert.TileSum

open Cert.PairEnergy

/-- The tiled accumulation of half-sums equals half of zero plus the full double sum, at the specification's words. -/
theorem fold_tiles_lit (f : Fin 2048 → Fin 2048 → EReal) (tile acc : ℕ → EReal)
    (htile : ∀ t (ht : t < 2048), tile t = lit 0x3F000000#32 * (lit 0x00000000#32 + ∑ a : Fin 16,
                (lit 0x00000000#32 + ∑ b : Fin 128,
                  f ⟨16 * (t / 16) + a.val, by omega⟩ ⟨128 * (t % 16) + b.val, by omega⟩)))
    (h0 : acc 0 = lit 0x00000000#32 + tile 0)
    (hs : ∀ t, t + 1 < 2048 → acc (t + 1) = acc t + tile (t + 1)) :
    acc 2047 = lit 0x3F000000#32 * (lit 0x00000000#32 + ∑ q : Fin 2048, ∑ k : Fin 2048, f q k) := by
  rw [lit_zero] at h0 ⊢
  refine fold_tiles (lit 0x3F000000#32) lit_half_nonneg lit_half_ne_top f tile acc (fun t ht => ?_) h0 hs
  have h := htile t ht
  simp only [lit_zero] at h
  exact h

end Cert.TileSum

end
-- ==== Proof.KIValue.lean ====
/-
  THE ACCUMULATION. The accumulator after the last grid point is the pose score of the arrays the region finds.

  Grid point `t` is tile `(t / 16, t % 16)`.  Its five input blocks are the blocks of the coordinate array, of the
  path-distance array and of the per-atom parameter array at that tile, so the body adds to the accumulator one half
  of the tile's sum of pair terms; the first point starts from an accumulator of zeros.  Summing the 2048 tiles gives
  one half of the sum over all ordered pairs.
-/
import proofs.«113635_j4526895530581_2_alg».proof.Proof.KIOut
import proofs.«113635_j4526895530581_2_alg».proof.Proof.KIBlocks
import proofs.«113635_j4526895530581_2_alg».proof.Proof.TileValue
import proofs.«113635_j4526895530581_2_alg».proof.Proof.TileSumScore

set_option maxRecDepth 16384

noncomputable section

open scoped BigOperators

namespace Cert.KernelIdeal.Tile

open Cert.KernelIdeal Cert.KernelIdeal.Gen
open Idealize.ShloMosaic Idealize.ShloMosaic.TcCoe Idealize.ShloMosaic.ValueIdx
open Cert.PairEnergy

/-! ## The specification's arguments from three whole arrays -/

/-- A coordinate array `[8,2048,3]` as pose, atom, axis. -/
def coordsOf (A : S8x2048x3.Idx → EReal) : Fin 8 → Fin 2048 → Fin 3 → EReal := fun p q d => A (ix3 p q d)

/-- A per-atom parameter array `[8,2048,5]` (radius, well depth, free energy, correlation length, volume along the
    last axis) and a path-distance array `[8,2048,2048]` as the specification's parameters. -/
def paramsOf (B : S8x2048x5.Idx → EReal) (D : S8x2048x2048.Idx → BitVec 32) : Params where
  R p q := B (ix3 p q (0 : Fin 5))
  W p q := B (ix3 p q (1 : Fin 5))
  DG p q := B (ix3 p q (2 : Fin 5))
  LAM p q := B (ix3 p q (3 : Fin 5))
  VOL p q := B (ix3 p q (4 : Fin 5))
  PD p q k := D (ix3 p q k)

/-- The tile's value when the five blocks are the blocks of three whole arrays at tile `(i, j)`. -/
theorem tile_of_arrays (A : S8x2048x3.Idx → EReal) (B : S8x2048x5.Idx → EReal) (D : S8x2048x2048.Idx → BitVec 32)
    (i j : ℕ) (hi : i < 128) (hj : j < 16)
    (v0 : Vec Ideal S8x16x3 .f32) (v1 : Vec Ideal S8x128x3 .f32) (v2 : Vec Ideal S8x16x128 .i32)
    (v3 : Vec Ideal S8x16x5 .f32) (v5 : Vec Ideal S8x128x5 .f32) (old : Vec Ideal S2x8 .f32)
    (h0 : ∀ (p : Fin 8) (a : Fin 16) (d : Fin 3), v0 (ix3 p a d) = A (ix3 p (Cert.TileValue.rowAtom i hi a) d))
    (h1 : ∀ (p : Fin 8) (b : Fin 128) (d : Fin 3), v1 (ix3 p b d) = A (ix3 p (Cert.TileValue.colAtom j hj b) d))
    (h2 : ∀ (p : Fin 8) (a : Fin 16) (b : Fin 128),
      v2 (ix3 p a b) = D (ix3 p (Cert.TileValue.rowAtom i hi a) (Cert.TileValue.colAtom j hj b)))
    (h3 : ∀ (p : Fin 8) (a : Fin 16) (e : Fin 5), v3 (ix3 p a e) = B (ix3 p (Cert.TileValue.rowAtom i hi a) e))
    (h4 : ∀ (p : Fin 8) (b : Fin 128) (e : Fin 5), v5 (ix3 p b e) = B (ix3 p (Cert.TileValue.colAtom j hj b) e))
    (s : Fin 2) (p : Fin 8) :
    Cert.TileValue.tileOut i j v0 v1 v2 v3 v5 old (ix2 s p)
      = old (ix2 s p) + lit 0x3F000000#32 * (lit 0x00000000#32 + ∑ a : Fin 16, (lit 0x00000000#32
          + ∑ b : Fin 128, term (coordsOf A) (paramsOf B D) s p (Cert.TileValue.rowAtom i hi a)
              (Cert.TileValue.colAtom j hj b))) :=
  Cert.TileValue.tileOut_apply (coordsOf A) (paramsOf B D) i j hi hj v0 v1 v2 v3 v5 old h0 h1 h2
    (fun p a => ⟨h3 p a 0, h3 p a 1, h3 p a 2, h3 p a 3, h3 p a 4⟩)
    (fun p b => ⟨h4 p b 0, h4 p b 1, h4 p b 2, h4 p b 3, h4 p b 4⟩) s p

variable (m : (ℓ : Loc nD τ sig) → Buf (Elt Ideal) ℓ)

/-! ## The arrays the region finds, as the specification's arguments -/

/-- The coordinates the region finds. -/
abbrev Xk (c : Dev nD) : Fin 8 → Fin 2048 → Fin 3 → EReal := coordsOf (V m c main_arg0)

/-- The derived per-atom parameter array and the path distances the region finds. -/
abbrev Pk (c : Dev nD) : Params := paramsOf (V m c main_v68) (V m c main_arg3)

/-! ## Grid point `t` is tile `(t / 16, t % 16)` -/

theorem row_lt (t : Fin cfg0.N) : t.val / 16 < 128 := by have := lt_grid t.isLt; omega
theorem col_lt (t : Fin cfg0.N) : t.val % 16 < 16 := Nat.mod_lt _ (by decide)

/-- Row atom `a` and column atom `b` of the tile of grid point `t`. -/
abbrev qa (t : Fin cfg0.N) (a : Fin 16) : Fin 2048 := Cert.TileValue.rowAtom (t.val / 16) (row_lt t) a
abbrev kb (t : Fin cfg0.N) (b : Fin 128) : Fin 2048 := Cert.TileValue.colAtom (t.val % 16) (col_lt t) b

/-- What the windows read at a grid point: the grid coordinates of point `t`, and each input block as the block of
    its array at tile `(t / 16, t % 16)`. -/
structure BlockFacts (c : Dev nD) : Prop where
  coords : ∀ t : Fin cfg0.N, (grid0.coords t 0).val = t.val / 16 ∧ (grid0.coords t 1).val = t.val % 16
  b0 : ∀ (t : Fin cfg0.N) (p : Fin 8) (a : Fin 16) (d : Fin 3),
    (iblk m c 0 t : Vec Ideal S8x16x3 .f32) (ix3 p a d) = (V m c main_arg0 : S8x2048x3.Idx → EReal) (ix3 p (qa t a) d)
  b1 : ∀ (t : Fin cfg0.N) (p : Fin 8) (b : Fin 128) (d : Fin 3),
    (iblk m c 1 t : Vec Ideal S8x128x3 .f32) (ix3 p b d) = (V m c main_arg0 : S8x2048x3.Idx → EReal) (ix3 p (kb t b) d)
  b2 : ∀ (t : Fin cfg0.N) (p : Fin 8) (a : Fin 16) (b : Fin 128),
    (iblk m c 2 t : Vec Ideal S8x16x128 .i32) (ix3 p a b)
      = (V m c main_arg3 : S8x2048x2048.Idx → BitVec 32) (ix3 p (qa t a) (kb t b))
  b3 : ∀ (t : Fin cfg0.N) (p : Fin 8) (a : Fin 16) (e : Fin 5),
    (iblk m c 3 t : Vec Ideal S8x16x5 .f32) (ix3 p a e) = (V m c main_v68 : S8x2048x5.Idx → EReal) (ix3 p (qa t a) e)
  b4 : ∀ (t : Fin cfg0.N) (p : Fin 8) (b : Fin 128) (e : Fin 5),
    (iblk m c 4 t : Vec Ideal S8x128x5 .f32) (ix3 p b e) = (V m c main_v68 : S8x2048x5.Idx → EReal) (ix3 p (kb t b) e)

/-! ## One grid point adds its tile's half-sum -/

/-- One half of the sum of the pair terms of tile `(t / 16, t % 16)`, as the body forms it. -/
def tileTerm (c : Dev nD) (s : Fin 2) (p : Fin 8) (t : ℕ) : EReal :=
  if ht : t < 2048 then
    lit 0x3F000000#32 * (lit 0x00000000#32 + ∑ a : Fin 16, (lit 0x00000000#32 + ∑ b : Fin 128,
      term (Xk m c) (Pk m c) s p ⟨16 * (t / 16) + a.val, by omega⟩ ⟨128 * (t % 16) + b.val, by omega⟩))
  else 0

variable {m}

/-- The value the body stores at grid point `t` over previous contents `old`. -/
theorem tile_at {c : Dev nD} (hB : BlockFacts m c) (t : Fin cfg0.N) (old : Vec Ideal S2x8 .f32) (s : Fin 2) (p : Fin 8) :
    Cert.TileValue.tileOut (grid0.coords t 0).val (grid0.coords t 1).val (iblk m c 0 t) (iblk m c 1 t) (iblk m c 2 t)
        (iblk m c 3 t) (iblk m c 4 t) old (ix2 s p)
      = old (ix2 s p) + tileTerm m c s p t.val := by
  rw [(hB.coords t).1, (hB.coords t).2, tileTerm, dif_pos (lt_grid t.isLt)]
  exact tile_of_arrays (V m c main_arg0) (V m c main_v68) (V m c main_arg3) (t.val / 16) (t.val % 16) (row_lt t) (col_lt t)
    (iblk m c 0 t) (iblk m c 1 t) (iblk m c 2 t) (iblk m c 3 t) (iblk m c 4 t) old
    (hB.b0 t) (hB.b1 t) (hB.b2 t) (hB.b3 t) (hB.b4 t) s p

/-! ## The accumulator at `(s, p)`, point by point -/

variable (m)

/-- The accumulator's entry `(s, p)` after grid position `n` (zero past the grid). -/
def accS (c : Dev nD) (s : Fin 2) (p : Fin 8) (n : ℕ) : EReal :=
  if h : n < cfg0.N then accAt m c n h (ix2 s p) else 0

variable {m}

theorem lt_cfgN {n : ℕ} (hn : n < 2048) : n < cfg0.N := lt_of_lt_of_eq hn (show (2048 : ℕ) = cfg0.N from N_0.symm)

/-- The first point starts from zeros. -/
theorem accS_zero {c : Dev nD} (hB : BlockFacts m c) (s : Fin 2) (p : Fin 8) :
    accS m c s p 0 = lit 0x00000000#32 + tileTerm m c s p 0 := by
  have h0 : 0 < cfg0.N := lt_cfgN (by decide)
  rw [accS, dif_pos h0]
  have e := accAt_first m c ⟨0, h0⟩ (Nat.zero_mod _)
  rw [outFirst_eq] at e
  refine (congrFun e (ix2 s p)).trans ?_
  exact tile_at hB ⟨0, h0⟩ (k0_pay30 (F := Ideal)) s p

/-- Every later point adds its tile's half-sum. -/
theorem accS_succ {c : Dev nD} (hB : BlockFacts m c) (s : Fin 2) (p : Fin 8) (n : ℕ) (hn : n + 1 < 2048) :
    accS m c s p (n + 1) = accS m c s p n + tileTerm m c s p (n + 1) := by
  have h1 : n + 1 < cfg0.N := lt_cfgN hn
  have h0 : n < cfg0.N := lt_cfgN (by omega)
  rw [accS, dif_pos h1, accS, dif_pos h0]
  have e := accAt_later m c ⟨n + 1, h1⟩ (by show ¬(n + 1) % 2048 = 0; omega)
  rw [outLater_eq] at e
  refine (congrFun e (ix2 s p)).trans ?_
  exact tile_at hB ⟨n + 1, h1⟩ (accAt m c n h0) s p

/-- THE LAST ACCUMULATOR IS THE SCORE, given the windows' block reads. -/
theorem acc_last_of {c : Dev nD} (hB : BlockFacts m c) (s : Fin 2) (p : Fin 8) :
    accAt m c 2047 (lt_of_lt_of_eq (by decide : 2047 < 2048) (show (2048 : ℕ) = cfg0.N from N_0.symm)) (ix2 s p)
      = score (Xk m c) (Pk m c) s p := by
  have h := Cert.TileSum.fold_tiles_lit (fun q k => term (Xk m c) (Pk m c) s p q k) (tileTerm m c s p) (accS m c s p)
    (fun t ht => by rw [tileTerm, dif_pos ht]) (accS_zero hB s p) (accS_succ hB s p)
  rw [accS, dif_pos (lt_cfgN (by decide))] at h
  exact h

variable (m)

/-- The windows' block reads hold of the region's entry contents. -/
theorem blockFacts (c : Dev nD) : BlockFacts m c where
  coords := coords_facts
  b0 t p a d := iblk0_ix m c t p a d
  b1 t p b d := iblk1_ix m c t p b d
  b2 t p a b := iblk2_ix m c t p a b
  b3 t p a e := iblk3_ix m c t p a e
  b4 t p b e := iblk4_ix m c t p b e

/-- THE LAST ACCUMULATOR IS THE SCORE of the arrays the region finds. -/
theorem acc_last (c : Dev nD) (s : Fin 2) (p : Fin 8) :
    accAt m c 2047 (lt_of_lt_of_eq (by decide : 2047 < 2048) (show (2048 : ℕ) = cfg0.N from N_0.symm)) (ix2 s p)
      = score (Xk m c) (Pk m c) s p :=
  acc_last_of (blockFacts m c) s p

end Cert.KernelIdeal.Tile

end
-- ==== Proof.KIParams.lean ====
/-
  The per-atom parameter array the region reads, as one function of the parameter table and the atom types.

  Before the region, @main rescales each of the five columns of the 64 x 5 parameter table (an affine map per
  column), wraps the atom types into range (a negative type counts from the end) and gathers each rescaled
  column by atom type; the five gathered [8, 2048] arrays are given a unit last axis and joined along it into
  the [8, 2048, 5] array.  Read at pose `p`, atom `q` and column `e`, the array is the `e`-th gathered array
  at `(p, q)`.
-/
import proofs.«113635_j4526895530581_2_alg».proof.Proof.KIBase
import Idealize.ShloMosaic.Lib.StableHlo.Run
import Idealize.ShloMosaic.Lib.ValueIdx
import Idealize.ShloMosaic.Lib.Pipeline.Value

set_option maxRecDepth 16384

noncomputable section

namespace Cert.KernelIdeal.Tile

open Cert.KernelIdeal Cert.KernelIdeal.Gen
open Idealize.ShloMosaic Idealize.ShloMosaic.TcCoe Idealize.ShloMosaic.ValueIdx Idealize.ShloMosaic.StableHlo
open Idealize.SL Idealize.SL.Sem

variable {F : FTy → Type} [FloatOps F]

variable (m : (ℓ : Loc nD τ sig) → Buf (Elt F) ℓ)

section Nary5
variable {τ' : Topo} {sig' : RefSig} {Val : EltTy → Type} {x a b c e y : Ref sig' .tc}

/-- An operation of five literal operands: its result with each operand's contents at its own reference. -/
theorem nary5_result'
    (f : ((k : Fin 5) → ((![x, a, b, c, e] : Fin 5 → Ref sig' .tc) k).ty.Contents Val) → y.ty.Contents Val) (hxs hy)
    (G : Valuation τ' sig' Val) :
    (nary (τ := τ') ![x, a, b, c, e] y f hxs hy).result G (no_index (Proc.devRef .tc y))
      = f (Fin.cons (G (Proc.devRef .tc x)) (Fin.cons (G (Proc.devRef .tc a)) (Fin.cons (G (Proc.devRef .tc b))
          (Fin.cons (G (Proc.devRef .tc c)) (Fin.cons (G (Proc.devRef .tc e)) (fun i => i.elim0)))))) := by
  rw [nary_result]; congr 1; funext k; fin_cases k <;> rfl
end Nary5

/-- The parameter table `f32[64, 5]`. -/
abbrev Tab (F : FTy → Type) : Type := S64x5.Idx → Elt F .f32
/-- The atom types `i32[8, 2048]`. -/
abbrev Types (F : FTy → Type) : Type := S8x2048.Idx → Elt F .i32

/-- Column 0 of the table (radius), rescaled: `1 + column`. -/
def tab0 (x1 : Tab F) : S64.Idx → Elt F .f32 :=
  addf (broadcastInDim S64 ![] bcast_S_S64 (constant S_ .f32 0x3F800000#32))
    (shapeCast S64 (extractStridedSlice S64x1 ![0, 0] x1 slices_S64x5_S64x1_0_0) shapeCasts_S64x1_S64)
/-- Column 1 of the table (well depth), rescaled: `0.05 + 0.2 · column`. -/
def tab1 (x1 : Tab F) : S64.Idx → Elt F .f32 :=
  addf (broadcastInDim S64 ![] bcast_S_S64 (constant S_ .f32 0x3D4CCCCD#32))
    (mulf (broadcastInDim S64 ![] bcast_S_S64 (constant S_ .f32 0x3E4CCCCD#32))
      (shapeCast S64 (extractStridedSlice S64x1 ![0, 1] x1 slices_S64x5_S64x1_0_1) shapeCasts_S64x1_S64))
/-- Column 2 of the table (free energy), rescaled: `-5 + 10 · column`. -/
def tab2 (x1 : Tab F) : S64.Idx → Elt F .f32 :=
  addf (broadcastInDim S64 ![] bcast_S_S64 (constant S_ .f32 0xC0A00000#32))
    (mulf (broadcastInDim S64 ![] bcast_S_S64 (constant S_ .f32 0x41200000#32))
      (shapeCast S64 (extractStridedSlice S64x1 ![0, 2] x1 slices_S64x5_S64x1_0_2) shapeCasts_S64x1_S64))
/-- Column 3 of the table (correlation length), rescaled: `3 + 0.5 · column`. -/
def tab3 (x1 : Tab F) : S64.Idx → Elt F .f32 :=
  addf (broadcastInDim S64 ![] bcast_S_S64 (constant S_ .f32 0x40400000#32))
    (mulf (broadcastInDim S64 ![] bcast_S_S64 (constant S_ .f32 0x3F000000#32))
      (shapeCast S64 (extractStridedSlice S64x1 ![0, 3] x1 slices_S64x5_S64x1_0_3) shapeCasts_S64x1_S64))
/-- Column 4 of the table (volume), rescaled: `5 + 25 · column`. -/
def tab4 (x1 : Tab F) : S64.Idx → Elt F .f32 :=
  addf (broadcastInDim S64 ![] bcast_S_S64 (constant S_ .f32 0x40A00000#32))
    (mulf (broadcastInDim S64 ![] bcast_S_S64 (constant S_ .f32 0x41C80000#32))
      (shapeCast S64 (extractStridedSlice S64x1 ![0, 4] x1 slices_S64x5_S64x1_0_4) shapeCasts_S64x1_S64))

/-- The atom types wrapped into range (a negative type has 64 added) and given a unit last axis: the gathers'
    start indices. -/
def typeIdx (x2 : Types F) : S8x2048x1.Idx → Elt F .i32 :=
  broadcastInDim S8x2048x1 ![0, 1] bcast_S8x2048_S8x2048x1_0_1
    (select (cmpi .slt x2 (broadcastInDim S8x2048 ![] bcast_S_S8x2048 (constantI S_ 32 0#32)))
      (addi x2 (broadcastInDim S8x2048 ![] bcast_S_S8x2048 (constantI S_ 32 64#32))) x2)

/-- A rescaled column gathered by atom type: one parameter of every atom of every pose. -/
def gathered (T : S64.Idx → Elt F .f32) (x2 : Types F) : S8x2048.Idx → Elt F .f32 :=
  Host.gather gather_S64_S8x2048x1_S8x2048_n_0_n_n_0_2_1 T (typeIdx x2)

/-- A gathered array with a unit last axis. -/
def column (T : S64.Idx → Elt F .f32) (x2 : Types F) : S8x2048x1.Idx → Elt F .f32 :=
  broadcastInDim S8x2048x1 ![0, 1] bcast_S8x2048_S8x2048x1_0_1 (gathered T x2)

/-- The five gathered arrays joined along a new last axis. -/
def paramArr (x1 : Tab F) (x2 : Types F) : S8x2048x5.Idx → Elt F .f32 :=
  concatenate S8x2048x5 2
    [⟨S8x2048x1, column (tab0 x1) x2⟩, ⟨S8x2048x1, column (tab1 x1) x2⟩, ⟨S8x2048x1, column (tab2 x1) x2⟩,
     ⟨S8x2048x1, column (tab3 x1) x2⟩, ⟨S8x2048x1, column (tab4 x1) x2⟩]
    concatenates_S8x2048x1_S8x2048x1_S8x2048x1_S8x2048x1_S8x2048x1_S8x2048x5_d2

set_option maxHeartbeats 40000000 in
/-- What the region finds in the parameter array: the five gathered columns of the launch contents. -/
theorem V_main_v68 (c : Dev nD) :
    (V m c main_v68 : S8x2048x5.Idx → Elt F .f32)
      = paramArr (m ((c : Thread nD τ).loc main_arg1)) (m ((c : Thread nD τ).loc main_arg2)) := by
  dsimp only [V, hostOps0]
  simp (disch := decide) only [after_cons, after_nil,
      nullary_result', unary_result', binary_result', ternary_result', quaternary_result', reshape_result', nary5_result', nary_result',
      nullary_result_ne', unary_result_ne', binary_result_ne', ternary_result_ne', quaternary_result_ne', reshape_result_ne',
      nary_result_ne']
  rfl

end Cert.KernelIdeal.Tile

end
-- ==== Proof.KIParamsRead.lean ====
/-
  The derived per-atom parameter array read at an index. @main lays the five gathered per-atom arrays `[8,2048]` side by
  side along a new last axis: each is broadcast to `[8,2048,1]` and the five are concatenated along axis 2.  At
  `(p, q, e)` the result is the `e`-th gathered array at `(p, q)`.
-/
import proofs.«113635_j4526895530581_2_alg».proof.KernelIdeal
import Idealize.ShloMosaic.Lib.ValueIdx
import Idealize.ShloMosaic.Lib.Pipeline.Value

noncomputable section

namespace Cert.KernelIdeal.Tile

open Cert.KernelIdeal Idealize.ShloMosaic Idealize.ShloMosaic.ValueIdx

variable {α : Type}

/-- A `[8,2048]` array broadcast to `[8,2048,1]` reads, at `(p, q, 0)`, its entry `(p, q)`. -/
theorem bcastCol_apply (x : S8x2048.Idx → α)
    (h : S8x2048.BroadcastsInDim S8x2048x1 (![0, 1] : Fin 2 → Fin S8x2048x1.rank)) (p : Fin 8) (q : Fin 2048) (u : Fin 1) :
    broadcastInDim S8x2048x1 ![0, 1] h x (ix3 p q u) = x (ix2 p q) :=
  broadcastInDim_apply _ h x (ix3 p q u) (ix2 p q) fun a => by
    match a with
    | ⟨0, _⟩ => rfl
    | ⟨1, _⟩ => rfl

/-- Five `[8,2048,1]` arrays concatenated along the last axis read, at `(p, q, e)`, the `e`-th array at `(p, q, 0)`. -/
theorem cat5_apply (u : Fin 5 → (S8x2048x1.Idx → α))
    (hc : Shape.Concatenates [S8x2048x1, S8x2048x1, S8x2048x1, S8x2048x1, S8x2048x1] S8x2048x5 2)
    (p : Fin 8) (q : Fin 2048) (e : Fin 5) :
    concatenate S8x2048x5 2 [⟨S8x2048x1, u 0⟩, ⟨S8x2048x1, u 1⟩, ⟨S8x2048x1, u 2⟩, ⟨S8x2048x1, u 3⟩, ⟨S8x2048x1, u 4⟩] hc
        (ix3 p q e)
      = u e (ix3 p q (0 : Fin 1)) := by
  have key : ∀ (k : ℕ) (hk : k < 5),
      concatenate S8x2048x5 2 [⟨S8x2048x1, u 0⟩, ⟨S8x2048x1, u 1⟩, ⟨S8x2048x1, u 2⟩, ⟨S8x2048x1, u 3⟩, ⟨S8x2048x1, u 4⟩] hc
          (ix3 p q (⟨k, hk⟩ : Fin 5))
        = u ⟨k, hk⟩ (ix3 p q (0 : Fin 1)) := by
    intro k hk
    have hoff : ∀ b : Fin S8x2048x1.rank, b.cast (rfl : S8x2048x1.rank = S8x2048x5.rank) ≠ (2 : Fin S8x2048x5.rank) →
        ((ix3 p q (0 : Fin 1) : S8x2048x1.Idx) b).val
          = ((ix3 p q (⟨k, hk⟩ : Fin 5) : S8x2048x5.Idx) (b.cast (rfl : S8x2048x1.rank = S8x2048x5.rank))).val := fun b hb => by
      match b with
      | ⟨0, _⟩ => rfl
      | ⟨1, _⟩ => rfl
      | ⟨2, _⟩ => exact absurd rfl hb
    match k, hk with
    | 0, _ => exact concatenate_apply_piece (2 : Fin S8x2048x5.rank) [⟨S8x2048x1, u 0⟩, ⟨S8x2048x1, u 1⟩, ⟨S8x2048x1, u 2⟩, ⟨S8x2048x1, u 3⟩, ⟨S8x2048x1, u 4⟩] hc _ 0 (by decide : (0 : ℕ) < 5) S8x2048x1 (u 0) rfl rfl 0 rfl _ hoff rfl
    | 1, _ => exact concatenate_apply_piece (2 : Fin S8x2048x5.rank) [⟨S8x2048x1, u 0⟩, ⟨S8x2048x1, u 1⟩, ⟨S8x2048x1, u 2⟩, ⟨S8x2048x1, u 3⟩, ⟨S8x2048x1, u 4⟩] hc _ 1 (by decide : (1 : ℕ) < 5) S8x2048x1 (u 1) rfl rfl 1 rfl _ hoff rfl
    | 2, _ => exact concatenate_apply_piece (2 : Fin S8x2048x5.rank) [⟨S8x2048x1, u 0⟩, ⟨S8x2048x1, u 1⟩, ⟨S8x2048x1, u 2⟩, ⟨S8x2048x1, u 3⟩, ⟨S8x2048x1, u 4⟩] hc _ 2 (by decide : (2 : ℕ) < 5) S8x2048x1 (u 2) rfl rfl 2 rfl _ hoff rfl
    | 3, _ => exact concatenate_apply_piece (2 : Fin S8x2048x5.rank) [⟨S8x2048x1, u 0⟩, ⟨S8x2048x1, u 1⟩, ⟨S8x2048x1, u 2⟩, ⟨S8x2048x1, u 3⟩, ⟨S8x2048x1, u 4⟩] hc _ 3 (by decide : (3 : ℕ) < 5) S8x2048x1 (u 3) rfl rfl 3 rfl _ hoff rfl
    | 4, _ => exact concatenate_apply_piece (2 : Fin S8x2048x5.rank) [⟨S8x2048x1, u 0⟩, ⟨S8x2048x1, u 1⟩, ⟨S8x2048x1, u 2⟩, ⟨S8x2048x1, u 3⟩, ⟨S8x2048x1, u 4⟩] hc _ 4 (by decide : (4 : ℕ) < 5) S8x2048x1 (u 4) rfl rfl 4 rfl _ hoff rfl
  exact key e.val e.isLt

/-- The five gathered arrays laid side by side read, at `(p, q, e)`, the `e`-th one at `(p, q)`. -/
theorem params_read (g : Fin 5 → (S8x2048.Idx → α))
    (hb : S8x2048.BroadcastsInDim S8x2048x1 (![0, 1] : Fin 2 → Fin S8x2048x1.rank))
    (hc : Shape.Concatenates [S8x2048x1, S8x2048x1, S8x2048x1, S8x2048x1, S8x2048x1] S8x2048x5 2)
    (p : Fin 8) (q : Fin 2048) (e : Fin 5) :
    concatenate S8x2048x5 2 [⟨S8x2048x1, broadcastInDim S8x2048x1 ![0, 1] hb (g 0)⟩,
        ⟨S8x2048x1, broadcastInDim S8x2048x1 ![0, 1] hb (g 1)⟩, ⟨S8x2048x1, broadcastInDim S8x2048x1 ![0, 1] hb (g 2)⟩,
        ⟨S8x2048x1, broadcastInDim S8x2048x1 ![0, 1] hb (g 3)⟩, ⟨S8x2048x1, broadcastInDim S8x2048x1 ![0, 1] hb (g 4)⟩] hc
        (ix3 p q e)
      = g e (ix2 p q) :=
  (cat5_apply (fun n => broadcastInDim S8x2048x1 ![0, 1] hb (g n)) hc p q e).trans (bcastCol_apply (g e) hb p q 0)

end Cert.KernelIdeal.Tile

end
-- ==== Proof.RefScore.lean ====
/-
  The reference program's result, read on the extended reals, is the pair-energy score of its argument arrays.

  This module fixes the two readings of the argument arrays the score is stated over: the coordinates, and the
  per-atom parameters the program gathers by atom type together with the bonded path distances.
-/
import proofs.«113635_j4526895530581_2_alg».proof.Proof.Gen.ReferenceIdeal.Read
import proofs.«113635_j4526895530581_2_alg».proof.Proof.PairEnergy

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.Read

/-- The coordinates `f32[8, 2048, 3]`, as extended reals. -/
abbrev A0 : Type := (⟨S8x2048x3, .f32⟩ : BufTy).Contents (Elt Ideal)
/-- The parameter table `f32[64, 5]`, as extended reals. -/
abbrev A1 : Type := (⟨S64x5, .f32⟩ : BufTy).Contents (Elt Ideal)
/-- The atom types `i32[8, 2048]`. -/
abbrev A2 : Type := (⟨S8x2048, .i32⟩ : BufTy).Contents (Elt Ideal)
/-- The bonded path distances `i32[8, 2048, 2048]`. -/
abbrev A3 : Type := (⟨S8x2048x2048, .i32⟩ : BufTy).Contents (Elt Ideal)

/-- The coordinate array by pose, atom and axis. -/
def coordsOf (a0 : A0) : Fin 8 → Fin 2048 → Fin 3 → EReal :=
  fun p q d => a0 (ValueIdx.ix3 p q d)

/-- The per-atom parameters: each atom's radius, well depth, free energy, correlation length and volume are its
    type's entries of the rescaled parameter table (the five gathered arrays), and the bonded path distances are
    the fourth argument. -/
def paramsOf (a1 : A1) (a2 : A2) (a3 : A3) : Cert.PairEnergy.Params where
  R := fun p q => val_main_v34 (F := Ideal) a1 a2 (ValueIdx.ix2 p q)
  W := fun p q => val_main_v41 (F := Ideal) a1 a2 (ValueIdx.ix2 p q)
  DG := fun p q => val_main_v48 (F := Ideal) a1 a2 (ValueIdx.ix2 p q)
  LAM := fun p q => val_main_v55 (F := Ideal) a1 a2 (ValueIdx.ix2 p q)
  VOL := fun p q => val_main_v62 (F := Ideal) a1 a2 (ValueIdx.ix2 p q)
  PD := fun p q k => a3 (ValueIdx.ix3 p q k)

end Cert.ReferenceIdeal.RefValue

end
-- ==== Proof.KIParamsRef.lean ====
/-
  The arrays the region finds are the reference's arguments read the reference's way: the coordinates are the first
  argument, and the derived per-atom parameter array holds, column by column, the five arrays the reference gathers
  by atom type from the rescaled parameter table — the same affine maps of the same table columns, the same wrapped
  atom types, the same gather.
-/
import proofs.«113635_j4526895530581_2_alg».proof.Proof.KIParams
import proofs.«113635_j4526895530581_2_alg».proof.Proof.KIParamsRead
import proofs.«113635_j4526895530581_2_alg».proof.Proof.KIValue
import proofs.«113635_j4526895530581_2_alg».proof.Proof.RefScore

set_option maxRecDepth 16384

noncomputable section

namespace Cert.KernelIdeal.Tile

open Cert.KernelIdeal Cert.KernelIdeal.Gen
open Idealize.ShloMosaic Idealize.ShloMosaic.TcCoe Idealize.ShloMosaic.ValueIdx

/-! ## Parameters from an array whose columns are known -/

/-- If the five columns of a parameter array are five given per-atom arrays, its parameters are theirs. -/
theorem paramsOf_of_columns (B : S8x2048x5.Idx → EReal) (D : S8x2048x2048.Idx → BitVec 32)
    (g0 g1 g2 g3 g4 : S8x2048.Idx → EReal)
    (h0 : ∀ (p : Fin 8) (q : Fin 2048), B (ix3 p q (0 : Fin 5)) = g0 (ix2 p q))
    (h1 : ∀ (p : Fin 8) (q : Fin 2048), B (ix3 p q (1 : Fin 5)) = g1 (ix2 p q))
    (h2 : ∀ (p : Fin 8) (q : Fin 2048), B (ix3 p q (2 : Fin 5)) = g2 (ix2 p q))
    (h3 : ∀ (p : Fin 8) (q : Fin 2048), B (ix3 p q (3 : Fin 5)) = g3 (ix2 p q))
    (h4 : ∀ (p : Fin 8) (q : Fin 2048), B (ix3 p q (4 : Fin 5)) = g4 (ix2 p q)) :
    paramsOf B D = { R := fun p q => g0 (ix2 p q), W := fun p q => g1 (ix2 p q), DG := fun p q => g2 (ix2 p q),
                     LAM := fun p q => g3 (ix2 p q), VOL := fun p q => g4 (ix2 p q), PD := fun p q k => D (ix3 p q k) } := by
  unfold paramsOf
  simp only [h0, h1, h2, h3, h4]

/-! ## The derived parameter array, column by column -/

section Read
variable (x1 : Tab Ideal) (x2 : Types Ideal) (p : Fin 8) (q : Fin 2048)

/-- Column `e` of the derived array at `(p, q)` is the `e`-th gathered array there. -/
theorem paramArr_apply (e : Fin 5) :
    paramArr x1 x2 (ix3 p q e)
      = (![gathered (tab0 x1) x2, gathered (tab1 x1) x2, gathered (tab2 x1) x2, gathered (tab3 x1) x2,
          gathered (tab4 x1) x2] : Fin 5 → (S8x2048.Idx → EReal)) e (ix2 p q) :=
  params_read ![gathered (tab0 x1) x2, gathered (tab1 x1) x2, gathered (tab2 x1) x2, gathered (tab3 x1) x2,
    gathered (tab4 x1) x2] bcast_S8x2048_S8x2048x1_0_1
    concatenates_S8x2048x1_S8x2048x1_S8x2048x1_S8x2048x1_S8x2048x1_S8x2048x5_d2 p q e

theorem paramArr_apply0 : paramArr x1 x2 (ix3 p q (0 : Fin 5)) = gathered (tab0 x1) x2 (ix2 p q) := paramArr_apply x1 x2 p q 0
theorem paramArr_apply1 : paramArr x1 x2 (ix3 p q (1 : Fin 5)) = gathered (tab1 x1) x2 (ix2 p q) := paramArr_apply x1 x2 p q 1
theorem paramArr_apply2 : paramArr x1 x2 (ix3 p q (2 : Fin 5)) = gathered (tab2 x1) x2 (ix2 p q) := paramArr_apply x1 x2 p q 2
theorem paramArr_apply3 : paramArr x1 x2 (ix3 p q (3 : Fin 5)) = gathered (tab3 x1) x2 (ix2 p q) := paramArr_apply x1 x2 p q 3
theorem paramArr_apply4 : paramArr x1 x2 (ix3 p q (4 : Fin 5)) = gathered (tab4 x1) x2 (ix2 p q) := paramArr_apply x1 x2 p q 4

end Read

/-! ## The gathered arrays are the reference's -/

section Match
variable (x1 : Tab Ideal) (x2 : Types Ideal)

theorem gathered0_eq : gathered (tab0 x1) x2 = Cert.ReferenceIdeal.Read.val_main_v34 (F := Ideal) x1 x2 := rfl
theorem gathered1_eq : gathered (tab1 x1) x2 = Cert.ReferenceIdeal.Read.val_main_v41 (F := Ideal) x1 x2 := rfl
theorem gathered2_eq : gathered (tab2 x1) x2 = Cert.ReferenceIdeal.Read.val_main_v48 (F := Ideal) x1 x2 := rfl
theorem gathered3_eq : gathered (tab3 x1) x2 = Cert.ReferenceIdeal.Read.val_main_v55 (F := Ideal) x1 x2 := rfl
theorem gathered4_eq : gathered (tab4 x1) x2 = Cert.ReferenceIdeal.Read.val_main_v62 (F := Ideal) x1 x2 := rfl

/-- The derived array and the path distances, read as parameters, are the reference's parameters of the table, the
    atom types and the path distances. -/
theorem paramsOf_paramArr (a3 : S8x2048x2048.Idx → BitVec 32) :
    paramsOf (paramArr x1 x2) a3 = Cert.ReferenceIdeal.RefValue.paramsOf x1 x2 a3 :=
  paramsOf_of_columns (paramArr x1 x2) a3 _ _ _ _ _
    (fun p q => (paramArr_apply0 x1 x2 p q).trans (congrFun (gathered0_eq x1 x2) (ix2 p q)))
    (fun p q => (paramArr_apply1 x1 x2 p q).trans (congrFun (gathered1_eq x1 x2) (ix2 p q)))
    (fun p q => (paramArr_apply2 x1 x2 p q).trans (congrFun (gathered2_eq x1 x2) (ix2 p q)))
    (fun p q => (paramArr_apply3 x1 x2 p q).trans (congrFun (gathered3_eq x1 x2) (ix2 p q)))
    (fun p q => (paramArr_apply4 x1 x2 p q).trans (congrFun (gathered4_eq x1 x2) (ix2 p q)))

end Match

/-! ## The region's arrays are the launch arguments read the reference's way -/

variable (m : (ℓ : Loc nD τ sig) → Buf (Elt Ideal) ℓ)

/-- The coordinates the region finds are the reference's reading of the first argument. -/
theorem Xk_eq (c : Dev nD) :
    Xk m c = Cert.ReferenceIdeal.RefValue.coordsOf (m ((c : Thread nD τ).loc main_arg0)) := by
  show coordsOf (V m c main_arg0) = _
  rw [V_main_arg0]
  rfl

/-- The parameters the region finds are the reference's reading of the other three arguments. -/
theorem Pk_eq (c : Dev nD) :
    Pk m c = Cert.ReferenceIdeal.RefValue.paramsOf (m ((c : Thread nD τ).loc main_arg1))
      (m ((c : Thread nD τ).loc main_arg2)) (m ((c : Thread nD τ).loc main_arg3)) := by
  show paramsOf (V m c main_v68) (V m c main_arg3) = _
  rw [V_main_v68, V_main_arg3]
  exact paramsOf_paramArr _ _ _

end Cert.KernelIdeal.Tile

end
-- ==== Proof.RefScoreDist.lean ====
/-
  The reference's distance stage: squared norms, the batched inner product, and the floored square root, each read
  at explicit pose and atom coordinates.
-/
import proofs.«113635_j4526895530581_2_alg».proof.Proof.RefScore

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.Read
open Cert.PairEnergy (lit cross distOf selfMask countPair fade pow6 lj lk weight ljTerm lkTerm term score)
open Idealize.ShloMosaic.ValueIdx (ix1 ix2 ix3)

/-- Closes `f i = f j` for two rank-2 indices with equal coordinates. -/
local macro "idx2" : tactic => `(tactic| (congr 1; funext a; match a with | ⟨0, _⟩ => rfl | ⟨1, _⟩ => rfl))

/-! ## Squared norms, inner products, distances -/

/-- The row-wise sum of squares at atom `q` of pose `p` is that atom's squared norm. -/
theorem sq_at (a0 : A0) (p : Fin 8) (q : Fin 2048) :
    val_main_v64 (F := Ideal) a0 (ix2 p q) = PairEnergy.sq (coordsOf a0) p q := by
  rw [val_main_v64_apply, val_main_cst_17_apply]
  refine congrArg (_ + ·) (Finset.sum_congr rfl fun d _ => ?_)
  rw [val_main_v63_apply]
  show a0 _ * a0 _ = a0 (ix3 p q d) * a0 (ix3 p q d)
  have e : idx_main_v64 (ix2 p q) d = ix3 p q d := by
    funext a; match a with | ⟨0, _⟩ => rfl | ⟨1, _⟩ => rfl | ⟨2, _⟩ => rfl
  rw [e]

/-- The batched contraction over the coordinate axis at `(p, q, k)` is the inner product of atoms `q` and `k`. -/
theorem cross_at (a0 : A0) (p : Fin 8) (q k : Fin 2048) :
    val_main_v70 (F := Ideal) a0 (ix3 p q k) = cross (coordsOf a0) p q k := by
  rw [val_main_v70_apply]
  refine Finset.sum_congr rfl fun d _ => ?_
  have el : lidx_main_v70 (ix3 p q k) d = ix3 p q d := by
    funext a; match a with | ⟨0, _⟩ => rfl | ⟨1, _⟩ => rfl | ⟨2, _⟩ => rfl
  have er : ridx_main_v70 (ix3 p q k) d = ix3 p k d := by
    funext a; match a with | ⟨0, _⟩ => rfl | ⟨1, _⟩ => rfl | ⟨2, _⟩ => rfl
  rw [el, er]; rfl

/-- The squared norms broadcast along the columns read the row atom's … -/
theorem sq_row_at (a0 : A0) (p : Fin 8) (q k : Fin 2048) :
    val_main_v67 (F := Ideal) a0 (ix3 p q k) = PairEnergy.sq (coordsOf a0) p q := by
  rw [val_main_v67_apply, val_main_v65_apply, ← sq_at]; idx2

/-- … and broadcast along the rows the column atom's. -/
theorem sq_col_at (a0 : A0) (p : Fin 8) (q k : Fin 2048) :
    val_main_v68 (F := Ideal) a0 (ix3 p q k) = PairEnergy.sq (coordsOf a0) p k := by
  rw [val_main_v68_apply, val_main_v66_apply, ← sq_at]; idx2

/-- The distance stage at `(p, q, k)` is the distance between atoms `q` and `k` of pose `p`. -/
theorem dist_at (a0 : A0) (p : Fin 8) (q k : Fin 2048) :
    val_main_v76 (F := Ideal) a0 (ix3 p q k) = PairEnergy.dist (coordsOf a0) p q k := by
  rw [val_main_v76_apply, val_main_v75_apply, val_main_v73_apply, val_main_v69_apply, val_main_v72_apply,
    sq_row_at, sq_col_at, cross_at, val_main_v71_apply, val_main_cst_18_apply, val_main_v74_apply,
    val_main_cst_19_apply]
  rfl

end Cert.ReferenceIdeal.RefValue

end
-- ==== Proof.RefScoreWeight.lean ====
/-
  The reference's pair weight: the diagonal mask from the two iotas, the count-pair weight read from the bonded path
  distance, and the cubic fade of the distance, each read at explicit pose and atom coordinates.
-/
import proofs.«113635_j4526895530581_2_alg».proof.Proof.RefScoreDist

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.Read
open Cert.PairEnergy (lit cross distOf selfMask countPair fade pow6 lj lk weight ljTerm lkTerm term score)
open Idealize.ShloMosaic.ValueIdx (ix1 ix2 ix3)

/-! ## The count-pair weight, the fade, and their product -/

/-- The diagonal mask at `(p, q, k)` is the diagonal test of `q` against `k`: the row iota plus zero against the
    column iota. -/
theorem self_at (p : Fin 8) (q k : Fin 2048) :
    val_main_call2_v1 (F := Ideal) (ix3 p q k) = selfMask q k := by
  rw [val_main_call2_v1_apply, val_main_v100_apply, val_main_v99_apply, val_main_v98_apply, val_main_v95_apply,
    val_main_v96_apply, val_main_v97_apply, val_main_c_25_apply]
  show IntOp.cmpi .eq (IntOp.addi (BitVec.ofNat 32 q.val) 0#32) (BitVec.ofNat 32 k.val) = _
  rw [show IntOp.addi (BitVec.ofNat 32 q.val) 0#32 = BitVec.ofNat 32 q.val from BitVec.add_zero _]
  rfl

/-- The count-pair stage at `(p, q, k)`: zero on the diagonal, else by the bonded path distance. -/
theorem countPair_at (a3 : A3) (p : Fin 8) (q k : Fin 2048) :
    val_main_v101 (F := Ideal) a3 (ix3 p q k) = countPair (selfMask q k) (a3 (ix3 p q k)) := by
  rw [val_main_v101_apply, self_at, val_main_call2_v2_apply, val_main_call2_v0_apply, val_main_cst_26_apply,
    val_main_v94_apply, val_main_v93_apply, val_main_v89_apply, val_main_v88_apply, val_main_c_20_apply,
    val_main_call1_v0_apply, val_main_cst_24_apply, val_main_v92_apply, val_main_v91_apply, val_main_v90_apply,
    val_main_c_21_apply, val_main_call0_v0_apply, val_main_cst_22_apply, val_main_call0_v1_apply,
    val_main_cst_23_apply]
  rfl

/-- The fade stage at `(p, q, k)` is the cubic fade of the pair's distance. -/
theorem fade_at (a0 : A0) (p : Fin 8) (q k : Fin 2048) :
    val_main_v114 (F := Ideal) a0 (ix3 p q k) = fade (PairEnergy.dist (coordsOf a0) p q k) := by
  rw [val_main_v114_apply, val_main_v113_apply, val_main_cst_33_apply, val_main_v112_apply, val_main_v107_apply,
    val_main_v111_apply, val_main_v110_apply, val_main_cst_32_apply, val_main_v109_apply, val_main_v108_apply,
    val_main_cst_31_apply, val_main_v106_apply, val_main_call3_v4_apply, val_main_call3_v3_apply,
    val_main_cst_30_apply, val_main_call3_v2_apply, val_main_call3_v1_apply, val_main_call3_v0_apply,
    val_main_cst_29_apply, val_main_v105_apply, val_main_v103_apply, dist_at, val_main_v102_apply,
    val_main_cst_27_apply, val_main_v104_apply, val_main_cst_28_apply]
  rfl

/-- The weight stage at `(p, q, k)` is the pair's count-pair weight times its fade. -/
theorem weight_at (a0 : A0) (a1 : A1) (a2 : A2) (a3 : A3) (p : Fin 8) (q k : Fin 2048) :
    val_main_v185 (F := Ideal) a0 a3 (ix3 p q k) = weight (coordsOf a0) (paramsOf a1 a2 a3) p q k := by
  rw [val_main_v185_apply, countPair_at, fade_at]
  rfl

end Cert.ReferenceIdeal.RefValue

end
-- ==== Proof.RefScoreParams.lean ====
/-
  The reference's per-atom parameters on the pair grid: every broadcast of a gathered array read at explicit pose and
  atom coordinates, and the pair's σ and ε.
-/
import proofs.«113635_j4526895530581_2_alg».proof.Proof.RefScore

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.Read
open Cert.PairEnergy (lit cross distOf selfMask countPair fade pow6 lj lk weight ljTerm lkTerm term score)
open Idealize.ShloMosaic.ValueIdx (ix1 ix2 ix3)

/-- Closes `f i = f j` for two rank-2 indices with equal coordinates. -/
local macro "idx2" : tactic => `(tactic| (congr 1; funext a; match a with | ⟨0, _⟩ => rfl | ⟨1, _⟩ => rfl))

/-! ## The per-atom parameters broadcast over the pair grid

Each gathered per-atom array is broadcast once along the columns (reading the row atom `q`) and once along the rows
(reading the column atom `k`). -/

variable (a3 : A3)

/-- The radii broadcast along the columns read the row atom's radius. -/
theorem r_row_at (a1 : A1) (a2 : A2) (p : Fin 8) (q k : Fin 2048) :
    val_main_v79 (F := Ideal) a1 a2 (ix3 p q k) = (paramsOf a1 a2 a3).R p q := by
  rw [val_main_v79_apply, val_main_v77_apply]
  show val_main_v34 (F := Ideal) a1 a2 _ = val_main_v34 (F := Ideal) a1 a2 (ix2 p q)
  idx2

/-- The radii broadcast along the rows read the column atom's radius. -/
theorem r_col_at (a1 : A1) (a2 : A2) (p : Fin 8) (q k : Fin 2048) :
    val_main_v80 (F := Ideal) a1 a2 (ix3 p q k) = (paramsOf a1 a2 a3).R p k := by
  rw [val_main_v80_apply, val_main_v78_apply]
  show val_main_v34 (F := Ideal) a1 a2 _ = val_main_v34 (F := Ideal) a1 a2 (ix2 p k)
  idx2

/-- The well depths broadcast along the columns read the row atom's. -/
theorem w_row_at (a1 : A1) (a2 : A2) (p : Fin 8) (q k : Fin 2048) :
    val_main_v84 (F := Ideal) a1 a2 (ix3 p q k) = (paramsOf a1 a2 a3).W p q := by
  rw [val_main_v84_apply, val_main_v82_apply]
  show val_main_v41 (F := Ideal) a1 a2 _ = val_main_v41 (F := Ideal) a1 a2 (ix2 p q)
  idx2

/-- The well depths broadcast along the rows read the column atom's. -/
theorem w_col_at (a1 : A1) (a2 : A2) (p : Fin 8) (q k : Fin 2048) :
    val_main_v85 (F := Ideal) a1 a2 (ix3 p q k) = (paramsOf a1 a2 a3).W p k := by
  rw [val_main_v85_apply, val_main_v83_apply]
  show val_main_v41 (F := Ideal) a1 a2 _ = val_main_v41 (F := Ideal) a1 a2 (ix2 p k)
  idx2

/-- The second column-wise broadcast of the radii reads the row atom's radius. -/
theorem r_row2_at (a1 : A1) (a2 : A2) (p : Fin 8) (q k : Fin 2048) :
    val_main_v145 (F := Ideal) a1 a2 (ix3 p q k) = (paramsOf a1 a2 a3).R p q := by
  rw [val_main_v145_apply, val_main_v144_apply]
  show val_main_v34 (F := Ideal) a1 a2 _ = val_main_v34 (F := Ideal) a1 a2 (ix2 p q)
  idx2

/-- The correlation lengths broadcast along the columns read the row atom's. -/
theorem lam_row_at (a1 : A1) (a2 : A2) (p : Fin 8) (q k : Fin 2048) :
    val_main_v148 (F := Ideal) a1 a2 (ix3 p q k) = (paramsOf a1 a2 a3).LAM p q := by
  rw [val_main_v148_apply, val_main_v147_apply]
  show val_main_v55 (F := Ideal) a1 a2 _ = val_main_v55 (F := Ideal) a1 a2 (ix2 p q)
  idx2

/-- The second row-wise broadcast of the radii reads the column atom's radius. -/
theorem r_col2_at (a1 : A1) (a2 : A2) (p : Fin 8) (q k : Fin 2048) :
    val_main_v151 (F := Ideal) a1 a2 (ix3 p q k) = (paramsOf a1 a2 a3).R p k := by
  rw [val_main_v151_apply, val_main_v150_apply]
  show val_main_v34 (F := Ideal) a1 a2 _ = val_main_v34 (F := Ideal) a1 a2 (ix2 p k)
  idx2

/-- The correlation lengths broadcast along the rows read the column atom's. -/
theorem lam_col_at (a1 : A1) (a2 : A2) (p : Fin 8) (q k : Fin 2048) :
    val_main_v154 (F := Ideal) a1 a2 (ix3 p q k) = (paramsOf a1 a2 a3).LAM p k := by
  rw [val_main_v154_apply, val_main_v153_apply]
  show val_main_v55 (F := Ideal) a1 a2 _ = val_main_v55 (F := Ideal) a1 a2 (ix2 p k)
  idx2

/-- The free energies broadcast along the columns read the row atom's. -/
theorem dg_row_at (a1 : A1) (a2 : A2) (p : Fin 8) (q k : Fin 2048) :
    val_main_v161 (F := Ideal) a1 a2 (ix3 p q k) = (paramsOf a1 a2 a3).DG p q := by
  rw [val_main_v161_apply, val_main_v159_apply]
  show val_main_v48 (F := Ideal) a1 a2 _ = val_main_v48 (F := Ideal) a1 a2 (ix2 p q)
  idx2

/-- The volumes broadcast along the rows read the column atom's. -/
theorem vol_col_at (a1 : A1) (a2 : A2) (p : Fin 8) (q k : Fin 2048) :
    val_main_v162 (F := Ideal) a1 a2 (ix3 p q k) = (paramsOf a1 a2 a3).VOL p k := by
  rw [val_main_v162_apply, val_main_v160_apply]
  show val_main_v62 (F := Ideal) a1 a2 _ = val_main_v62 (F := Ideal) a1 a2 (ix2 p k)
  idx2

/-- The second column-wise broadcast of the correlation lengths reads the row atom's. -/
theorem lam_row2_at (a1 : A1) (a2 : A2) (p : Fin 8) (q k : Fin 2048) :
    val_main_v165 (F := Ideal) a1 a2 (ix3 p q k) = (paramsOf a1 a2 a3).LAM p q := by
  rw [val_main_v165_apply, val_main_v164_apply]
  show val_main_v55 (F := Ideal) a1 a2 _ = val_main_v55 (F := Ideal) a1 a2 (ix2 p q)
  idx2

/-- The free energies broadcast along the rows read the column atom's. -/
theorem dg_col_at (a1 : A1) (a2 : A2) (p : Fin 8) (q k : Fin 2048) :
    val_main_v173 (F := Ideal) a1 a2 (ix3 p q k) = (paramsOf a1 a2 a3).DG p k := by
  rw [val_main_v173_apply, val_main_v171_apply]
  show val_main_v48 (F := Ideal) a1 a2 _ = val_main_v48 (F := Ideal) a1 a2 (ix2 p k)
  idx2

/-- The volumes broadcast along the columns read the row atom's. -/
theorem vol_row_at (a1 : A1) (a2 : A2) (p : Fin 8) (q k : Fin 2048) :
    val_main_v174 (F := Ideal) a1 a2 (ix3 p q k) = (paramsOf a1 a2 a3).VOL p q := by
  rw [val_main_v174_apply, val_main_v172_apply]
  show val_main_v62 (F := Ideal) a1 a2 _ = val_main_v62 (F := Ideal) a1 a2 (ix2 p q)
  idx2

/-- The second row-wise broadcast of the correlation lengths reads the column atom's. -/
theorem lam_col2_at (a1 : A1) (a2 : A2) (p : Fin 8) (q k : Fin 2048) :
    val_main_v177 (F := Ideal) a1 a2 (ix3 p q k) = (paramsOf a1 a2 a3).LAM p k := by
  rw [val_main_v177_apply, val_main_v176_apply]
  show val_main_v55 (F := Ideal) a1 a2 _ = val_main_v55 (F := Ideal) a1 a2 (ix2 p k)
  idx2

/-- The pair's `σ` is the sum of the two radii. -/
theorem sigma_at (a1 : A1) (a2 : A2) (p : Fin 8) (q k : Fin 2048) :
    val_main_v81 (F := Ideal) a1 a2 (ix3 p q k) = (paramsOf a1 a2 a3).R p q + (paramsOf a1 a2 a3).R p k := by
  rw [val_main_v81_apply, r_row_at a3, r_col_at a3]; rfl

/-- The pair's `ε` is the geometric mean of the two well depths. -/
theorem eps_at (a1 : A1) (a2 : A2) (p : Fin 8) (q k : Fin 2048) :
    val_main_v87 (F := Ideal) a1 a2 (ix3 p q k)
      = Ideal.sqrt ((paramsOf a1 a2 a3).W p q * (paramsOf a1 a2 a3).W p k) := by
  rw [val_main_v87_apply, val_main_v86_apply, w_row_at a3, w_col_at a3]; rfl

end Cert.ReferenceIdeal.RefValue

end
-- ==== Proof.RefScoreLJ.lean ====
/-
  The reference's Lennard-Jones stage read at explicit pose and atom coordinates.
-/
import proofs.«113635_j4526895530581_2_alg».proof.Proof.RefScoreDist
import proofs.«113635_j4526895530581_2_alg».proof.Proof.RefScoreParams

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.Read
open Cert.PairEnergy (lit cross distOf selfMask countPair fade pow6 lj lk weight ljTerm lkTerm term score)
open Idealize.ShloMosaic.ValueIdx (ix1 ix2 ix3)

/-! ## The Lennard-Jones energy of a pair

Throughout, the pair's `σ` is `R p q + R p k`, its `ε` is `√(W p q · W p k)` and its distance is `dist X p q k`. -/

/-- A square times its own square is the sixth power as the specification groups it. -/
theorem pow6_swap (x : EReal) : (x * x) * ((x * x) * (x * x)) = pow6 x := mul_comm _ _

/-- The linear-regime threshold `0.6 · σ`. -/
theorem dlin_at (a1 : A1) (a2 : A2) (a3 : A3) (p : Fin 8) (q k : Fin 2048) :
    val_main_v116 (F := Ideal) a1 a2 (ix3 p q k)
      = lit 0x3F19999A#32 * ((paramsOf a1 a2 a3).R p q + (paramsOf a1 a2 a3).R p k) := by
  rw [val_main_v116_apply, val_main_v115_apply, val_main_cst_34_apply, sigma_at a3]
  rfl

/-- The sixth power of `σ` over the distance floored at the threshold. -/
theorem x6_at (a0 : A0) (a1 : A1) (a2 : A2) (a3 : A3) (p : Fin 8) (q k : Fin 2048) :
    val_main_v121 (F := Ideal) a0 a1 a2 (ix3 p q k)
      = pow6 (Ideal.div ((paramsOf a1 a2 a3).R p q + (paramsOf a1 a2 a3).R p k)
          (max (PairEnergy.dist (coordsOf a0) p q k)
            (lit 0x3F19999A#32 * ((paramsOf a1 a2 a3).R p q + (paramsOf a1 a2 a3).R p k)))) := by
  rw [val_main_v121_apply, val_main_v120_apply, val_main_v119_apply, val_main_v118_apply, val_main_v117_apply,
    dlin_at a1 a2 a3, sigma_at a3, dist_at]
  refine Eq.trans ?_ (pow6_swap _)
  rfl

/-- The sixth power of `σ` over the threshold. -/
theorem x6l_at (a1 : A1) (a2 : A2) (a3 : A3) (p : Fin 8) (q k : Fin 2048) :
    val_main_v130 (F := Ideal) a1 a2 (ix3 p q k)
      = pow6 (Ideal.div ((paramsOf a1 a2 a3).R p q + (paramsOf a1 a2 a3).R p k)
          (lit 0x3F19999A#32 * ((paramsOf a1 a2 a3).R p q + (paramsOf a1 a2 a3).R p k))) := by
  rw [val_main_v130_apply, val_main_v129_apply, val_main_v128_apply, val_main_v127_apply, dlin_at a1 a2 a3,
    sigma_at a3]
  refine Eq.trans ?_ (pow6_swap _)
  rfl

/-- The Lennard-Jones stage at `(p, q, k)` is the pair's 12-6 energy with its linear continuation. -/
theorem lj_at (a0 : A0) (a1 : A1) (a2 : A2) (a3 : A3) (p : Fin 8) (q k : Fin 2048) :
    val_main_v141 (F := Ideal) a0 a1 a2 (ix3 p q k)
      = lj ((paramsOf a1 a2 a3).R p q + (paramsOf a1 a2 a3).R p k)
          (Ideal.sqrt ((paramsOf a1 a2 a3).W p q * (paramsOf a1 a2 a3).W p k))
          (PairEnergy.dist (coordsOf a0) p q k) := by
  rw [val_main_v141_apply, val_main_v137_apply, val_main_v140_apply, val_main_v139_apply, val_main_v138_apply,
    val_main_v136_apply, val_main_v135_apply, val_main_v134_apply, val_main_v133_apply, val_main_v132_apply,
    val_main_v131_apply, val_main_cst_36_apply, val_main_v126_apply, val_main_v125_apply, val_main_v124_apply,
    val_main_v123_apply, val_main_cst_35_apply, val_main_v122_apply, x6_at a0 a1 a2 a3, x6l_at a1 a2 a3,
    dlin_at a1 a2 a3, eps_at a3, dist_at]
  rfl

end Cert.ReferenceIdeal.RefValue

end
-- ==== Proof.RefScoreLK.lean ====
/-
  The reference's Lazaridis-Karplus stage read at explicit pose and atom coordinates.
-/
import proofs.«113635_j4526895530581_2_alg».proof.Proof.RefScoreDist
import proofs.«113635_j4526895530581_2_alg».proof.Proof.RefScoreParams

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.Read
open Cert.PairEnergy (lit cross distOf selfMask countPair fade pow6 lj lk weight ljTerm lkTerm term score)
open Idealize.ShloMosaic.ValueIdx (ix1 ix2 ix3)

/-! ## The Lazaridis-Karplus energy of a pair -/

/-- The Lazaridis-Karplus stage at `(p, q, k)` is the pair's symmetrized desolvation energy. -/
theorem lk_at (a0 : A0) (a1 : A1) (a2 : A2) (a3 : A3) (p : Fin 8) (q k : Fin 2048) :
    val_main_v184 (F := Ideal) a0 a1 a2 (ix3 p q k)
      = lk (PairEnergy.dist (coordsOf a0) p q k)
          ((paramsOf a1 a2 a3).R p q) ((paramsOf a1 a2 a3).R p k) ((paramsOf a1 a2 a3).LAM p q) ((paramsOf a1 a2 a3).LAM p k)
          ((paramsOf a1 a2 a3).DG p q) ((paramsOf a1 a2 a3).DG p k)
          ((paramsOf a1 a2 a3).VOL p q) ((paramsOf a1 a2 a3).VOL p k) := by
  rw [val_main_v184_apply, val_main_v158_apply, val_main_v157_apply, val_main_cst_38_apply, val_main_v156_apply,
    val_main_v183_apply, val_main_v170_apply, val_main_v166_apply, val_main_v163_apply, val_main_v169_apply,
    val_main_v168_apply, val_main_v167_apply, val_main_v149_apply, val_main_v146_apply,
    val_main_v182_apply, val_main_v178_apply, val_main_v175_apply, val_main_v181_apply, val_main_v180_apply,
    val_main_v179_apply, val_main_v155_apply, val_main_v152_apply, val_main_v143_apply, val_main_v142_apply,
    val_main_cst_37_apply, dist_at, r_row2_at a3, lam_row_at a3, r_col2_at a3, lam_col_at a3, dg_row_at a3,
    vol_col_at a3, lam_row2_at a3, dg_col_at a3, vol_row_at a3, lam_col2_at a3]
  rfl

end Cert.ReferenceIdeal.RefValue

end
-- ==== Proof.RefScoreSum.lean ====
/-
  The reference's result is the pair-energy score: the two weighted energies, the host's sum over the two atom axes
  re-indexed as the double sum over pairs, the halving, and the stacking of the two rows.
-/
import proofs.«113635_j4526895530581_2_alg».proof.Proof.RefScoreWeight
import proofs.«113635_j4526895530581_2_alg».proof.Proof.RefScoreLJ
import proofs.«113635_j4526895530581_2_alg».proof.Proof.RefScoreLK

noncomputable section

namespace Cert.ReferenceIdeal.RefValue

open Cert.ReferenceIdeal Cert.ReferenceIdeal.Gen Idealize.ShloMosaic Idealize.ShloMosaic.TcCoe Idealize.SL.Sem
  Idealize.ShloMosaic.StableHlo Cert.ReferenceIdeal.Read
open Cert.PairEnergy (lit cross distOf selfMask countPair fade pow6 lj lk weight ljTerm lkTerm term score)
open Idealize.ShloMosaic.ValueIdx (ix1 ix2 ix3)

/-! ## The two weighted pair energies -/

/-- The weighted Lennard-Jones stage at `(p, q, k)` is row 0 of the pair term. -/
theorem ljTerm_at (a0 : A0) (a1 : A1) (a2 : A2) (a3 : A3) (p : Fin 8) (q k : Fin 2048) :
    val_main_v186 (F := Ideal) a0 a1 a2 a3 (ix3 p q k) = term (coordsOf a0) (paramsOf a1 a2 a3) 0 p q k := by
  rw [val_main_v186_apply, lj_at a0 a1 a2 a3, weight_at a0 a1 a2 a3]
  unfold term; rw [if_pos rfl]; rfl

/-- The weighted Lazaridis-Karplus stage at `(p, q, k)` is row 1 of the pair term. -/
theorem lkTerm_at (a0 : A0) (a1 : A1) (a2 : A2) (a3 : A3) (p : Fin 8) (q k : Fin 2048) :
    val_main_v190 (F := Ideal) a0 a1 a2 a3 (ix3 p q k) = term (coordsOf a0) (paramsOf a1 a2 a3) 1 p q k := by
  rw [val_main_v190_apply, lk_at a0 a1 a2 a3, weight_at a0 a1 a2 a3]
  unfold term; rw [if_neg (by decide)]; rfl

/-! ## The sum over the two atom axes -/

/-- Dropping the two atom axes of a pair-grid index leaves its pose: it drops to `p` exactly when its first
    coordinate is `p`. -/
theorem drop_eq_iff (i : S8x2048x2048.Idx) (p : Fin 8) :
    reducesTo_S8x2048x2048_S8_d1_2.drop i = ix1 p ↔ i 0 = p := by
  constructor
  · intro h
    have h0 := congrArg (fun j : S8.Idx => (j 0).val) h
    exact Fin.ext ((Shape.ReducesTo.drop_apply_val_of_eq reducesTo_S8x2048x2048_S8_d1_2 i 0 0).symm.trans h0)
  · intro h
    funext b
    obtain rfl : b = 0 := Subsingleton.elim _ _
    exact Fin.ext ((Shape.ReducesTo.drop_apply_val_of_eq reducesTo_S8x2048x2048_S8_d1_2 i 0 0).trans
      (congrArg Fin.val h))

/-- The pair-grid indices of pose `p` are the pairs `(q, k)`: a sum over the indices that drop to `p`, split by the
    row atom, is the double sum over the two atoms. -/
theorem sum_pose (f : S8x2048x2048.Idx → EReal) (p : Fin 8) :
    ∑ i ∈ Finset.univ.filter (fun i => reducesTo_S8x2048x2048_S8_d1_2.drop i = ix1 p), f i
      = ∑ q : Fin 2048, ∑ k : Fin 2048, f (ix3 p q k) := by
  rw [← Finset.sum_fiberwise _ (fun i : S8x2048x2048.Idx => (i 1 : Fin 2048)) f]
  refine Finset.sum_congr rfl fun q _ => ?_
  symm
  refine Finset.sum_nbij' (fun k => ix3 p q k) (fun i => (i 2 : Fin 2048)) ?_ (fun _ _ => Finset.mem_univ _) ?_ ?_ ?_
  · intro k _
    exact Finset.mem_filter.2 ⟨Finset.mem_filter.2 ⟨Finset.mem_univ _, (drop_eq_iff _ p).2 rfl⟩, rfl⟩
  · intro k _; rfl
  · intro i hi
    obtain ⟨hi1, h1⟩ := Finset.mem_filter.1 hi
    have h0 : i 0 = p := (drop_eq_iff i p).1 (Finset.mem_filter.1 hi1).2
    funext a
    match a with
    | ⟨0, _⟩ => exact h0.symm
    | ⟨1, _⟩ => exact h1.symm
    | ⟨2, _⟩ => rfl
  · intro k _; rfl

/-- The host's sum over the two atom axes, at pose `p`: the initial value plus the double sum over the pairs. -/
theorem reduce_pose (y : S8x2048x2048.Idx → EReal) (c : S_.Idx → EReal) (p : Fin 8) :
    Host.reduceAdd (F := Ideal) (φ := .f32) y c reducesTo_S8x2048x2048_S8_d1_2 h_S_ (ix1 p)
      = c (Shape.Idx.first h_S_) + ∑ q : Fin 2048, ∑ k : Fin 2048, y (ix3 p q k) := by
  simp only [Host.reduceAdd, Ideal.hostReduceAdd_def]
  unfold Ideal.hostReduceAdd
  exact congrArg (_ + ·) (sum_pose y p)

/-! ## The two rows of the result -/

/-- Half the Lennard-Jones sum at pose `p` is row 0 of the score. -/
theorem lj_score_at (a0 : A0) (a1 : A1) (a2 : A2) (a3 : A3) (p : Fin 8) :
    val_main_v189 (F := Ideal) a0 a1 a2 a3 (ix1 p) = score (coordsOf a0) (paramsOf a1 a2 a3) 0 p := by
  rw [val_main_v189_apply, val_main_v188_apply, val_main_cst_40_apply]
  unfold val_main_v187
  rw [reduce_pose, val_main_cst_39_apply]
  show lit 0x3F000000#32 * (lit 0x00000000#32
      + ∑ q : Fin 2048, ∑ k : Fin 2048, val_main_v186 (F := Ideal) a0 a1 a2 a3 (ix3 p q k)) = _
  unfold score
  refine congrArg (lit 0x3F000000#32 * ·) (congrArg (lit 0x00000000#32 + ·) ?_)
  exact Finset.sum_congr rfl fun q _ => Finset.sum_congr rfl fun k _ => ljTerm_at a0 a1 a2 a3 p q k

/-- Half the Lazaridis-Karplus sum at pose `p` is row 1 of the score. -/
theorem lk_score_at (a0 : A0) (a1 : A1) (a2 : A2) (a3 : A3) (p : Fin 8) :
    val_main_v193 (F := Ideal) a0 a1 a2 a3 (ix1 p) = score (coordsOf a0) (paramsOf a1 a2 a3) 1 p := by
  rw [val_main_v193_apply, val_main_v192_apply, val_main_cst_42_apply]
  unfold val_main_v191
  rw [reduce_pose, val_main_cst_41_apply]
  show lit 0x3F000000#32 * (lit 0x00000000#32
      + ∑ q : Fin 2048, ∑ k : Fin 2048, val_main_v190 (F := Ideal) a0 a1 a2 a3 (ix3 p q k)) = _
  unfold score
  refine congrArg (lit 0x3F000000#32 * ·) (congrArg (lit 0x00000000#32 + ·) ?_)
  exact Finset.sum_congr rfl fun q _ => Finset.sum_congr rfl fun k _ => lkTerm_at a0 a1 a2 a3 p q k

/-- The first piece of the result, a row of the eight Lennard-Jones scores. -/
theorem row0_at (a0 : A0) (a1 : A1) (a2 : A2) (a3 : A3) (p : Fin 8) :
    val_main_v194 (F := Ideal) a0 a1 a2 a3 (ix2 (0 : Fin 1) p) = score (coordsOf a0) (paramsOf a1 a2 a3) 0 p := by
  rw [val_main_v194_apply, ← lj_score_at]
  congr 1; funext a; match a with | ⟨0, _⟩ => rfl

/-- The second piece of the result, a row of the eight Lazaridis-Karplus scores. -/
theorem row1_at (a0 : A0) (a1 : A1) (a2 : A2) (a3 : A3) (p : Fin 8) :
    val_main_v195 (F := Ideal) a0 a1 a2 a3 (ix2 (0 : Fin 1) p) = score (coordsOf a0) (paramsOf a1 a2 a3) 1 p := by
  rw [val_main_v195_apply, ← lk_score_at]
  congr 1; funext a; match a with | ⟨0, _⟩ => rfl

/-! ## The result -/

/-- The reference's result is the score: row `s`, pose `p` of the stacked array is `score` at `(s, p)`. -/
theorem result_eq (a0 : A0) (a1 : A1) (a2 : A2) (a3 : A3) :
    val_main_v196 (F := Ideal) a0 a1 a2 a3
      = fun i => score (coordsOf a0) (paramsOf a1 a2 a3) (i 0) (i 1) := by
  funext i
  obtain ⟨s, p, rfl⟩ : ∃ (s : Fin 2) (p : Fin 8), i = ix2 s p := ⟨i 0, i 1, ValueIdx.eq_ix2 i⟩
  show val_main_v196 (F := Ideal) a0 a1 a2 a3 (ix2 s p) = score (coordsOf a0) (paramsOf a1 a2 a3) s p
  unfold val_main_v196
  match s with
  | ⟨0, _⟩ =>
    refine (concatenate_pair_apply_left (0 : Fin S2x8.rank) _ _ concatenates_S1x8_S1x8_S2x8_d0 _ rfl
      (ix2 (0 : Fin 1) p) (fun b => by match b with | ⟨0, _⟩ => rfl | ⟨1, _⟩ => rfl)).trans ?_
    exact row0_at a0 a1 a2 a3 p
  | ⟨1, _⟩ =>
    refine (concatenate_pair_apply_right (0 : Fin S2x8.rank) _ _ concatenates_S1x8_S1x8_S2x8_d0 _ rfl rfl
      (ix2 (0 : Fin 1) p) (fun b hb => by match b with | ⟨0, _⟩ => exact absurd rfl hb | ⟨1, _⟩ => rfl) rfl).trans ?_
    exact row1_at a0 a1 a2 a3 p

end Cert.ReferenceIdeal.RefValue

end
-- ==== Proof.lean ====
/-
  A pairwise energy kernel against its reference: both compute, for each of 8 poses of 2048 atoms, a Lennard-Jones
  and a Lazaridis-Karplus score — half the sum over all ordered atom pairs of a weighted pair term of the atoms'
  distance and per-atom parameters.

  The kernel walks a 128 × 16 grid of tiles (16 rows by 128 columns of the pair matrix), zeroes a resident [2,8]
  accumulator at the first tile and adds half of each tile's double sum to it; the reference takes half of the one
  double sum over all pairs.  Read over the extended reals the two agree: a tile's term at a pair is the
  reference's term at that pair, operation for operation (a sixth power is grouped differently and a negation is
  written as a difference from zero, which is the same on the extended reals); sums of extended reals may be
  regrouped and reordered freely; and multiplying by the non-negative finite constant one half distributes over them
  even at the infinities.  No finiteness of the inputs is used.

  The kernel's run: its two pairs of windows that read one array each hold half a share of it; the body is run
  symbolically at the first grid point and at a later one; the result array is written back once, after the last
  point.  The reference's run and its operations read at an index are the generated modules; what is proved by hand
  is that the kernel's arithmetic at a tile and the reference's at a pair are the one pair term, the regrouping of
  the sums, and the kernel's frame.  The idealization rewrote nothing, so there is nothing to preserve.
-/
import proofs.«113635_j4526895530581_2_alg».proof.Defs
import proofs.«113635_j4526895530581_2_alg».proof.Proof.Gen.Kernel
import proofs.«113635_j4526895530581_2_alg».proof.Proof.Gen.KernelIdeal
import proofs.«113635_j4526895530581_2_alg».proof.Proof.Gen.ReferenceIdeal
import proofs.«113635_j4526895530581_2_alg».proof.Proof.Gen.Pre_finite_inputs
import proofs.«113635_j4526895530581_2_alg».proof.Proof.KBClaim
import proofs.«113635_j4526895530581_2_alg».proof.Proof.KIClaim
import proofs.«113635_j4526895530581_2_alg».proof.Proof.KIFinal
import proofs.«113635_j4526895530581_2_alg».proof.Proof.KIValue
import proofs.«113635_j4526895530581_2_alg».proof.Proof.KIParamsRef
import proofs.«113635_j4526895530581_2_alg».proof.Proof.RefScoreSum
import Idealize.ShloMosaic.Adequacy
import Idealize.ShloMosaic.Init

noncomputable section

namespace Cert.Proof

open Idealize.ShloMosaic Idealize.SL.Sem Idealize.ShloMosaic.ValueIdx Idealize.ShloMosaic.TcCoe

/-- The word-level kernel runs and leaves its arguments as they were. -/
theorem frame_p : Cert.frame_Kernel := fun m ρ _ => Cert.Kernel.Tile.frame (F := Bits) m ρ

/-- So does the idealized kernel. -/
theorem frame_pi : Cert.frame_KernelIdeal := fun m ρ _ => Cert.KernelIdeal.Tile.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's result array holds each pose's two scores. -/
theorem kernel_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v69)
          = (fun i => Cert.PairEnergy.score (Cert.KernelIdeal.Tile.Xk m c) (Cert.KernelIdeal.Tile.Pk m c) (i 0) (i 1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r h c => ⟨(h c).1.trans ?_, (h c).2⟩) (Cert.KernelIdeal.Tile.run_out (F := Ideal) m ρ)
  rw [Cert.KernelIdeal.Tile.final5 m c ⟨2047, lt_of_lt_of_eq (by decide : 2047 < 2048) (show (2048 : ℕ) = Cert.KernelIdeal.cfg0.N from Cert.KernelIdeal.Gen.N_0.symm)⟩ rfl]
  funext i
  obtain ⟨s, p, rfl⟩ : ∃ (s : Fin 2) (p : Fin 8), i = ix2 s p := ⟨i 0, i 1, eq_ix2 i⟩
  exact Cert.KernelIdeal.Tile.acc_last m c s p

/-- Run from memories agreeing on the arguments, the idealized kernel and the idealized reference end with equal
    results: each pose's two scores. -/
theorem algebraic : Cert.algebraic_KernelIdeal_ReferenceIdeal := by
  intro m ρ m' ρ' _ hagree
  refine ⟨fun c => fun i => Cert.PairEnergy.score (Cert.KernelIdeal.Tile.Xk m c) (Cert.KernelIdeal.Tile.Pk m c) (i 0) (i 1),
    kernel_value m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v196_eq, Cert.ReferenceIdeal.RefValue.result_eq,
    (hagree c).1, (hagree c).2.1, (hagree c).2.2.1, (hagree c).2.2.2,
    ← Cert.KernelIdeal.Tile.Xk_eq m c, ← Cert.KernelIdeal.Tile.Pk_eq m c]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
